-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x400 : Shape := ⟨2, ![2048, 400]⟩
abbrev S2048x16x32 : Shape := ⟨3, ![2048, 16, 32]⟩
abbrev S2048x16x50 : Shape := ⟨3, ![2048, 16, 50]⟩
abbrev S1712x1024 : Shape := ⟨2, ![1712, 1024]⟩
abbrev S1024 : Shape := ⟨1, ![1024]⟩
abbrev S1024x1024 : Shape := ⟨2, ![1024, 1024]⟩
abbrev S1024x26112 : Shape := ⟨2, ![1024, 26112]⟩
abbrev S26112 : Shape := ⟨1, ![26112]⟩
abbrev S_ : Shape := ⟨0, ![]⟩

class Facts : Prop where
  bcast_S_S2048x400 : S_.BroadcastsInDim S2048x400 (![] : Fin 0 → Fin S2048x400.rank)
  reducesTo_S2048x400_S_d0_1 : S2048x400.ReducesTo [0, 1] S_
  h_S_ : 0 < S_.numel
  bcast_S_S2048x16x32 : S_.BroadcastsInDim S2048x16x32 (![] : Fin 0 → Fin S2048x16x32.rank)
  reducesTo_S2048x16x32_S_d0_1_2 : S2048x16x32.ReducesTo [0, 1, 2] S_
  bcast_S_S2048x16x50 : S_.BroadcastsInDim S2048x16x50 (![] : Fin 0 → Fin S2048x16x50.rank)
  reducesTo_S2048x16x50_S_d0_1_2 : S2048x16x50.ReducesTo [0, 1, 2] S_
  bcast_S_S1712x1024 : S_.BroadcastsInDim S1712x1024 (![] : Fin 0 → Fin S1712x1024.rank)
  reducesTo_S1712x1024_S_d0_1 : S1712x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x26112 : S_.BroadcastsInDim S1024x26112 (![] : Fin 0 → Fin S1024x26112.rank)
  reducesTo_S1024x26112_S_d0_1 : S1024x26112.ReducesTo [0, 1] S_
  bcast_S_S26112 : S_.BroadcastsInDim S26112 (![] : Fin 0 → Fin S26112.rank)
  reducesTo_S26112_S_d0 : S26112.ReducesTo [0] S_

variable [Facts]

def fn_part2 {F : FTy → Type} [FloatOps F] (main_arg7 : FVec F S1024x26112 .f32) (main_arg8 : FVec F S26112 .f32) (main_v33 : IVec S_ 1) : IVec S_ 1 :=
  let main_v34 : FVec F S1024x26112 .f32 := Host.absf main_arg7
  let main_cst_12 : FVec F S_ .f32 := constant S_ .f32 0x7F800000#32
  let main_v35 : FVec F S1024x26112 .f32 := broadcastInDim S1024x26112 ![] bcast_S_S1024x26112 main_cst_12
  let main_v36 : IVec S1024x26112 1 := cmpf .olt main_v34 main_v35
  let main_c_13 : IVec S_ 1 := constantI S_ 1 1#1
  let main_v37 : IVec S_ 1 := (fun x v => Host.reduce IntOp.andi x v reducesTo_S1024x26112_S_d0_1 h_S_) main_v36 main_c_13
  let main_v38 : IVec S_ 1 := andi main_v33 main_v37
  let main_v39 : FVec F S26112 .f32 := Host.absf main_arg8
  let main_cst_14 : FVec F S_ .f32 := constant S_ .f32 0x7F800000#32
  let main_v40 : FVec F S26112 .f32 := broadcastInDim S26112 ![] bcast_S_S26112 main_cst_14
  let main_v41 : IVec S26112 1 := cmpf .olt main_v39 main_v40
  let main_c_15 : IVec S_ 1 := constantI S_ 1 1#1
  let main_v42 : IVec S_ 1 := (fun x v => Host.reduce IntOp.andi x v reducesTo_S26112_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x26112 .f32) (main_arg8 : FVec F S26112 .f32) (main_v13 : IVec S_ 1) (main_v16 : IVec S1712x1024 1) : IVec S_ 1 :=
  let main_c_5 : IVec S_ 1 := constantI S_ 1 1#1
  let main_v17 : IVec S_ 1 := (fun x v => Host.reduce IntOp.andi x v reducesTo_S1712x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S2048x400 .f32) (main_arg1 : FVec F S2048x16x32 .f32) (main_arg2 : FVec F S2048x16x50 .f32) (main_arg3 : FVec F S1712x1024 .f32) (main_arg4 : FVec F S1024 .f32) (main_arg5 : FVec F S1024x1024 .f32) (main_arg6 : FVec F S1024 .f32) (main_arg7 : FVec F S1024x26112 .f32) (main_arg8 : FVec F S26112 .f32) : IVec S_ 1 :=
  let main_v0 : FVec F S2048x400 .f32 := Host.absf main_arg0
  let main_cst : FVec F S_ .f32 := constant S_ .f32 0x7F800000#32
  let main_v1 : FVec F S2048x400 .f32 := broadcastInDim S2048x400 ![] bcast_S_S2048x400 main_cst
  let main_v2 : IVec S2048x400 1 := cmpf .olt main_v0 main_v1
  let main_c : IVec S_ 1 := constantI S_ 1 1#1
  let main_v3 : IVec S_ 1 := (fun x v => Host.reduce IntOp.andi x v reducesTo_S2048x400_S_d0_1 h_S_) main_v2 main_c
  let main_v4 : FVec F S2048x16x32 .f32 := Host.absf main_arg1
  let main_cst_0 : FVec F S_ .f32 := constant S_ .f32 0x7F800000#32
  let main_v5 : FVec F S2048x16x32 .f32 := broadcastInDim S2048x16x32 ![] bcast_S_S2048x16x32 main_cst_0
  let main_v6 : IVec S2048x16x32 1 := cmpf .olt main_v4 main_v5
  let main_c_1 : IVec S_ 1 := constantI S_ 1 1#1
  let main_v7 : IVec S_ 1 := (fun x v => Host.reduce IntOp.andi x v reducesTo_S2048x16x32_S_d0_1_2 h_S_) main_v6 main_c_1
  let main_v8 : IVec S_ 1 := andi main_v3 main_v7
  let main_v9 : FVec F S2048x16x50 .f32 := Host.absf main_arg2
  let main_cst_2 : FVec F S_ .f32 := constant S_ .f32 0x7F800000#32
  let main_v10 : FVec F S2048x16x50 .f32 := broadcastInDim S2048x16x50 ![] bcast_S_S2048x16x50 main_cst_2
  let main_v11 : IVec S2048x16x50 1 := cmpf .olt main_v9 main_v10
  let main_c_3 : IVec S_ 1 := constantI S_ 1 1#1
  let main_v12 : IVec S_ 1 := (fun x v => Host.reduce IntOp.andi x v reducesTo_S2048x16x50_S_d0_1_2 h_S_) main_v11 main_c_3
  let main_v13 : IVec S_ 1 := andi main_v8 main_v12
  let main_v14 : FVec F S1712x1024 .f32 := Host.absf main_arg3
  let main_cst_4 : FVec F S_ .f32 := constant S_ .f32 0x7F800000#32
  let main_v15 : FVec F S1712x1024 .f32 := broadcastInDim S1712x1024 ![] bcast_S_S1712x1024 main_cst_4
  let main_v16 : IVec S1712x1024 1 := cmpf .olt main_v14 main_v15
  fn_part1 (F := F) main_arg4 main_arg5 main_arg6 main_arg7 main_arg8 main_v13 main_v16
-- ==== Kernel.lean ====
abbrev S2048x400 : Shape := ⟨2, ![2048, 400]⟩
abbrev S2048x16x32 : Shape := ⟨3, ![2048, 16, 32]⟩
abbrev S2048x16x50 : Shape := ⟨3, ![2048, 16, 50]⟩
abbrev S1712x1024 : Shape := ⟨2, ![1712, 1024]⟩
abbrev S1024 : Shape := ⟨1, ![1024]⟩
abbrev S1024x1024 : Shape := ⟨2, ![1024, 1024]⟩
abbrev S1024x26112 : Shape := ⟨2, ![1024, 26112]⟩
abbrev S26112 : Shape := ⟨1, ![26112]⟩
abbrev S2048x512 : Shape := ⟨2, ![2048, 512]⟩
abbrev S2048x800 : Shape := ⟨2, ![2048, 800]⟩
abbrev S2048x16x1x50 : Shape := ⟨4, ![2048, 16, 1, 50]⟩
abbrev S2048x16x32x50 : Shape := ⟨4, ![2048, 16, 32, 50]⟩
abbrev S2048x512x50 : Shape := ⟨3, ![2048, 512, 50]⟩
abbrev S2048x512x1 : Shape := ⟨3, ![2048, 512, 1]⟩
abbrev S_ : Shape := ⟨0, ![]⟩
abbrev S2048x512x51 : Shape := ⟨3, ![2048, 512, 51]⟩
abbrev S2048x26112 : Shape := ⟨2, ![2048, 26112]⟩
abbrev S2048x1712 : Shape := ⟨2, ![2048, 1712]⟩
abbrev S1x1024 : Shape := ⟨2, ![1, 1024]⟩
abbrev S1x26112 : Shape := ⟨2, ![1, 26112]⟩
abbrev S2048x1024 : Shape := ⟨2, ![2048, 1024]⟩
abbrev S256x1712 : Shape := ⟨2, ![256, 1712]⟩
abbrev S256x1024 : Shape := ⟨2, ![256, 1024]⟩
abbrev S1024x2176 : Shape := ⟨2, ![1024, 2176]⟩
abbrev S1x2176 : Shape := ⟨2, ![1, 2176]⟩
abbrev S256x2176 : Shape := ⟨2, ![256, 2176]⟩

abbrev nBuf : Space → Nat
  | .hbm => 52
  | .vmem => 18
  | .smem => 0
  | _ => 0

abbrev bufTy : (tb : Table) → Fin (tcTables nBuf tb) → BufTy
  | .hbm, ⟨0, _⟩ => ⟨S2048x400, .f32⟩
  | .hbm, ⟨1, _⟩ => ⟨S2048x16x32, .f32⟩
  | .hbm, ⟨2, _⟩ => ⟨S2048x16x50, .f32⟩
  | .hbm, ⟨3, _⟩ => ⟨S1712x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x26112, .f32⟩
  | .hbm, ⟨8, _⟩ => ⟨S26112, .f32⟩
  | .hbm, ⟨9, _⟩ => ⟨S2048x512, .f32⟩
  | .hbm, ⟨10, _⟩ => ⟨S2048x800, .f32⟩
  | .hbm, ⟨11, _⟩ => ⟨S2048x16x1x50, .f32⟩
  | .hbm, ⟨12, _⟩ => ⟨S2048x16x32x50, .f32⟩
  | .hbm, ⟨13, _⟩ => ⟨S2048x512x50, .f32⟩
  | .hbm, ⟨14, _⟩ => ⟨S2048x512x1, .f32⟩
  | .hbm, ⟨15, _⟩ => ⟨S_, .f32⟩
  | .hbm, ⟨16, _⟩ => ⟨S2048x512x50, .f32⟩
  | .hbm, ⟨17, _⟩ => ⟨S2048x512x50, .i1⟩
  | .hbm, ⟨18, _⟩ => ⟨S_, .f32⟩
  | .hbm, ⟨19, _⟩ => ⟨S2048x512x1, .f32⟩
  | .hbm, ⟨20, _⟩ => ⟨S2048x512x1, .i1⟩
  | .hbm, ⟨21, _⟩ => ⟨S_, .f32⟩
  | .hbm, ⟨22, _⟩ => ⟨S_, .f32⟩
  | .hbm, ⟨23, _⟩ => ⟨S2048x512x1, .f32⟩
  | .hbm, ⟨24, _⟩ => ⟨S2048x512x1, .f32⟩
  | .hbm, ⟨25, _⟩ => ⟨S2048x512x1, .f32⟩
  | .hbm, ⟨26, _⟩ => ⟨S2048x512x1, .f32⟩
  | .hbm, ⟨27, _⟩ => ⟨S2048x512x50, .f32⟩
  | .hbm, ⟨28, _⟩ => ⟨S2048x512x50, .f32⟩
  | .hbm, ⟨29, _⟩ => ⟨S_, .f32⟩
  | .hbm, ⟨30, _⟩ => ⟨S2048x512x1, .f32⟩
  | .hbm, ⟨31, _⟩ => ⟨S2048x512x51, .f32⟩
  | .hbm, ⟨32, _⟩ => ⟨S_, .f32⟩
  | .hbm, ⟨33, _⟩ => ⟨S2048x512x51, .f32⟩
  | .hbm, ⟨34, _⟩ => ⟨S2048x512x51, .i1⟩
  | .hbm, ⟨35, _⟩ => ⟨S2048x26112, .i1⟩
  | .hbm, ⟨36, _⟩ => ⟨S_, .f32⟩
  | .hbm, ⟨37, _⟩ => ⟨S_, .f32⟩
  | .hbm, ⟨38, _⟩ => ⟨S2048x26112, .f32⟩
  | .hbm, ⟨39, _⟩ => ⟨S2048x26112, .f32⟩
  | .hbm, ⟨40, _⟩ => ⟨S2048x26112, .f32⟩
  | .hbm, ⟨41, _⟩ => ⟨S2048x1712, .f32⟩
  | .hbm, ⟨42, _⟩ => ⟨S2048x1712, .bf16⟩
  | .hbm, ⟨43, _⟩ => ⟨S1712x1024, .bf16⟩
  | .hbm, ⟨44, _⟩ => ⟨S1024x1024, .bf16⟩
  | .hbm, ⟨45, _⟩ => ⟨S1024x26112, .bf16⟩
  | .hbm, ⟨46, _⟩ => ⟨S1x1024, .f32⟩
  | .hbm, ⟨47, _⟩ => ⟨S1x1024, .f32⟩
  | .hbm, ⟨48, _⟩ => ⟨S1x26112, .f32⟩
  | .hbm, ⟨49, _⟩ => ⟨S2048x1024, .bf16⟩
  | .hbm, ⟨50, _⟩ => ⟨S2048x26112, .f32⟩
  | .hbm, ⟨51, _⟩ => ⟨S2048x512x51, .f32⟩
  | .local _ .vmem, ⟨0, _⟩ => ⟨S256x1712, .bf16⟩
  | .local _ .vmem, ⟨1, _⟩ => ⟨S256x1712, .bf16⟩
  | .local _ .vmem, ⟨2, _⟩ => ⟨S1712x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S1024x2176, .bf16⟩
  | .local _ .vmem, ⟨11, _⟩ => ⟨S1024x2176, .bf16⟩
  | .local _ .vmem, ⟨12, _⟩ => ⟨S1x2176, .f32⟩
  | .local _ .vmem, ⟨13, _⟩ => ⟨S1x2176, .f32⟩
  | .local _ .vmem, ⟨14, _⟩ => ⟨S256x2176, .f32⟩
  | .local _ .vmem, ⟨15, _⟩ => ⟨S256x2176, .f32⟩
  | .local _ .vmem, ⟨16, _⟩ => ⟨S256x2176, .f32⟩
  | .local _ .vmem, ⟨17, _⟩ => ⟨S256x2176, .f32⟩
  | _, _ => ⟨S2048x400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v10 : Ref sig .tc := ⟨.hbm, 25, rfl⟩
abbrev main_call1_v0 : Ref sig .tc := ⟨.hbm, 26, rfl⟩
abbrev main_call1_v1 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_cst_4 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_5 : Ref sig .tc := ⟨.hbm, 36, rfl⟩
abbrev main_cst_6 : Ref sig .tc := ⟨.hbm, 37, rfl⟩
abbrev main_call2_v0 : Ref sig .tc := ⟨.hbm, 38, rfl⟩
abbrev main_call2_v1 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1712 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1712x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x2176 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x2176 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x2176 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x2176 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S2048x16x32_S2048x512 : S2048x16x32.ShapeCasts S2048x512
  shapeCasts_S2048x16x50_S2048x800 : S2048x16x50.ShapeCasts S2048x800
  bcast_S2048x16x50_S2048x16x1x50_0_1_3 : S2048x16x50.BroadcastsInDim S2048x16x1x50 (![0, 1, 3] : Fin 3 → Fin S2048x16x1x50.rank)
  bcast_S2048x16x1x50_S2048x16x32x50_0_1_2_3 : S2048x16x1x50.BroadcastsInDim S2048x16x32x50 (![0, 1, 2, 3] : Fin 4 → Fin S2048x16x32x50.rank)
  shapeCasts_S2048x16x32x50_S2048x512x50 : S2048x16x32x50.ShapeCasts S2048x512x50
  bcast_S2048x512_S2048x512x1_0_1 : S2048x512.BroadcastsInDim S2048x512x1 (![0, 1] : Fin 2 → Fin S2048x512x1.rank)
  bcast_S_S2048x512x50 : S_.BroadcastsInDim S2048x512x50 (![] : Fin 0 → Fin S2048x512x50.rank)
  bcast_S_S2048x512x1 : S_.BroadcastsInDim S2048x512x1 (![] : Fin 0 → Fin S2048x512x1.rank)
  bcast_S2048x512x1_S2048x512x50_0_1_2 : S2048x512x1.BroadcastsInDim S2048x512x50 (![0, 1, 2] : Fin 3 → Fin S2048x512x50.rank)
  concatenates_S2048x512x1_S2048x512x50_S2048x512x51_d2 : Shape.Concatenates [S2048x512x1, S2048x512x50] S2048x512x51 2
  bcast_S_S2048x512x51 : S_.BroadcastsInDim S2048x512x51 (![] : Fin 0 → Fin S2048x512x51.rank)
  shapeCasts_S2048x512x51_S2048x26112 : S2048x512x51.ShapeCasts S2048x26112
  bcast_S_S2048x26112 : S_.BroadcastsInDim S2048x26112 (![] : Fin 0 → Fin S2048x26112.rank)
  concatenates_S2048x400_S2048x512_S2048x800_S2048x1712_d1 : Shape.Concatenates [S2048x400, S2048x512, S2048x800] S2048x1712 1
  bitsLt_bf16_f32 : FTy.bits .bf16 < FTy.bits .f32
  shapeCasts_S1024_S1x1024 : S1024.ShapeCasts S1x1024
  shapeCasts_S26112_S1x26112 : S26112.ShapeCasts S1x26112
  inb_S256x1712_S256x1712_0_0 : ∀ a, (![0, 0] : Fin 2 → Nat) a + S256x1712.size a ≤ S256x1712.size a
  h_S256x1712 : 0 < S256x1712.numel
  shapeCasts_S256x1712_S256x1712 : S256x1712.ShapeCasts S256x1712
  inb_S1712x1024_S1712x1024_0_0 : ∀ a, (![0, 0] : Fin 2 → Nat) a + S1712x1024.size a ≤ S1712x1024.size a
  h_S1712x1024 : 0 < S1712x1024.numel
  shapeCasts_S1712x1024_S1712x1024 : S1712x1024.ShapeCasts S1712x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S256x1024_S256x1024_0_0 : ∀ a, (![0, 0] : Fin 2 → Nat) a + S256x1024.size a ≤ S256x1024.size a
  h_S256x1024 : 0 < S256x1024.numel
  packedbf16_S256x1024_S256x1024_0_0 : (Rect.unit (s := S256x1024) ![0, 0] S256x1024.size inb_S256x1024_S256x1024_0_0).PackedRows (EltTy.packing .bf16)
  shapeCasts_S256x1024_S256x1024 : S256x1024.ShapeCasts S256x1024
  inb_S1024x2176_S1024x2176_0_0 : ∀ a, (![0, 0] : Fin 2 → Nat) a + S1024x2176.size a ≤ S1024x2176.size a
  h_S1024x2176 : 0 < S1024x2176.numel
  shapeCasts_S1024x2176_S1024x2176 : S1024x2176.ShapeCasts S1024x2176
  inb_S1x2176_S1x2176_0_0 : ∀ a, (![0, 0] : Fin 2 → Nat) a + S1x2176.size a ≤ S1x2176.size a
  h_S1x2176 : 0 < S1x2176.numel
  shapeCasts_S1x2176_S1x2176 : S1x2176.ShapeCasts S1x2176
  broadcasts_S1x2176_S256x2176 : S1x2176.Broadcasts S256x2176
  inb_S256x2176_S256x2176_0_0 : ∀ a, (![0, 0] : Fin 2 → Nat) a + S256x2176.size a ≤ S256x2176.size a
  h_S256x2176 : 0 < S256x2176.numel
  shapeCasts_S256x2176_S256x2176 : S256x2176.ShapeCasts S256x2176
  shapeCasts_S2048x26112_S2048x512x51 : S2048x26112.ShapeCasts S2048x512x51
  dot_S256x1712_S1712x1024_S256x1024_1_0_0_1_n_n_wf : DotDims.WF S256x1712 S1712x1024 S256x1024 [1] [0] [0] [1] [] []
  dot_S256x1024_S1024x1024_S256x1024_1_0_0_1_n_n_wf : DotDims.WF S256x1024 S1024x1024 S256x1024 [1] [0] [0] [1] [] []
  dot_S256x1024_S1024x2176_S256x2176_1_0_0_1_n_n_wf : DotDims.WF S256x1024 S1024x2176 S256x2176 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1712.size a ≤ S2048x1712.size a
  hwx0_0 : ∀ i : grid0.Coords, EltTy.bits .bf16 = 32 ∨ (Rect.block (s := S2048x1712) S256x1712.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1712x1024.size a ≤ S1712x1024.size a
  hwx0_1 : ∀ i : grid0.Coords, EltTy.bits .bf16 = 32 ∨ (Rect.block (s := S1712x1024) S1712x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S2048x1024.size a
  hwx0_5 : ∀ i : grid0.Coords, EltTy.bits .bf16 = 32 ∨ (Rect.block (s := S2048x1024) S256x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S2048x1024.size a
  hwx1_0 : ∀ i : grid1.Coords, EltTy.bits .bf16 = 32 ∨ (Rect.block (s := S2048x1024) S256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2176.size a ≤ S1024x26112.size a
  hwx1_1 : ∀ i : grid1.Coords, EltTy.bits .bf16 = 32 ∨ (Rect.block (s := S1024x26112) S1024x2176.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2176.size a ≤ S1x26112.size a
  hwx1_2 : ∀ i : grid1.Coords, EltTy.bits .f32 = 32 ∨ (Rect.block (s := S1x26112) S1x2176.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2176.size a ≤ S2048x26112.size a
  hwx1_3 : ∀ i : grid1.Coords, EltTy.bits .f32 = 32 ∨ (Rect.block (s := S2048x26112) S256x2176.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x2176.size a ≤ S2048x26112.size a
  hwx1_4 : ∀ i : grid1.Coords, EltTy.bits .f32 = 32 ∨ (Rect.block (s := S2048x26112) S256x2176.size (cc1_transform_4 i) (hinb1_4 i)).WholeWords (EltTy.packing .f32)

variable [Facts₀]

def dot_S256x1712_S1712x1024_S256x1024_1_0_0_1_n_n : DotDims S256x1712 S1712x1024 S256x1024 where
  lhsContracting := [1]
  rhsContracting := [0]
  lhsNonContracting := [0]
  rhsNonContracting := [1]
  lhsBatch := []
  rhsBatch := []
  wf := dot_S256x1712_S1712x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x2176_S256x2176_1_0_0_1_n_n : DotDims S256x1024 S1024x2176 S256x2176 where
  lhsContracting := [1]
  rhsContracting := [0]
  lhsNonContracting := [0]
  rhsNonContracting := [1]
  lhsBatch := []
  rhsBatch := []
  wf := dot_S256x1024_S1024x2176_S256x2176_1_0_0_1_n_n_wf

abbrev win0_0 : Pipeline.Window sig grid0 :=
  Pipeline.Window.ofSpec (Memref.whole main_v19) S256x1712.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1712x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1024x2176.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x2176.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S256x2176.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v27) S256x2176.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2048x400 : Shape := ⟨2, ![2048, 400]⟩
abbrev S2048x16x32 : Shape := ⟨3, ![2048, 16, 32]⟩
abbrev S2048x16x50 : Shape := ⟨3, ![2048, 16, 50]⟩
abbrev S1712x1024 : Shape := ⟨2, ![1712, 1024]⟩
abbrev S1024 : Shape := ⟨1, ![1024]⟩
abbrev S1024x1024 : Shape := ⟨2, ![1024, 1024]⟩
abbrev S1024x26112 : Shape := ⟨2, ![1024, 26112]⟩
abbrev S26112 : Shape := ⟨1, ![26112]⟩
abbrev S2048x512 : Shape := ⟨2, ![2048, 512]⟩
abbrev S2048x16x1x50 : Shape := ⟨4, ![2048, 16, 1, 50]⟩
abbrev S2048x16x32x50 : Shape := ⟨4, ![2048, 16, 32, 50]⟩
abbrev S2048x512x50 : Shape := ⟨3, ![2048, 512, 50]⟩
abbrev S2048x512x1 : Shape := ⟨3, ![2048, 512, 1]⟩
abbrev S_ : Shape := ⟨0, ![]⟩
abbrev S2048x512x51 : Shape := ⟨3, ![2048, 512, 51]⟩
abbrev S2048x800 : Shape := ⟨2, ![2048, 800]⟩
abbrev S2048x1712 : Shape := ⟨2, ![2048, 1712]⟩
abbrev S2048x1024 : Shape := ⟨2, ![2048, 1024]⟩
abbrev S1x1024 : Shape := ⟨2, ![1, 1024]⟩
abbrev S2048x26112 : Shape := ⟨2, ![2048, 26112]⟩
abbrev S1x26112 : Shape := ⟨2, ![1, 26112]⟩

abbrev nBuf : Space → Nat
  | .hbm => 55
  | .vmem => 0
  | .smem => 0
  | _ => 0

abbrev bufTy : (tb : Table) → Fin (tcTables nBuf tb) → BufTy
  | .hbm, ⟨0, _⟩ => ⟨S2048x400, .f32⟩
  | .hbm, ⟨1, _⟩ => ⟨S2048x16x32, .f32⟩
  | .hbm, ⟨2, _⟩ => ⟨S2048x16x50, .f32⟩
  | .hbm, ⟨3, _⟩ => ⟨S1712x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x26112, .f32⟩
  | .hbm, ⟨8, _⟩ => ⟨S26112, .f32⟩
  | .hbm, ⟨9, _⟩ => ⟨S2048x512, .f32⟩
  | .hbm, ⟨10, _⟩ => ⟨S2048x16x1x50, .f32⟩
  | .hbm, ⟨11, _⟩ => ⟨S2048x16x32x50, .f32⟩
  | .hbm, ⟨12, _⟩ => ⟨S2048x512x50, .f32⟩
  | .hbm, ⟨13, _⟩ => ⟨S2048x512x1, .f32⟩
  | .hbm, ⟨14, _⟩ => ⟨S_, .f32⟩
  | .hbm, ⟨15, _⟩ => ⟨S2048x512x50, .f32⟩
  | .hbm, ⟨16, _⟩ => ⟨S2048x512x50, .i1⟩
  | .hbm, ⟨17, _⟩ => ⟨S_, .f32⟩
  | .hbm, ⟨18, _⟩ => ⟨S2048x512x1, .f32⟩
  | .hbm, ⟨19, _⟩ => ⟨S2048x512x1, .i1⟩
  | .hbm, ⟨20, _⟩ => ⟨S_, .f32⟩
  | .hbm, ⟨21, _⟩ => ⟨S_, .f32⟩
  | .hbm, ⟨22, _⟩ => ⟨S2048x512x1, .f32⟩
  | .hbm, ⟨23, _⟩ => ⟨S2048x512x1, .f32⟩
  | .hbm, ⟨24, _⟩ => ⟨S2048x512x1, .f32⟩
  | .hbm, ⟨25, _⟩ => ⟨S2048x512x1, .f32⟩
  | .hbm, ⟨26, _⟩ => ⟨S2048x512x50, .f32⟩
  | .hbm, ⟨27, _⟩ => ⟨S2048x512x50, .f32⟩
  | .hbm, ⟨28, _⟩ => ⟨S_, .f32⟩
  | .hbm, ⟨29, _⟩ => ⟨S2048x512x1, .f32⟩
  | .hbm, ⟨30, _⟩ => ⟨S2048x512x51, .f32⟩
  | .hbm, ⟨31, _⟩ => ⟨S_, .f32⟩
  | .hbm, ⟨32, _⟩ => ⟨S2048x512x51, .f32⟩
  | .hbm, ⟨33, _⟩ => ⟨S2048x512x51, .i1⟩
  | .hbm, ⟨34, _⟩ => ⟨S2048x800, .f32⟩
  | .hbm, ⟨35, _⟩ => ⟨S2048x1712, .f32⟩
  | .hbm, ⟨36, _⟩ => ⟨S2048x1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S1x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x26112, .f32⟩
  | .hbm, ⟨47, _⟩ => ⟨S1x26112, .f32⟩
  | .hbm, ⟨48, _⟩ => ⟨S2048x26112, .f32⟩
  | .hbm, ⟨49, _⟩ => ⟨S2048x26112, .f32⟩
  | .hbm, ⟨50, _⟩ => ⟨S2048x512x51, .f32⟩
  | .hbm, ⟨51, _⟩ => ⟨S_, .f32⟩
  | .hbm, ⟨52, _⟩ => ⟨S_, .f32⟩
  | .hbm, ⟨53, _⟩ => ⟨S2048x512x51, .f32⟩
  | .hbm, ⟨54, _⟩ => ⟨S2048x512x51, .f32⟩
  | _, _ => ⟨S2048x400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v9 : Ref sig .tc := ⟨.hbm, 24, rfl⟩
abbrev main_call1_v0 : Ref sig .tc := ⟨.hbm, 25, rfl⟩
abbrev main_call1_v1 : Ref sig .tc := ⟨.hbm, 26, rfl⟩
abbrev main_v10 : Ref sig .tc := ⟨.hbm, 27, rfl⟩
abbrev main_cst_3 : Ref sig .tc := ⟨.hbm, 28, rfl⟩
abbrev main_v11 : Ref sig .tc := ⟨.hbm, 29, rfl⟩
abbrev main_v12 : Ref sig .tc := ⟨.hbm, 30, rfl⟩
abbrev main_cst_4 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_call2_v0 : Ref sig .tc := ⟨.hbm, 52, rfl⟩
abbrev main_call2_v1 : Ref sig .tc := ⟨.hbm, 53, rfl⟩
abbrev main_v32 : Ref sig .tc := ⟨.hbm, 54, rfl⟩

abbrev nD : Nat := 1
abbrev τ : Topo := Topo.v7x

variable {F : FTy → Type} [FloatOps F]

class Facts₀ : Prop where
  shapeCasts_S2048x16x32_S2048x512 : S2048x16x32.ShapeCasts S2048x512
  bcast_S2048x16x50_S2048x16x1x50_0_1_3 : S2048x16x50.BroadcastsInDim S2048x16x1x50 (![0, 1, 3] : Fin 3 → Fin S2048x16x1x50.rank)
  bcast_S2048x16x1x50_S2048x16x32x50_0_1_2_3 : S2048x16x1x50.BroadcastsInDim S2048x16x32x50 (![0, 1, 2, 3] : Fin 4 → Fin S2048x16x32x50.rank)
  shapeCasts_S2048x16x32x50_S2048x512x50 : S2048x16x32x50.ShapeCasts S2048x512x50
  bcast_S2048x512_S2048x512x1_0_1 : S2048x512.BroadcastsInDim S2048x512x1 (![0, 1] : Fin 2 → Fin S2048x512x1.rank)
  bcast_S_S2048x512x50 : S_.BroadcastsInDim S2048x512x50 (![] : Fin 0 → Fin S2048x512x50.rank)
  bcast_S_S2048x512x1 : S_.BroadcastsInDim S2048x512x1 (![] : Fin 0 → Fin S2048x512x1.rank)
  bcast_S2048x512x1_S2048x512x50_0_1_2 : S2048x512x1.BroadcastsInDim S2048x512x50 (![0, 1, 2] : Fin 3 → Fin S2048x512x50.rank)
  concatenates_S2048x512x1_S2048x512x50_S2048x512x51_d2 : Shape.Concatenates [S2048x512x1, S2048x512x50] S2048x512x51 2
  bcast_S_S2048x512x51 : S_.BroadcastsInDim S2048x512x51 (![] : Fin 0 → Fin S2048x512x51.rank)
  shapeCasts_S2048x16x50_S2048x800 : S2048x16x50.ShapeCasts S2048x800
  concatenates_S2048x400_S2048x512_S2048x800_S2048x1712_d1 : Shape.Concatenates [S2048x400, S2048x512, S2048x800] S2048x1712 1
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S26112_S1x26112_1 : S26112.BroadcastsInDim S1x26112 (![1] : Fin 1 → Fin S1x26112.rank)
  bcast_S1x26112_S2048x26112_0_1 : S1x26112.BroadcastsInDim S2048x26112 (![0, 1] : Fin 2 → Fin S2048x26112.rank)
  shapeCasts_S2048x26112_S2048x512x51 : S2048x26112.ShapeCasts S2048x512x51
  dot_S2048x1712_S1712x1024_S2048x1024_1_0_0_1_n_n_wf : DotDims.WF S2048x1712 S1712x1024 S2048x1024 [1] [0] [0] [1] [] []
  dot_S2048x1024_S1024x1024_S2048x1024_1_0_0_1_n_n_wf : DotDims.WF S2048x1024 S1024x1024 S2048x1024 [1] [0] [0] [1] [] []
  dot_S2048x1024_S1024x26112_S2048x26112_1_0_0_1_n_n_wf : DotDims.WF S2048x1024 S1024x26112 S2048x26112 [1] [0] [0] [1] [] []

variable [Facts₀]

def dot_S2048x1712_S1712x1024_S2048x1024_1_0_0_1_n_n : DotDims S2048x1712 S1712x1024 S2048x1024 where
  lhsContracting := [1]
  rhsContracting := [0]
  lhsNonContracting := [0]
  rhsNonContracting := [1]
  lhsBatch := []
  rhsBatch := []
  wf := dot_S2048x1712_S1712x1024_S2048x1024_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x1024_S1024x26112_S2048x26112_1_0_0_1_n_n : DotDims S2048x1024 S1024x26112 S2048x26112 where
  lhsContracting := [1]
  rhsContracting := [0]
  lhsNonContracting := [0]
  rhsNonContracting := [1]
  lhsBatch := []
  rhsBatch := []
  wf := dot_S2048x1024_S1024x26112_S2048x26112_1_0_0_1_n_n_wf

class Facts : Prop extends Facts₀ where

variable [Facts]
-- ==== Proof.HiddenRegion.lean ====
/-
  The first kernel call — the two `tanh` layers on a block of 256 batch rows — as the pipeline runs it.

  The grid has 8 points, one per block of 256 rows. At a point the pipeline hands the body six staging
  buffers: the rows' block of the concatenated input (window 0), the two weight matrices and the two bias
  rows whole (windows 1–4: their block never moves, so they are fetched at the first point only and are still
  there at every later one), and the output block (window 5). The body loads the five inputs whole, computes
  ONE value from them (the skeleton's payload) and stores it over the whole output buffer; it also loads the
  output buffer once, a value it never uses.

  Everything here is stated at a parameter `V` — what the TensorCore's buffers hold when the region is
  entered — and for any float instance. For each point: what block each input window holds (`blockAt`),
  that its current staging buffer holds exactly that whether or not this point fetched it (`heldW`), what the
  body leaves in the output buffer (`stored`: the one store read back whole), the body's run, and from these the
  proof data and the obligation the pipeline's launch asks of the body.
-/
import proofs.«134152_j7868380086274_1_alg».proof.Proof.Gen.KernelIdeal.Launch
import proofs.«134152_j7868380086274_1_alg».proof.Proof.Gen.KernelIdeal.Skeleton
import proofs.«134152_j7868380086274_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hidden

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`: that rectangle of its array, as the region finds the array. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem held0_of {c : Dev nD} (dat : Dat τ (Elt F) Unit ℕ (Pipeline.UD sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every point, fetched there or not. -/
theorem held1_of {c : Dev nD} (dat : Dat τ (Elt F) Unit ℕ (Pipeline.UD sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds its block at every point, fetched there or not. -/
theorem held2_of {c : Dev nD} (dat : Dat τ (Elt F) Unit ℕ (Pipeline.UD sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's current staging buffer holds its block at every point, fetched there or not. -/
theorem held3_of {c : Dev nD} (dat : Dat τ (Elt F) Unit ℕ (Pipeline.UD sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's current staging buffer holds its block at every point, fetched there or not. -/
theorem held4_of {c : Dev nD} (dat : Dat τ (Elt F) Unit ℕ (Pipeline.UD sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

/-- The rectangle of a whole buffer, per buffer shape: every load and the store go through these. -/
abbrev whole_S256x1712 : Rect S256x1712 := Rect.unit (s := S256x1712) ![0, 0] S256x1712.size inb_S256x1712_S256x1712_0_0
abbrev whole_S1712x1024 : Rect S1712x1024 := Rect.unit (s := S1712x1024) ![0, 0] S1712x1024.size inb_S1712x1024_S1712x1024_0_0
abbrev whole_S1x1024 : Rect S1x1024 := Rect.unit (s := S1x1024) ![0, 0] S1x1024.size inb_S1x1024_S1x1024_0_0
abbrev whole_S1024x1024 : Rect S1024x1024 := Rect.unit (s := S1024x1024) ![0, 0] S1024x1024.size inb_S1024x1024_S1024x1024_0_0
abbrev whole_S256x1024 : Rect S256x1024 := Rect.unit (s := S256x1024) ![0, 0] S256x1024.size inb_S256x1024_S256x1024_0_0

/-- The output block after the body, from the five input blocks: the body's one store — the two-layer value of the
    whole loaded blocks — read back over the whole buffer. -/
def stored (x0 : Vec F S256x1712 .bf16) (x1 : Vec F S1712x1024 .bf16) (x2 : Vec F S1x1024 .f32) (x3 : Vec F S1024x1024 .bf16) (x4 : Vec F S1x1024 .f32) : Vec F S256x1024 .bf16 :=
  View.canon [⟨whole_S256x1024, k0_pay1 (View.ld x0 whole_S256x1712) (View.ld x1 whole_S1712x1024) (View.ld x2 whole_S1x1024) (View.ld x3 whole_S1024x1024) (View.ld x4 whole_S1x1024)⟩]

/-- The one store is of the whole buffer, so it covers it. -/
theorem stored_covers (p0 : Vec F S256x1024 .bf16) (y : S256x1024.Idx) :
    ∃ pc ∈ ([⟨whole_S256x1024, p0⟩] : List (View.Piece (Elt F) S256x1024 .bf16)), y ∈ pc.1.set :=
  View.cover_of_tiled [⟨whole_S256x1024, p0⟩] S256x1024.size (by rfl) y

/-! ## The body's run -/

set_option maxHeartbeats 1000000 in
/-- The body on whole staging buffers — the inputs' at contents `x0 x1 x2 x3 x4`, the output's at anything — runs to its
    return with the inputs' buffers as they were and the output's at `stored x0 x1 x2 x3 x4`: the printed function is its
    skeleton of loads and one store, which the symbolic executor steps through. -/
theorem body_runs (c : Dev nD) (E : Set ℕ) (i : grid0.Coords)
    (arg1 : Memref sig .tc .vmem S256x1712 .bf16) (harg1 : arg1.IsWhole) (arg2 : Memref sig .tc .vmem S1712x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S256x1024 .bf16) (harg6 : arg6.IsWhole)
    (x0 : Vec F S256x1712 .bf16) (x1 : Vec F S1712x1024 .bf16) (x2 : Vec F S1x1024 .f32) (x3 : Vec F S1024x1024 .bf16) (x4 : Vec F S1x1024 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (stored x0 x1 x2 x3 x4)) -∗ K ⟨⟩))
      ⊢ wp frame (wpE (defs₀ (F := F)) Variants.none c none) E (cc0__mlp12_kernel i arg1 harg1 arg2 harg2 arg3 harg3 arg4 harg4 arg5 harg5 arg6 harg6) K := by
  simp only [cc0__mlp12_kernel_eq_skeleton]; unfold cc0__mlp12_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (stored_covers _)

/-! ## The pipeline's proof data -/

/-- The proof data of this pipeline on core `c`: the arrays as the region finds them; after the body at point `t` each
    input's buffer still at its block and the output's at `stored` of the input blocks; the invariant the scoped rest and
    the generator register, which the body does not touch; nothing owed; full shares. -/
def data (c : Dev nD) : Dat τ (Elt F) Unit ℕ (Pipeline.UD sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => stored (blockAt V c 0 t) (blockAt V c 1 t) (blockAt V c 2 t) (blockAt V c 3 t) (blockAt V c 4 t)
  Φ _ := Pipeline.ΦA spec0 c
  q _ := fullShare
  owed _ := 0

/-- The proof data's arrays are the region-entry contents. -/
theorem data_A (c : Dev nD) (w : Fin cfg0.W) : (data V c).A w = V c (Pipeline.arrRef spec0 w) := by
  dsimp only [data]

/-- What the body leaves, window by window. -/
theorem after0 (c : Dev nD) (t : Fin cfg0.N) : (data V c).after 0 t = blockAt V c 0 t := by dsimp only [data]
theorem after1 (c : Dev nD) (t : Fin cfg0.N) : (data V c).after 1 t = blockAt V c 1 t := by dsimp only [data]
theorem after2 (c : Dev nD) (t : Fin cfg0.N) : (data V c).after 2 t = blockAt V c 2 t := by dsimp only [data]
theorem after3 (c : Dev nD) (t : Fin cfg0.N) : (data V c).after 3 t = blockAt V c 3 t := by dsimp only [data]
theorem after4 (c : Dev nD) (t : Fin cfg0.N) : (data V c).after 4 t = blockAt V c 4 t := by dsimp only [data]
theorem after5 (c : Dev nD) (t : Fin cfg0.N) :
    (data V c).after 5 t = stored (blockAt V c 0 t) (blockAt V c 1 t) (blockAt V c 2 t) (blockAt V c 3 t) (blockAt V c 4 t) := by dsimp only [data]

/-- Each input's current staging buffer holds its block at every point. -/
theorem held0 (c : Dev nD) (t : Fin cfg0.N) (d) : (data V c).before 0 t d = blockAt V c 0 t := held0_of V (data V c) (data_A V c 0) (after0 V c) t d
theorem held1 (c : Dev nD) (t : Fin cfg0.N) (d) : (data V c).before 1 t d = blockAt V c 1 t := held1_of V (data V c) (data_A V c 1) (after1 V c) t d
theorem held2 (c : Dev nD) (t : Fin cfg0.N) (d) : (data V c).before 2 t d = blockAt V c 2 t := held2_of V (data V c) (data_A V c 2) (after2 V c) t d
theorem held3 (c : Dev nD) (t : Fin cfg0.N) (d) : (data V c).before 3 t d = blockAt V c 3 t := held3_of V (data V c) (data_A V c 3) (after3 V c) t d
theorem held4 (c : Dev nD) (t : Fin cfg0.N) (d) : (data V c).before 4 t d = blockAt V c 4 t := held4_of V (data V c) (data_A V c 4) (after4 V c) t d

/-! ## The body obligation -/

/-- What the body is called with at point `t`: the invariant, the core's dues, and each window's current staging buffer
    at what it holds before the body, -/
def bodyPre (c : Dev nD) (t : Fin cfg0.N) : sProp 𝕄 :=
  iprop((data V c).Φ t.castSucc ∗ (data V c).owesAt () t.castSucc
    ∗ (∃ d, owns (c : Thread nD τ) (st0_0 t) fullShare ((data V c).before 0 t d))
    ∗ (∃ d, owns (c : Thread nD τ) (st0_1 t) fullShare ((data V c).before 1 t d))
    ∗ (∃ d, owns (c : Thread nD τ) (st0_2 t) fullShare ((data V c).before 2 t d))
    ∗ (∃ d, owns (c : Thread nD τ) (st0_3 t) fullShare ((data V c).before 3 t d))
    ∗ (∃ d, owns (c : Thread nD τ) (st0_4 t) fullShare ((data V c).before 4 t d))
    ∗ (∃ d, owns (c : Thread nD τ) (st0_5 t) fullShare ((data V c).before 5 t d)))

/-- and what it returns: the same with each buffer at what the body leaves. -/
def bodyPost (c : Dev nD) (t : Fin cfg0.N) : sProp 𝕄 :=
  iprop((data V c).Φ t.succ ∗ (data V c).owesAt () t.succ
    ∗ owns (c : Thread nD τ) (st0_0 t) fullShare ((data V c).after 0 t)
    ∗ owns (c : Thread nD τ) (st0_1 t) fullShare ((data V c).after 1 t)
    ∗ owns (c : Thread nD τ) (st0_2 t) fullShare ((data V c).after 2 t)
    ∗ owns (c : Thread nD τ) (st0_3 t) fullShare ((data V c).after 3 t)
    ∗ owns (c : Thread nD τ) (st0_4 t) fullShare ((data V c).after 4 t)
    ∗ owns (c : Thread nD τ) (st0_5 t) fullShare ((data V c).after 5 t))

/-- The body at any point: the inputs' buffers hold their blocks, so `body_runs` applies; the invariant and the core's
    dues pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [held0, held1, held2, held3, held4]
  rw [show (data V c).Φ t.succ = (data V c).Φ t.castSucc from rfl,
    show (data V c).owesAt () t.succ = (data V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (body_runs c Set.univ (grid0.coords t) _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline's launch asks of the body, at every point. -/
theorem body_obligation (c : Dev nD) : BodyObligation (data (F := F) V c) (defs₀ (F := F)) Variants.none () Set.univ := fun t => by
  rw [bigSep_W0, bigSep_W0]
  exact body_at V c t

end Cert.KernelIdeal.Hidden

end
-- ==== Proof.OutputRegion.lean ====
/-
  The second kernel call — the last dense layer plus the additive mask penalty, on a 256 × 2176 tile of the
  logits — as the pipeline runs it.

  The grid has 8 × 12 points: a block of 256 batch rows by a block of 2176 output columns. At a point the
  pipeline hands the body five staging buffers: the rows' block of the hidden activations (window 0; its block
  moves only with the row coordinate, so it is fetched once per twelve points and stays in place in between),
  the columns' block of the last weight matrix and of the bias row (windows 1, 2), the tile of the penalty
  (window 3) and the output tile (window 4). The body loads the four inputs whole, computes ONE value from
  them (the skeleton's payload) and stores it over the whole output buffer; it also loads the output buffer
  once, a value it never uses.

  Everything here is stated at a parameter `V` — what the TensorCore's buffers hold when the region is
  entered — and for any float instance: each input window's block at a point (`blockAt`), that its current
  staging buffer holds exactly that whether or not this point fetched it (`heldW`), what the body leaves in the
  output buffer (`stored`), the body's run, the proof data and the obligation the launch asks of the body.
-/
import proofs.«134152_j7868380086274_1_alg».proof.Proof.Gen.KernelIdeal.Launch
import proofs.«134152_j7868380086274_1_alg».proof.Proof.Gen.KernelIdeal.Skeleton
import proofs.«134152_j7868380086274_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Output

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`: that rectangle of its array, as the region finds the array. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem held0_of {c : Dev nD} (dat : Dat τ (Elt F) Unit ℕ (Pipeline.UD sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every point, fetched there or not. -/
theorem held1_of {c : Dev nD} (dat : Dat τ (Elt F) Unit ℕ (Pipeline.UD sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds its block at every point, fetched there or not. -/
theorem held2_of {c : Dev nD} (dat : Dat τ (Elt F) Unit ℕ (Pipeline.UD sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's current staging buffer holds its block at every point, fetched there or not. -/
theorem held3_of {c : Dev nD} (dat : Dat τ (Elt F) Unit ℕ (Pipeline.UD sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

/-- The rectangle of a whole buffer, per buffer shape: every load and the store go through these. -/
abbrev whole_S256x1024 : Rect S256x1024 := Rect.unit (s := S256x1024) ![0, 0] S256x1024.size inb_S256x1024_S256x1024_0_0
abbrev whole_S1024x2176 : Rect S1024x2176 := Rect.unit (s := S1024x2176) ![0, 0] S1024x2176.size inb_S1024x2176_S1024x2176_0_0
abbrev whole_S1x2176 : Rect S1x2176 := Rect.unit (s := S1x2176) ![0, 0] S1x2176.size inb_S1x2176_S1x2176_0_0
abbrev whole_S256x2176 : Rect S256x2176 := Rect.unit (s := S256x2176) ![0, 0] S256x2176.size inb_S256x2176_S256x2176_0_0

/-- The output block after the body, from the four input blocks: the body's one store — the last layer's value of the
    whole loaded blocks plus the loaded penalty block — read back over the whole buffer. -/
def stored (x0 : Vec F S256x1024 .bf16) (x1 : Vec F S1024x2176 .bf16) (x2 : Vec F S1x2176 .f32) (x3 : Vec F S256x2176 .f32) : Vec F S256x2176 .f32 :=
  View.canon [⟨whole_S256x2176, k1_pay1 (View.ld x0 whole_S256x1024) (View.ld x1 whole_S1024x2176) (View.ld x2 whole_S1x2176) (View.ld x3 whole_S256x2176)⟩]

/-- The one store is of the whole buffer, so it covers it. -/
theorem stored_covers (p0 : Vec F S256x2176 .f32) (y : S256x2176.Idx) :
    ∃ pc ∈ ([⟨whole_S256x2176, p0⟩] : List (View.Piece (Elt F) S256x2176 .f32)), y ∈ pc.1.set :=
  View.cover_of_tiled [⟨whole_S256x2176, p0⟩] S256x2176.size (by rfl) y

/-! ## The body's run -/

set_option maxHeartbeats 1000000 in
/-- The body on whole staging buffers — the inputs' at contents `x0 x1 x2 x3`, the output's at anything — runs to its
    return with the inputs' buffers as they were and the output's at `stored x0 x1 x2 x3`: the printed function is its
    skeleton of loads and one store, which the symbolic executor steps through. -/
theorem body_runs (c : Dev nD) (E : Set ℕ) (i : grid1.Coords)
    (arg2 : Memref sig .tc .vmem S256x1024 .bf16) (harg2 : arg2.IsWhole) (arg3 : Memref sig .tc .vmem S1024x2176 .bf16) (harg3 : arg3.IsWhole) (arg4 : Memref sig .tc .vmem S1x2176 .f32) (harg4 : arg4.IsWhole) (arg5 : Memref sig .tc .vmem S256x2176 .f32) (harg5 : arg5.IsWhole) (arg6 : Memref sig .tc .vmem S256x2176 .f32) (harg6 : arg6.IsWhole)
    (x0 : Vec F S256x1024 .bf16) (x1 : Vec F S1024x2176 .bf16) (x2 : Vec F S1x2176 .f32) (x3 : Vec F S256x2176 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (stored x0 x1 x2 x3)) -∗ K ⟨⟩))
      ⊢ wp frame (wpE (defs₀ (F := F)) Variants.none c none) E (cc1__mlp3_kernel i arg2 harg2 arg3 harg3 arg4 harg4 arg5 harg5 arg6 harg6) K := by
  simp only [cc1__mlp3_kernel_eq_skeleton]; unfold cc1__mlp3_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (stored_covers _)

/-! ## The pipeline's proof data -/

/-- The proof data of this pipeline on core `c`: the arrays as the region finds them; after the body at point `t` each
    input's buffer still at its block and the output's at `stored` of the input blocks; the invariant the scoped rest and
    the generator register, which the body does not touch; nothing owed; full shares. -/
def data (c : Dev nD) : Dat τ (Elt F) Unit ℕ (Pipeline.UD sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => stored (blockAt V c 0 t) (blockAt V c 1 t) (blockAt V c 2 t) (blockAt V c 3 t)
  Φ _ := Pipeline.ΦA spec1 c
  q _ := fullShare
  owed _ := 0

/-- The proof data's arrays are the region-entry contents. -/
theorem data_A (c : Dev nD) (w : Fin cfg1.W) : (data V c).A w = V c (Pipeline.arrRef spec1 w) := by
  dsimp only [data]

/-- What the body leaves, window by window. -/
theorem after0 (c : Dev nD) (t : Fin cfg1.N) : (data V c).after 0 t = blockAt V c 0 t := by dsimp only [data]
theorem after1 (c : Dev nD) (t : Fin cfg1.N) : (data V c).after 1 t = blockAt V c 1 t := by dsimp only [data]
theorem after2 (c : Dev nD) (t : Fin cfg1.N) : (data V c).after 2 t = blockAt V c 2 t := by dsimp only [data]
theorem after3 (c : Dev nD) (t : Fin cfg1.N) : (data V c).after 3 t = blockAt V c 3 t := by dsimp only [data]
theorem after4 (c : Dev nD) (t : Fin cfg1.N) :
    (data V c).after 4 t = stored (blockAt V c 0 t) (blockAt V c 1 t) (blockAt V c 2 t) (blockAt V c 3 t) := by dsimp only [data]

/-- Each input's current staging buffer holds its block at every point. -/
theorem held0 (c : Dev nD) (t : Fin cfg1.N) (d) : (data V c).before 0 t d = blockAt V c 0 t := held0_of V (data V c) (data_A V c 0) (after0 V c) t d
theorem held1 (c : Dev nD) (t : Fin cfg1.N) (d) : (data V c).before 1 t d = blockAt V c 1 t := held1_of V (data V c) (data_A V c 1) (after1 V c) t d
theorem held2 (c : Dev nD) (t : Fin cfg1.N) (d) : (data V c).before 2 t d = blockAt V c 2 t := held2_of V (data V c) (data_A V c 2) (after2 V c) t d
theorem held3 (c : Dev nD) (t : Fin cfg1.N) (d) : (data V c).before 3 t d = blockAt V c 3 t := held3_of V (data V c) (data_A V c 3) (after3 V c) t d

/-! ## The body obligation -/

/-- What the body is called with at point `t`: the invariant, the core's dues, and each window's current staging buffer
    at what it holds before the body, -/
def bodyPre (c : Dev nD) (t : Fin cfg1.N) : sProp 𝕄 :=
  iprop((data V c).Φ t.castSucc ∗ (data V c).owesAt () t.castSucc
    ∗ (∃ d, owns (c : Thread nD τ) (st1_0 t) fullShare ((data V c).before 0 t d))
    ∗ (∃ d, owns (c : Thread nD τ) (st1_1 t) fullShare ((data V c).before 1 t d))
    ∗ (∃ d, owns (c : Thread nD τ) (st1_2 t) fullShare ((data V c).before 2 t d))
    ∗ (∃ d, owns (c : Thread nD τ) (st1_3 t) fullShare ((data V c).before 3 t d))
    ∗ (∃ d, owns (c : Thread nD τ) (st1_4 t) fullShare ((data V c).before 4 t d)))

/-- and what it returns: the same with each buffer at what the body leaves. -/
def bodyPost (c : Dev nD) (t : Fin cfg1.N) : sProp 𝕄 :=
  iprop((data V c).Φ t.succ ∗ (data V c).owesAt () t.succ
    ∗ owns (c : Thread nD τ) (st1_0 t) fullShare ((data V c).after 0 t)
    ∗ owns (c : Thread nD τ) (st1_1 t) fullShare ((data V c).after 1 t)
    ∗ owns (c : Thread nD τ) (st1_2 t) fullShare ((data V c).after 2 t)
    ∗ owns (c : Thread nD τ) (st1_3 t) fullShare ((data V c).after 3 t)
    ∗ owns (c : Thread nD τ) (st1_4 t) fullShare ((data V c).after 4 t))

/-- The body at any point: the inputs' buffers hold their blocks, so `body_runs` applies; the invariant and the core's
    dues pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [held0, held1, held2, held3]
  rw [show (data V c).Φ t.succ = (data V c).Φ t.castSucc from rfl,
    show (data V c).owesAt () t.succ = (data V c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (body_runs c Set.univ (grid1.coords t) _ _ _ _ _ _ _ _ _ _ (blockAt V c 0 t) (blockAt V c 1 t) (blockAt V c 2 t) (blockAt V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation the pipeline's launch asks of the body, at every point. -/
theorem body_obligation (c : Dev nD) : BodyObligation (data (F := F) V c) (defs₀ (F := F)) Variants.none () Set.univ := fun t => by
  rw [bigSep_W1, bigSep_W1]
  exact body_at V c t

end Cert.KernelIdeal.Output

end
-- ==== Proof.WholeRun.lean ====
/-
  The whole of @main as one run: six stretches of host operations, the two kernel calls, one last host
  operation.

  Between two items every unscoped buffer of the TensorCore holds a known value. The host stretches are
  folds of pure operations over the launch memory. A kernel call changes only its output
  window's array, which ends at what the pipeline's write-backs leave, point after point; every other buffer,
  its input windows' arrays included, is as it was at entry. From these boundary contents: each kernel call
  as a segment of the run (its layout, the body obligation of its region module, and how the unscoped buffers
  are split into its windows' arrays and back), @main as the list of its nine segments, and the run itself —
  every weakly fair execution terminates without a fault, with every unscoped buffer at the last boundary's
  contents (`run`). The arguments are written by no item, so they end as launched (`final_arg`); the result
  buffer ends at the last host operation's value of what the second kernel call leaves.
-/
import proofs.«134152_j7868380086274_1_alg».proof.Proof.Gen.KernelIdeal.Regions
import proofs.«134152_j7868380086274_1_alg».proof.Proof.HiddenRegion
import proofs.«134152_j7868380086274_1_alg».proof.Proof.OutputRegion

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary -/

/-- Before the first kernel call: the launch memory after the six host stretches. -/
abbrev before0 (c : Dev nD) : Valuation τ sig (Elt F) := Gen.V6 m c
/-- The same read at the TensorCore's references (what the first pipeline's proof data take). -/
abbrev entry0 : (c : Dev nD) → (b : Ref sig .tc) → Buf (Elt F) ((c : Thread nD τ).loc b) := fun c b => before0 m c b

/-- After the first kernel call: its windows' arrays at what the pipeline leaves (an input's as entered, the output's
    with every point's write-back folded in), every other buffer as entered. -/
def after0 (c : Dev nD) : Valuation τ sig (Elt F) :=
  Pipeline.withArrays spec0 c (before0 m c) fun w => (Hidden.data (entry0 m) c).arrAt w cfg0.N
theorem after0_arr (c : Dev nD) (w : Fin cfg0.W) :
    after0 m c (Proc.devRef .tc (Pipeline.arrRef spec0 w)) = (Hidden.data (entry0 m) c).arrAt w cfg0.N := by
  unfold after0; exact Pipeline.withArrays_arr spec0 launch0.win.arr_inj c _ _ w
theorem after0_of_ne (c : Dev nD) (b : Ref sig .tc) (hb : ∀ w, Pipeline.arrRef spec0 w ≠ b) :
    after0 m c (Proc.devRef .tc b) = before0 m c (Proc.devRef .tc b) := by
  unfold after0; exact Pipeline.withArrays_of_ne spec0 c _ _ b hb
/-- The same read at the TensorCore's references (what the second pipeline's proof data take). -/
abbrev entry1 : (c : Dev nD) → (b : Ref sig .tc) → Buf (Elt F) ((c : Thread nD τ).loc b) := fun c b => after0 m c b
theorem left0_arr (c : Dev nD) (w : Fin cfg0.W) : (Hidden.data (entry0 m) c).arrAt w cfg0.N = entry1 m c (Pipeline.arrRef spec0 w) :=
  (after0_arr m c w).symm
theorem left0_rest (c : Dev nD) : ∀ b, b ∉ Finset.univ.image (Pipeline.arrRef spec0) → entry1 m c b = entry0 m c b :=
  fun b hb => after0_of_ne m c b fun w e => hb (Finset.mem_image.mpr ⟨w, Finset.mem_univ _, e⟩)

/-- After the second kernel call, likewise. -/
def after1 (c : Dev nD) : Valuation τ sig (Elt F) :=
  Pipeline.withArrays spec1 c (after0 m c) fun w => (Output.data (entry1 m) c).arrAt w cfg1.N
theorem after1_arr (c : Dev nD) (w : Fin cfg1.W) :
    after1 m c (Proc.devRef .tc (Pipeline.arrRef spec1 w)) = (Output.data (entry1 m) c).arrAt w cfg1.N := by
  unfold after1; exact Pipeline.withArrays_arr spec1 launch1.win.arr_inj c _ _ w
theorem after1_of_ne (c : Dev nD) (b : Ref sig .tc) (hb : ∀ w, Pipeline.arrRef spec1 w ≠ b) :
    after1 m c (Proc.devRef .tc b) = after0 m c (Proc.devRef .tc b) := by
  unfold after1; exact Pipeline.withArrays_of_ne spec1 c _ _ b hb
abbrev exit1 : (c : Dev nD) → (b : Ref sig .tc) → Buf (Elt F) ((c : Thread nD τ).loc b) := fun c b => after1 m c b
theorem left1_arr (c : Dev nD) (w : Fin cfg1.W) : (Output.data (entry1 m) c).arrAt w cfg1.N = exit1 m c (Pipeline.arrRef spec1 w) :=
  (after1_arr m c w).symm
theorem left1_rest (c : Dev nD) : ∀ b, b ∉ Finset.univ.image (Pipeline.arrRef spec1) → exit1 m c b = entry1 m c b :=
  fun b hb => after1_of_ne m c b fun w e => hb (Finset.mem_image.mpr ⟨w, Finset.mem_univ _, e⟩)

/-- At the end: the last host operation (the reshape of the logits) over what the second kernel call leaves. -/
abbrev final (c : Dev nD) : Valuation τ sig (Elt F) := StableHlo.after hostOps2 (after1 m c)

/-! ## The proof data family and what rides beside the buffers -/

/-- Each pipeline's proof data at its region's entry contents: a literal match on the pipeline's number. -/
def pdats : (p : Fin 2) → (c : Dev nD) → Dat τ (Elt F) Unit ℕ (Pipeline.UD sig nD τ) ℕ (Pipeline.pin (pcfgs (F := F)) Gen.adm p) c
  | ⟨0, _⟩ => fun c => Hidden.data (entry0 m) c
  | ⟨1, _⟩ => fun c => Output.data (entry1 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every segment: the core's generator register at some state and its dues, at nothing. -/
abbrev rest (c : Dev nD) : sProp 𝕄 := iprop((∃ r, prngReg c r) ∗ ∃ W, owes (c : Thread nD τ) (0 : CellTallies nD τ sig Unit) W)
/-- A stretch of host operations as a segment, from the contents `W`: it leaves the operations' fold over `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The kernel calls as segments -/

-- `iapply` of a library lemma stated over the pinned configuration unifies only when unification may unfold plain
-- definitions in a metavariable's type
set_option backward.isDefEq.respectTransparency.types false in
/-- The first kernel call as a segment: entered with every unscoped buffer at `before0`, left with them at `after0`
    (what the second kernel call is entered from). Its windows' arrays are split out of the unscoped buffers at entry and put back at their final contents at
    exit; the generator register goes into the pipeline's invariant and comes back; the kernel has no semaphore of its own
    and owes nothing. -/
def region0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (Hidden.body_obligation (entry0 m) c).loose
  hwaits := Pipeline.hwaits_of_owed_zero _ _ _ _ L lv 0 fun _ _ => rfl
  pre c := iprop(StableHlo.held (c : Thread nD τ) (Pipeline.ucRefs τ sig) (before0 m c) ∗ rest c)
  post c := iprop(StableHlo.held (c : Thread nD τ) (Pipeline.ucRefs τ sig) (after0 m c) ∗ rest c)
  X c := iprop(∃ r, prngReg c r)
  Y c := iprop(∃ r, prngReg c r)
  Z c := Pipeline.unscopedRest (Ix := Unit) (Name := ℕ) (U := Pipeline.UD sig nD τ) (Lvl := ℕ) spec0 c (entry0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := Pipeline.UD sig nD τ) (Lvl := ℕ)
      launch0.win launch0.arr_whole c (pdats m) ((pdats m 0 c).share_full fun _ => rfl)
      (entry0 m c) (entry1 m c) ((pdats m 0 c).arrAt · cfg0.N) (left0_arr m c) (left0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- The second kernel call as a segment: entered with every unscoped buffer at `after0`, left with them at `after1`
    (what the last host operation reads). Its windows' arrays are split out of the unscoped buffers at entry and put back at their final contents at
    exit; the generator register goes into the pipeline's invariant and comes back; the kernel has no semaphore of its own
    and owes nothing. -/
def region1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (Output.body_obligation (entry1 m) c).loose
  hwaits := Pipeline.hwaits_of_owed_zero _ _ _ _ L lv 1 fun _ _ => rfl
  pre c := iprop(StableHlo.held (c : Thread nD τ) (Pipeline.ucRefs τ sig) (after0 m c) ∗ rest c)
  post c := iprop(StableHlo.held (c : Thread nD τ) (Pipeline.ucRefs τ sig) (after1 m c) ∗ rest c)
  X c := iprop(∃ r, prngReg c r)
  Y c := iprop(∃ r, prngReg c r)
  Z c := Pipeline.unscopedRest (Ix := Unit) (Name := ℕ) (U := Pipeline.UD sig nD τ) (Lvl := ℕ) spec1 c (entry1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := Pipeline.UD sig nD τ) (Lvl := ℕ)
      launch1.win launch1.arr_whole c (pdats m) ((pdats m 1 c).share_full fun _ => rfl)
      (entry1 m c) (exit1 m c) ((pdats m 1 c).arrAt · cfg1.N) (left1_arr m c) (left1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's nine segments in order. -/
abbrev segs : List (Pipeline.Seg (pcfgs (F := F)) Gen.adm (pdats m) () defs₀ 𝒱₀ L lv) :=
  [ .host (hostSeg hostOps0 hostOps0_sub hostOps0_fresh (Gen.V0 m)),
    .host (hostSeg hostOps0_1 hostOps0_1_sub hostOps0_1_fresh (Gen.V1 m)),
    .host (hostSeg hostOps0_2 hostOps0_2_sub hostOps0_2_fresh (Gen.V2 m)),
    .host (hostSeg hostOps0_3 hostOps0_3_sub hostOps0_3_fresh (Gen.V3 m)),
    .host (hostSeg hostOps0_4 hostOps0_4_sub hostOps0_4_fresh (Gen.V4 m)),
    .host (hostSeg hostOps0_5 hostOps0_5_sub hostOps0_5_fresh (Gen.V5 m)),
    .region (region0 m),
    .region (region1 m),
    .host (hostSeg hostOps2 hostOps2_sub hostOps2_fresh (after1 m)) ]

/-- @main IS the run of the segments. -/
theorem main_run (c : Dev nD) : main (F := F) c = Pipeline.Seg.run (segs m) := (main_chain c).trans (by chain_rfl)

set_option backward.isDefEq.respectTransparency.types false in
/-- THE RUN. From any memory with zero counters, every weakly fair execution of @main on the TensorCores terminates,
    nothing faulting, and in every final state each unscoped buffer holds the last boundary's contents `final m c`. -/
theorem run : θ_run defs (onTc (τ := τ) (main (F := F))) ⟨m, fun _ => 0, ρ⟩ (fun r => ∀ c : Dev nD,
      ∀ b ∈ Pipeline.ucRefs τ sig, r.2.mem (((c : Thread nD τ)).1, b) = final m c b) :=
  Pipeline.θ_run_regions_kit (pcfgs (F := F)) Gen.adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ rest c))
    (Tₙ := fun c => iprop(StableHlo.held (c : Thread nD τ) (Pipeline.ucRefs τ sig) (final m c) ∗ ∃ r, prngReg c r))
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (final m c) ∗ rest c)
          ⊢ iprop((StableHlo.held (c : Thread nD τ) (Pipeline.ucRefs τ sig) (final m c) ∗ ∃ r, prngReg c r) ∗ ∃ W, owes (c : Thread nD τ) (0 : CellTallies nD τ sig Unit) W)
        iintro ⟨Hh, Hp, HW⟩
        isplitl [Hh Hp]
        · isplitl [Hh]; · iexact Hh
          iexact Hp
        iexact HW⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = final m c b)
    (hfin := fun c s' => by
      iintro ⟨⟨Hh, -⟩, HSI⟩
      unfold StableHlo.held
      imodintro
      iapply (pointsTo_read_all (Pipeline.ucRefs τ sig) (fun b => (((c : Thread nD τ)).1, b)) (final m c) s')
      isplitl [Hh] <;> iassumption)
    (hQ := fun s h c => h c)

end Cert.KernelIdeal.Whole

end
-- ==== Proof.ArgsKept.lean ====
/-
  The arguments end as launched.

  No host operation writes an argument buffer and neither kernel call has one as a window's array, so the last
  boundary's contents at an argument walk back, item by item, to the launch memory (`final_arg`); the run's
  post then gives the nine equations of the frame claim (`args_kept`).
-/
import proofs.«134152_j7868380086274_1_alg».proof.Proof.WholeRun

noncomputable section

namespace Cert.KernelIdeal.Whole

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- A buffer that no host stretch writes and that is no window's array of either kernel call holds at the end what it
    held at launch. -/
theorem final_arg (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W)
    (ha0 : ∀ w, Pipeline.arrRef spec0 w ≠ r) (ha1 : ∀ w, Pipeline.arrRef spec1 w ≠ r) (h8 : r ∉ hostOps2_W) :
    final m c (Proc.devRef .tc r) = m ((c : Thread nD τ).loc r) :=
  (StableHlo.after_of_writes_sub hostOps2 _ hostOps2_writes h8).trans <|
    (after1_of_ne m c r ha1).trans <| (after0_of_ne m c r ha0).trans <|
    (Gen.V6_of m c r h5).trans <| (Gen.V5_of m c r h4).trans <| (Gen.V4_of m c r h3).trans <|
    (Gen.V3_of m c r h2).trans <| (Gen.V2_of m c r h1).trans <| (Gen.V1_of m c r h0).trans rfl

/-- The frame claim's nine equations, from the run's post. -/
theorem args_kept (r : PUnit × MemSt nD τ sig (Elt F))
    (h : ∀ c : Dev nD, ∀ b ∈ Pipeline.ucRefs τ sig, r.2.mem (((c : Thread nD τ)).1, b) = final m c b) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨(h c _ (mem_uc main_arg0 (by decide))).trans (final_arg m c main_arg0 (by decide) (by decide) (by decide) (by decide) (by decide) (by decide) (by decide) (by decide) (by decide)),
    (h c _ (mem_uc main_arg1 (by decide))).trans (final_arg m c main_arg1 (by decide) (by decide) (by decide) (by decide) (by decide) (by decide) (by decide) (by decide) (by decide)),
    (h c _ (mem_uc main_arg2 (by decide))).trans (final_arg m c main_arg2 (by decide) (by decide) (by decide) (by decide) (by decide) (by decide) (by decide) (by decide) (by decide)),
    (h c _ (mem_uc main_arg3 (by decide))).trans (final_arg m c main_arg3 (by decide) (by decide) (by decide) (by decide) (by decide) (by decide) (by decide) (by decide) (by decide)),
    (h c _ (mem_uc main_arg4 (by decide))).trans (final_arg m c main_arg4 (by decide) (by decide) (by decide) (by decide) (by decide) (by decide) (by decide) (by decide) (by decide)),
    (h c _ (mem_uc main_arg5 (by decide))).trans (final_arg m c main_arg5 (by decide) (by decide) (by decide) (by decide) (by decide) (by decide) (by decide) (by decide) (by decide)),
    (h c _ (mem_uc main_arg6 (by decide))).trans (final_arg m c main_arg6 (by decide) (by decide) (by decide) (by decide) (by decide) (by decide) (by decide) (by decide) (by decide)),
    (h c _ (mem_uc main_arg7 (by decide))).trans (final_arg m c main_arg7 (by decide) (by decide) (by decide) (by decide) (by decide) (by decide) (by decide) (by decide) (by decide)),
    (h c _ (mem_uc main_arg8 (by decide))).trans (final_arg m c main_arg8 (by decide) (by decide) (by decide) (by decide) (by decide) (by decide) (by decide) (by decide) (by decide))⟩

end Cert.KernelIdeal.Whole

end
-- ==== Proof.HiddenRegionBits.lean ====
/-
  The first kernel call — the two `tanh` layers on a block of 256 batch rows — as the pipeline runs it.

  The grid has 8 points, one per block of 256 rows. At a point the pipeline hands the body six staging
  buffers: the rows' block of the concatenated input (window 0), the two weight matrices and the two bias
  rows whole (windows 1–4: their block never moves, so they are fetched at the first point only and are still
  there at every later one), and the output block (window 5). The body loads the five inputs whole, computes
  ONE value from them (the skeleton's payload) and stores it over the whole output buffer; it also loads the
  output buffer once, a value it never uses.

  Everything here is stated at a parameter `V` — what the TensorCore's buffers hold when the region is
  entered — and for any float instance. For each point: what block each input window holds (`blockAt`),
  that its current staging buffer holds exactly that whether or not this point fetched it (`heldW`), what the
  body leaves in the output buffer (`stored`: the one store read back whole), the body's run, and from these the
  proof data and the obligation the pipeline's launch asks of the body.

  This is the word-level program's copy: the same text as the idealized program's module, over the printed
  Kernel, so that the same run holds of it at the word-level instance.
-/
import proofs.«134152_j7868380086274_1_alg».proof.Proof.Gen.Kernel.Launch
import proofs.«134152_j7868380086274_1_alg».proof.Proof.Gen.Kernel.Skeleton
import proofs.«134152_j7868380086274_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hidden

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`: that rectangle of its array, as the region finds the array. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem held0_of {c : Dev nD} (dat : Dat τ (Elt F) Unit ℕ (Pipeline.UD sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every point, fetched there or not. -/
theorem held1_of {c : Dev nD} (dat : Dat τ (Elt F) Unit ℕ (Pipeline.UD sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds its block at every point, fetched there or not. -/
theorem held2_of {c : Dev nD} (dat : Dat τ (Elt F) Unit ℕ (Pipeline.UD sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's current staging buffer holds its block at every point, fetched there or not. -/
theorem held3_of {c : Dev nD} (dat : Dat τ (Elt F) Unit ℕ (Pipeline.UD sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Input window 4's current staging buffer holds its block at every point, fetched there or not. -/
theorem held4_of {c : Dev nD} (dat : Dat τ (Elt F) Unit ℕ (Pipeline.UD sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

/-- The rectangle of a whole buffer, per buffer shape: every load and the store go through these. -/
abbrev whole_S256x1712 : Rect S256x1712 := Rect.unit (s := S256x1712) ![0, 0] S256x1712.size inb_S256x1712_S256x1712_0_0
abbrev whole_S1712x1024 : Rect S1712x1024 := Rect.unit (s := S1712x1024) ![0, 0] S1712x1024.size inb_S1712x1024_S1712x1024_0_0
abbrev whole_S1x1024 : Rect S1x1024 := Rect.unit (s := S1x1024) ![0, 0] S1x1024.size inb_S1x1024_S1x1024_0_0
abbrev whole_S1024x1024 : Rect S1024x1024 := Rect.unit (s := S1024x1024) ![0, 0] S1024x1024.size inb_S1024x1024_S1024x1024_0_0
abbrev whole_S256x1024 : Rect S256x1024 := Rect.unit (s := S256x1024) ![0, 0] S256x1024.size inb_S256x1024_S256x1024_0_0

/-- The output block after the body, from the five input blocks: the body's one store — the two-layer value of the
    whole loaded blocks — read back over the whole buffer. -/
def stored (x0 : Vec F S256x1712 .bf16) (x1 : Vec F S1712x1024 .bf16) (x2 : Vec F S1x1024 .f32) (x3 : Vec F S1024x1024 .bf16) (x4 : Vec F S1x1024 .f32) : Vec F S256x1024 .bf16 :=
  View.canon [⟨whole_S256x1024, k0_pay1 (View.ld x0 whole_S256x1712) (View.ld x1 whole_S1712x1024) (View.ld x2 whole_S1x1024) (View.ld x3 whole_S1024x1024) (View.ld x4 whole_S1x1024)⟩]

/-- The one store is of the whole buffer, so it covers it. -/
theorem stored_covers (p0 : Vec F S256x1024 .bf16) (y : S256x1024.Idx) :
    ∃ pc ∈ ([⟨whole_S256x1024, p0⟩] : List (View.Piece (Elt F) S256x1024 .bf16)), y ∈ pc.1.set :=
  View.cover_of_tiled [⟨whole_S256x1024, p0⟩] S256x1024.size (by rfl) y

/-! ## The body's run -/

set_option maxHeartbeats 1000000 in
/-- The body on whole staging buffers — the inputs' at contents `x0 x1 x2 x3 x4`, the output's at anything — runs to its
    return with the inputs' buffers as they were and the output's at `stored x0 x1 x2 x3 x4`: the printed function is its
    skeleton of loads and one store, which the symbolic executor steps through. -/
theorem body_runs (c : Dev nD) (E : Set ℕ) (i : grid0.Coords)
    (arg1 : Memref sig .tc .vmem S256x1712 .bf16) (harg1 : arg1.IsWhole) (arg2 : Memref sig .tc .vmem S1712x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S256x1024 .bf16) (harg6 : arg6.IsWhole)
    (x0 : Vec F S256x1712 .bf16) (x1 : Vec F S1712x1024 .bf16) (x2 : Vec F S1x1024 .f32) (x3 : Vec F S1024x1024 .bf16) (x4 : Vec F S1x1024 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (stored x0 x1 x2 x3 x4)) -∗ K ⟨⟩))
      ⊢ wp frame (wpE (defs₀ (F := F)) Variants.none c none) E (cc0__mlp12_kernel i arg1 harg1 arg2 harg2 arg3 harg3 arg4 harg4 arg5 harg5 arg6 harg6) K := by
  simp only [cc0__mlp12_kernel_eq_skeleton]; unfold cc0__mlp12_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (stored_covers _)

/-! ## The pipeline's proof data -/

/-- The proof data of this pipeline on core `c`: the arrays as the region finds them; after the body at point `t` each
    input's buffer still at its block and the output's at `stored` of the input blocks; the invariant the scoped rest and
    the generator register, which the body does not touch; nothing owed; full shares. -/
def data (c : Dev nD) : Dat τ (Elt F) Unit ℕ (Pipeline.UD sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => stored (blockAt V c 0 t) (blockAt V c 1 t) (blockAt V c 2 t) (blockAt V c 3 t) (blockAt V c 4 t)
  Φ _ := Pipeline.ΦA spec0 c
  q _ := fullShare
  owed _ := 0

/-- The proof data's arrays are the region-entry contents. -/
theorem data_A (c : Dev nD) (w : Fin cfg0.W) : (data V c).A w = V c (Pipeline.arrRef spec0 w) := by
  dsimp only [data]

/-- What the body leaves, window by window. -/
theorem after0 (c : Dev nD) (t : Fin cfg0.N) : (data V c).after 0 t = blockAt V c 0 t := by dsimp only [data]
theorem after1 (c : Dev nD) (t : Fin cfg0.N) : (data V c).after 1 t = blockAt V c 1 t := by dsimp only [data]
theorem after2 (c : Dev nD) (t : Fin cfg0.N) : (data V c).after 2 t = blockAt V c 2 t := by dsimp only [data]
theorem after3 (c : Dev nD) (t : Fin cfg0.N) : (data V c).after 3 t = blockAt V c 3 t := by dsimp only [data]
theorem after4 (c : Dev nD) (t : Fin cfg0.N) : (data V c).after 4 t = blockAt V c 4 t := by dsimp only [data]
theorem after5 (c : Dev nD) (t : Fin cfg0.N) :
    (data V c).after 5 t = stored (blockAt V c 0 t) (blockAt V c 1 t) (blockAt V c 2 t) (blockAt V c 3 t) (blockAt V c 4 t) := by dsimp only [data]

/-- Each input's current staging buffer holds its block at every point. -/
theorem held0 (c : Dev nD) (t : Fin cfg0.N) (d) : (data V c).before 0 t d = blockAt V c 0 t := held0_of V (data V c) (data_A V c 0) (after0 V c) t d
theorem held1 (c : Dev nD) (t : Fin cfg0.N) (d) : (data V c).before 1 t d = blockAt V c 1 t := held1_of V (data V c) (data_A V c 1) (after1 V c) t d
theorem held2 (c : Dev nD) (t : Fin cfg0.N) (d) : (data V c).before 2 t d = blockAt V c 2 t := held2_of V (data V c) (data_A V c 2) (after2 V c) t d
theorem held3 (c : Dev nD) (t : Fin cfg0.N) (d) : (data V c).before 3 t d = blockAt V c 3 t := held3_of V (data V c) (data_A V c 3) (after3 V c) t d
theorem held4 (c : Dev nD) (t : Fin cfg0.N) (d) : (data V c).before 4 t d = blockAt V c 4 t := held4_of V (data V c) (data_A V c 4) (after4 V c) t d

/-! ## The body obligation -/

/-- What the body is called with at point `t`: the invariant, the core's dues, and each window's current staging buffer
    at what it holds before the body, -/
def bodyPre (c : Dev nD) (t : Fin cfg0.N) : sProp 𝕄 :=
  iprop((data V c).Φ t.castSucc ∗ (data V c).owesAt () t.castSucc
    ∗ (∃ d, owns (c : Thread nD τ) (st0_0 t) fullShare ((data V c).before 0 t d))
    ∗ (∃ d, owns (c : Thread nD τ) (st0_1 t) fullShare ((data V c).before 1 t d))
    ∗ (∃ d, owns (c : Thread nD τ) (st0_2 t) fullShare ((data V c).before 2 t d))
    ∗ (∃ d, owns (c : Thread nD τ) (st0_3 t) fullShare ((data V c).before 3 t d))
    ∗ (∃ d, owns (c : Thread nD τ) (st0_4 t) fullShare ((data V c).before 4 t d))
    ∗ (∃ d, owns (c : Thread nD τ) (st0_5 t) fullShare ((data V c).before 5 t d)))

/-- and what it returns: the same with each buffer at what the body leaves. -/
def bodyPost (c : Dev nD) (t : Fin cfg0.N) : sProp 𝕄 :=
  iprop((data V c).Φ t.succ ∗ (data V c).owesAt () t.succ
    ∗ owns (c : Thread nD τ) (st0_0 t) fullShare ((data V c).after 0 t)
    ∗ owns (c : Thread nD τ) (st0_1 t) fullShare ((data V c).after 1 t)
    ∗ owns (c : Thread nD τ) (st0_2 t) fullShare ((data V c).after 2 t)
    ∗ owns (c : Thread nD τ) (st0_3 t) fullShare ((data V c).after 3 t)
    ∗ owns (c : Thread nD τ) (st0_4 t) fullShare ((data V c).after 4 t)
    ∗ owns (c : Thread nD τ) (st0_5 t) fullShare ((data V c).after 5 t))

/-- The body at any point: the inputs' buffers hold their blocks, so `body_runs` applies; the invariant and the core's
    dues pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [held0, held1, held2, held3, held4]
  rw [show (data V c).Φ t.succ = (data V c).Φ t.castSucc from rfl,
    show (data V c).owesAt () t.succ = (data V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (body_runs c Set.univ (grid0.coords t) _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline's launch asks of the body, at every point. -/
theorem body_obligation (c : Dev nD) : BodyObligation (data (F := F) V c) (defs₀ (F := F)) Variants.none () Set.univ := fun t => by
  rw [bigSep_W0, bigSep_W0]
  exact body_at V c t

end Cert.Kernel.Hidden

end
-- ==== Proof.OutputRegionBits.lean ====
/-
  The second kernel call — the last dense layer plus the additive mask penalty, on a 256 × 2176 tile of the
  logits — as the pipeline runs it.

  The grid has 8 × 12 points: a block of 256 batch rows by a block of 2176 output columns. At a point the
  pipeline hands the body five staging buffers: the rows' block of the hidden activations (window 0; its block
  moves only with the row coordinate, so it is fetched once per twelve points and stays in place in between),
  the columns' block of the last weight matrix and of the bias row (windows 1, 2), the tile of the penalty
  (window 3) and the output tile (window 4). The body loads the four inputs whole, computes ONE value from
  them (the skeleton's payload) and stores it over the whole output buffer; it also loads the output buffer
  once, a value it never uses.

  Everything here is stated at a parameter `V` — what the TensorCore's buffers hold when the region is
  entered — and for any float instance: each input window's block at a point (`blockAt`), that its current
  staging buffer holds exactly that whether or not this point fetched it (`heldW`), what the body leaves in the
  output buffer (`stored`), the body's run, the proof data and the obligation the launch asks of the body.

  This is the word-level program's copy: the same text as the idealized program's module, over the printed
  Kernel, so that the same run holds of it at the word-level instance.
-/
import proofs.«134152_j7868380086274_1_alg».proof.Proof.Gen.Kernel.Launch
import proofs.«134152_j7868380086274_1_alg».proof.Proof.Gen.Kernel.Skeleton
import proofs.«134152_j7868380086274_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Output

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`: that rectangle of its array, as the region finds the array. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem held0_of {c : Dev nD} (dat : Dat τ (Elt F) Unit ℕ (Pipeline.UD sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Input window 1's current staging buffer holds its block at every point, fetched there or not. -/
theorem held1_of {c : Dev nD} (dat : Dat τ (Elt F) Unit ℕ (Pipeline.UD sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Input window 2's current staging buffer holds its block at every point, fetched there or not. -/
theorem held2_of {c : Dev nD} (dat : Dat τ (Elt F) Unit ℕ (Pipeline.UD sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Input window 3's current staging buffer holds its block at every point, fetched there or not. -/
theorem held3_of {c : Dev nD} (dat : Dat τ (Elt F) Unit ℕ (Pipeline.UD sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

/-- The rectangle of a whole buffer, per buffer shape: every load and the store go through these. -/
abbrev whole_S256x1024 : Rect S256x1024 := Rect.unit (s := S256x1024) ![0, 0] S256x1024.size inb_S256x1024_S256x1024_0_0
abbrev whole_S1024x2176 : Rect S1024x2176 := Rect.unit (s := S1024x2176) ![0, 0] S1024x2176.size inb_S1024x2176_S1024x2176_0_0
abbrev whole_S1x2176 : Rect S1x2176 := Rect.unit (s := S1x2176) ![0, 0] S1x2176.size inb_S1x2176_S1x2176_0_0
abbrev whole_S256x2176 : Rect S256x2176 := Rect.unit (s := S256x2176) ![0, 0] S256x2176.size inb_S256x2176_S256x2176_0_0

/-- The output block after the body, from the four input blocks: the body's one store — the last layer's value of the
    whole loaded blocks plus the loaded penalty block — read back over the whole buffer. -/
def stored (x0 : Vec F S256x1024 .bf16) (x1 : Vec F S1024x2176 .bf16) (x2 : Vec F S1x2176 .f32) (x3 : Vec F S256x2176 .f32) : Vec F S256x2176 .f32 :=
  View.canon [⟨whole_S256x2176, k1_pay1 (View.ld x0 whole_S256x1024) (View.ld x1 whole_S1024x2176) (View.ld x2 whole_S1x2176) (View.ld x3 whole_S256x2176)⟩]

/-- The one store is of the whole buffer, so it covers it. -/
theorem stored_covers (p0 : Vec F S256x2176 .f32) (y : S256x2176.Idx) :
    ∃ pc ∈ ([⟨whole_S256x2176, p0⟩] : List (View.Piece (Elt F) S256x2176 .f32)), y ∈ pc.1.set :=
  View.cover_of_tiled [⟨whole_S256x2176, p0⟩] S256x2176.size (by rfl) y

/-! ## The body's run -/

set_option maxHeartbeats 1000000 in
/-- The body on whole staging buffers — the inputs' at contents `x0 x1 x2 x3`, the output's at anything — runs to its
    return with the inputs' buffers as they were and the output's at `stored x0 x1 x2 x3`: the printed function is its
    skeleton of loads and one store, which the symbolic executor steps through. -/
theorem body_runs (c : Dev nD) (E : Set ℕ) (i : grid1.Coords)
    (arg2 : Memref sig .tc .vmem S256x1024 .bf16) (harg2 : arg2.IsWhole) (arg3 : Memref sig .tc .vmem S1024x2176 .bf16) (harg3 : arg3.IsWhole) (arg4 : Memref sig .tc .vmem S1x2176 .f32) (harg4 : arg4.IsWhole) (arg5 : Memref sig .tc .vmem S256x2176 .f32) (harg5 : arg5.IsWhole) (arg6 : Memref sig .tc .vmem S256x2176 .f32) (harg6 : arg6.IsWhole)
    (x0 : Vec F S256x1024 .bf16) (x1 : Vec F S1024x2176 .bf16) (x2 : Vec F S1x2176 .f32) (x3 : Vec F S256x2176 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (stored x0 x1 x2 x3)) -∗ K ⟨⟩))
      ⊢ wp frame (wpE (defs₀ (F := F)) Variants.none c none) E (cc1__mlp3_kernel i arg2 harg2 arg3 harg3 arg4 harg4 arg5 harg5 arg6 harg6) K := by
  simp only [cc1__mlp3_kernel_eq_skeleton]; unfold cc1__mlp3_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (stored_covers _)

/-! ## The pipeline's proof data -/

/-- The proof data of this pipeline on core `c`: the arrays as the region finds them; after the body at point `t` each
    input's buffer still at its block and the output's at `stored` of the input blocks; the invariant the scoped rest and
    the generator register, which the body does not touch; nothing owed; full shares. -/
def data (c : Dev nD) : Dat τ (Elt F) Unit ℕ (Pipeline.UD sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => stored (blockAt V c 0 t) (blockAt V c 1 t) (blockAt V c 2 t) (blockAt V c 3 t)
  Φ _ := Pipeline.ΦA spec1 c
  q _ := fullShare
  owed _ := 0

/-- The proof data's arrays are the region-entry contents. -/
theorem data_A (c : Dev nD) (w : Fin cfg1.W) : (data V c).A w = V c (Pipeline.arrRef spec1 w) := by
  dsimp only [data]

/-- What the body leaves, window by window. -/
theorem after0 (c : Dev nD) (t : Fin cfg1.N) : (data V c).after 0 t = blockAt V c 0 t := by dsimp only [data]
theorem after1 (c : Dev nD) (t : Fin cfg1.N) : (data V c).after 1 t = blockAt V c 1 t := by dsimp only [data]
theorem after2 (c : Dev nD) (t : Fin cfg1.N) : (data V c).after 2 t = blockAt V c 2 t := by dsimp only [data]
theorem after3 (c : Dev nD) (t : Fin cfg1.N) : (data V c).after 3 t = blockAt V c 3 t := by dsimp only [data]
theorem after4 (c : Dev nD) (t : Fin cfg1.N) :
    (data V c).after 4 t = stored (blockAt V c 0 t) (blockAt V c 1 t) (blockAt V c 2 t) (blockAt V c 3 t) := by dsimp only [data]

/-- Each input's current staging buffer holds its block at every point. -/
theorem held0 (c : Dev nD) (t : Fin cfg1.N) (d) : (data V c).before 0 t d = blockAt V c 0 t := held0_of V (data V c) (data_A V c 0) (after0 V c) t d
theorem held1 (c : Dev nD) (t : Fin cfg1.N) (d) : (data V c).before 1 t d = blockAt V c 1 t := held1_of V (data V c) (data_A V c 1) (after1 V c) t d
theorem held2 (c : Dev nD) (t : Fin cfg1.N) (d) : (data V c).before 2 t d = blockAt V c 2 t := held2_of V (data V c) (data_A V c 2) (after2 V c) t d
theorem held3 (c : Dev nD) (t : Fin cfg1.N) (d) : (data V c).before 3 t d = blockAt V c 3 t := held3_of V (data V c) (data_A V c 3) (after3 V c) t d

/-! ## The body obligation -/

/-- What the body is called with at point `t`: the invariant, the core's dues, and each window's current staging buffer
    at what it holds before the body, -/
def bodyPre (c : Dev nD) (t : Fin cfg1.N) : sProp 𝕄 :=
  iprop((data V c).Φ t.castSucc ∗ (data V c).owesAt () t.castSucc
    ∗ (∃ d, owns (c : Thread nD τ) (st1_0 t) fullShare ((data V c).before 0 t d))
    ∗ (∃ d, owns (c : Thread nD τ) (st1_1 t) fullShare ((data V c).before 1 t d))
    ∗ (∃ d, owns (c : Thread nD τ) (st1_2 t) fullShare ((data V c).before 2 t d))
    ∗ (∃ d, owns (c : Thread nD τ) (st1_3 t) fullShare ((data V c).before 3 t d))
    ∗ (∃ d, owns (c : Thread nD τ) (st1_4 t) fullShare ((data V c).before 4 t d)))

/-- and what it returns: the same with each buffer at what the body leaves. -/
def bodyPost (c : Dev nD) (t : Fin cfg1.N) : sProp 𝕄 :=
  iprop((data V c).Φ t.succ ∗ (data V c).owesAt () t.succ
    ∗ owns (c : Thread nD τ) (st1_0 t) fullShare ((data V c).after 0 t)
    ∗ owns (c : Thread nD τ) (st1_1 t) fullShare ((data V c).after 1 t)
    ∗ owns (c : Thread nD τ) (st1_2 t) fullShare ((data V c).after 2 t)
    ∗ owns (c : Thread nD τ) (st1_3 t) fullShare ((data V c).after 3 t)
    ∗ owns (c : Thread nD τ) (st1_4 t) fullShare ((data V c).after 4 t))

/-- The body at any point: the inputs' buffers hold their blocks, so `body_runs` applies; the invariant and the core's
    dues pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [held0, held1, held2, held3]
  rw [show (data V c).Φ t.succ = (data V c).Φ t.castSucc from rfl,
    show (data V c).owesAt () t.succ = (data V c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (body_runs c Set.univ (grid1.coords t) _ _ _ _ _ _ _ _ _ _ (blockAt V c 0 t) (blockAt V c 1 t) (blockAt V c 2 t) (blockAt V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The obligation the pipeline's launch asks of the body, at every point. -/
theorem body_obligation (c : Dev nD) : BodyObligation (data (F := F) V c) (defs₀ (F := F)) Variants.none () Set.univ := fun t => by
  rw [bigSep_W1, bigSep_W1]
  exact body_at V c t

end Cert.Kernel.Output

end
-- ==== Proof.WholeRunBits.lean ====
/-
  The whole of @main as one run: six stretches of host operations, the two kernel calls, one last host
  operation.

  Between two items every unscoped buffer of the TensorCore holds a known value. The host stretches are
  folds of pure operations over the launch memory. A kernel call changes only its output
  window's array, which ends at what the pipeline's write-backs leave, point after point; every other buffer,
  its input windows' arrays included, is as it was at entry. From these boundary contents: each kernel call
  as a segment of the run (its layout, the body obligation of its region module, and how the unscoped buffers
  are split into its windows' arrays and back), @main as the list of its nine segments, and the run itself —
  every weakly fair execution terminates without a fault, with every unscoped buffer at the last boundary's
  contents (`run`). The arguments are written by no item, so they end as launched (`final_arg`); the result
  buffer ends at the last host operation's value of what the second kernel call leaves.
-/
import proofs.«134152_j7868380086274_1_alg».proof.Proof.Gen.Kernel.Regions
import proofs.«134152_j7868380086274_1_alg».proof.Proof.HiddenRegionBits
import proofs.«134152_j7868380086274_1_alg».proof.Proof.OutputRegionBits

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary -/

/-- Before the first kernel call: the launch memory after the six host stretches. -/
abbrev before0 (c : Dev nD) : Valuation τ sig (Elt F) := Gen.V6 m c
/-- The same read at the TensorCore's references (what the first pipeline's proof data take). -/
abbrev entry0 : (c : Dev nD) → (b : Ref sig .tc) → Buf (Elt F) ((c : Thread nD τ).loc b) := fun c b => before0 m c b

/-- After the first kernel call: its windows' arrays at what the pipeline leaves (an input's as entered, the output's
    with every point's write-back folded in), every other buffer as entered. -/
def after0 (c : Dev nD) : Valuation τ sig (Elt F) :=
  Pipeline.withArrays spec0 c (before0 m c) fun w => (Hidden.data (entry0 m) c).arrAt w cfg0.N
theorem after0_arr (c : Dev nD) (w : Fin cfg0.W) :
    after0 m c (Proc.devRef .tc (Pipeline.arrRef spec0 w)) = (Hidden.data (entry0 m) c).arrAt w cfg0.N := by
  unfold after0; exact Pipeline.withArrays_arr spec0 launch0.win.arr_inj c _ _ w
theorem after0_of_ne (c : Dev nD) (b : Ref sig .tc) (hb : ∀ w, Pipeline.arrRef spec0 w ≠ b) :
    after0 m c (Proc.devRef .tc b) = before0 m c (Proc.devRef .tc b) := by
  unfold after0; exact Pipeline.withArrays_of_ne spec0 c _ _ b hb
/-- The same read at the TensorCore's references (what the second pipeline's proof data take). -/
abbrev entry1 : (c : Dev nD) → (b : Ref sig .tc) → Buf (Elt F) ((c : Thread nD τ).loc b) := fun c b => after0 m c b
theorem left0_arr (c : Dev nD) (w : Fin cfg0.W) : (Hidden.data (entry0 m) c).arrAt w cfg0.N = entry1 m c (Pipeline.arrRef spec0 w) :=
  (after0_arr m c w).symm
theorem left0_rest (c : Dev nD) : ∀ b, b ∉ Finset.univ.image (Pipeline.arrRef spec0) → entry1 m c b = entry0 m c b :=
  fun b hb => after0_of_ne m c b fun w e => hb (Finset.mem_image.mpr ⟨w, Finset.mem_univ _, e⟩)

/-- After the second kernel call, likewise. -/
def after1 (c : Dev nD) : Valuation τ sig (Elt F) :=
  Pipeline.withArrays spec1 c (after0 m c) fun w => (Output.data (entry1 m) c).arrAt w cfg1.N
theorem after1_arr (c : Dev nD) (w : Fin cfg1.W) :
    after1 m c (Proc.devRef .tc (Pipeline.arrRef spec1 w)) = (Output.data (entry1 m) c).arrAt w cfg1.N := by
  unfold after1; exact Pipeline.withArrays_arr spec1 launch1.win.arr_inj c _ _ w
theorem after1_of_ne (c : Dev nD) (b : Ref sig .tc) (hb : ∀ w, Pipeline.arrRef spec1 w ≠ b) :
    after1 m c (Proc.devRef .tc b) = after0 m c (Proc.devRef .tc b) := by
  unfold after1; exact Pipeline.withArrays_of_ne spec1 c _ _ b hb
abbrev exit1 : (c : Dev nD) → (b : Ref sig .tc) → Buf (Elt F) ((c : Thread nD τ).loc b) := fun c b => after1 m c b
theorem left1_arr (c : Dev nD) (w : Fin cfg1.W) : (Output.data (entry1 m) c).arrAt w cfg1.N = exit1 m c (Pipeline.arrRef spec1 w) :=
  (after1_arr m c w).symm
theorem left1_rest (c : Dev nD) : ∀ b, b ∉ Finset.univ.image (Pipeline.arrRef spec1) → exit1 m c b = entry1 m c b :=
  fun b hb => after1_of_ne m c b fun w e => hb (Finset.mem_image.mpr ⟨w, Finset.mem_univ _, e⟩)

/-- At the end: the last host operation (the reshape of the logits) over what the second kernel call leaves. -/
abbrev final (c : Dev nD) : Valuation τ sig (Elt F) := StableHlo.after hostOps2 (after1 m c)

/-! ## The proof data family and what rides beside the buffers -/

/-- Each pipeline's proof data at its region's entry contents: a literal match on the pipeline's number. -/
def pdats : (p : Fin 2) → (c : Dev nD) → Dat τ (Elt F) Unit ℕ (Pipeline.UD sig nD τ) ℕ (Pipeline.pin (pcfgs (F := F)) Gen.adm p) c
  | ⟨0, _⟩ => fun c => Hidden.data (entry0 m) c
  | ⟨1, _⟩ => fun c => Output.data (entry1 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers, through every segment: the core's generator register at some state and its dues, at nothing. -/
abbrev rest (c : Dev nD) : sProp 𝕄 := iprop((∃ r, prngReg c r) ∗ ∃ W, owes (c : Thread nD τ) (0 : CellTallies nD τ sig Unit) W)
/-- A stretch of host operations as a segment, from the contents `W`: it leaves the operations' fold over `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The kernel calls as segments -/

-- `iapply` of a library lemma stated over the pinned configuration unifies only when unification may unfold plain
-- definitions in a metavariable's type
set_option backward.isDefEq.respectTransparency.types false in
/-- The first kernel call as a segment: entered with every unscoped buffer at `before0`, left with them at `after0`
    (what the second kernel call is entered from). Its windows' arrays are split out of the unscoped buffers at entry and put back at their final contents at
    exit; the generator register goes into the pipeline's invariant and comes back; the kernel has no semaphore of its own
    and owes nothing. -/
def region0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (Hidden.body_obligation (entry0 m) c).loose
  hwaits := Pipeline.hwaits_of_owed_zero _ _ _ _ L lv 0 fun _ _ => rfl
  pre c := iprop(StableHlo.held (c : Thread nD τ) (Pipeline.ucRefs τ sig) (before0 m c) ∗ rest c)
  post c := iprop(StableHlo.held (c : Thread nD τ) (Pipeline.ucRefs τ sig) (after0 m c) ∗ rest c)
  X c := iprop(∃ r, prngReg c r)
  Y c := iprop(∃ r, prngReg c r)
  Z c := Pipeline.unscopedRest (Ix := Unit) (Name := ℕ) (U := Pipeline.UD sig nD τ) (Lvl := ℕ) spec0 c (entry0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := Pipeline.UD sig nD τ) (Lvl := ℕ)
      launch0.win launch0.arr_whole c (pdats m) ((pdats m 0 c).share_full fun _ => rfl)
      (entry0 m c) (entry1 m c) ((pdats m 0 c).arrAt · cfg0.N) (left0_arr m c) (left0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- The second kernel call as a segment: entered with every unscoped buffer at `after0`, left with them at `after1`
    (what the last host operation reads). Its windows' arrays are split out of the unscoped buffers at entry and put back at their final contents at
    exit; the generator register goes into the pipeline's invariant and comes back; the kernel has no semaphore of its own
    and owes nothing. -/
def region1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (Output.body_obligation (entry1 m) c).loose
  hwaits := Pipeline.hwaits_of_owed_zero _ _ _ _ L lv 1 fun _ _ => rfl
  pre c := iprop(StableHlo.held (c : Thread nD τ) (Pipeline.ucRefs τ sig) (after0 m c) ∗ rest c)
  post c := iprop(StableHlo.held (c : Thread nD τ) (Pipeline.ucRefs τ sig) (after1 m c) ∗ rest c)
  X c := iprop(∃ r, prngReg c r)
  Y c := iprop(∃ r, prngReg c r)
  Z c := Pipeline.unscopedRest (Ix := Unit) (Name := ℕ) (U := Pipeline.UD sig nD τ) (Lvl := ℕ) spec1 c (entry1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := Pipeline.UD sig nD τ) (Lvl := ℕ)
      launch1.win launch1.arr_whole c (pdats m) ((pdats m 1 c).share_full fun _ => rfl)
      (entry1 m c) (exit1 m c) ((pdats m 1 c).arrAt · cfg1.N) (left1_arr m c) (left1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's nine segments in order. -/
abbrev segs : List (Pipeline.Seg (pcfgs (F := F)) Gen.adm (pdats m) () defs₀ 𝒱₀ L lv) :=
  [ .host (hostSeg hostOps0 hostOps0_sub hostOps0_fresh (Gen.V0 m)),
    .host (hostSeg hostOps0_1 hostOps0_1_sub hostOps0_1_fresh (Gen.V1 m)),
    .host (hostSeg hostOps0_2 hostOps0_2_sub hostOps0_2_fresh (Gen.V2 m)),
    .host (hostSeg hostOps0_3 hostOps0_3_sub hostOps0_3_fresh (Gen.V3 m)),
    .host (hostSeg hostOps0_4 hostOps0_4_sub hostOps0_4_fresh (Gen.V4 m)),
    .host (hostSeg hostOps0_5 hostOps0_5_sub hostOps0_5_fresh (Gen.V5 m)),
    .region (region0 m),
    .region (region1 m),
    .host (hostSeg hostOps2 hostOps2_sub hostOps2_fresh (after1 m)) ]

/-- @main IS the run of the segments. -/
theorem main_run (c : Dev nD) : main (F := F) c = Pipeline.Seg.run (segs m) := (main_chain c).trans (by chain_rfl)

set_option backward.isDefEq.respectTransparency.types false in
/-- THE RUN. From any memory with zero counters, every weakly fair execution of @main on the TensorCores terminates,
    nothing faulting, and in every final state each unscoped buffer holds the last boundary's contents `final m c`. -/
theorem run : θ_run defs (onTc (τ := τ) (main (F := F))) ⟨m, fun _ => 0, ρ⟩ (fun r => ∀ c : Dev nD,
      ∀ b ∈ Pipeline.ucRefs τ sig, r.2.mem (((c : Thread nD τ)).1, b) = final m c b) :=
  Pipeline.θ_run_regions_kit (pcfgs (F := F)) Gen.adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ rest c))
    (Tₙ := fun c => iprop(StableHlo.held (c : Thread nD τ) (Pipeline.ucRefs τ sig) (final m c) ∗ ∃ r, prngReg c r))
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (final m c) ∗ rest c)
          ⊢ iprop((StableHlo.held (c : Thread nD τ) (Pipeline.ucRefs τ sig) (final m c) ∗ ∃ r, prngReg c r) ∗ ∃ W, owes (c : Thread nD τ) (0 : CellTallies nD τ sig Unit) W)
        iintro ⟨Hh, Hp, HW⟩
        isplitl [Hh Hp]
        · isplitl [Hh]; · iexact Hh
          iexact Hp
        iexact HW⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = final m c b)
    (hfin := fun c s' => by
      iintro ⟨⟨Hh, -⟩, HSI⟩
      unfold StableHlo.held
      imodintro
      iapply (pointsTo_read_all (Pipeline.ucRefs τ sig) (fun b => (((c : Thread nD τ)).1, b)) (final m c) s')
      isplitl [Hh] <;> iassumption)
    (hQ := fun s h c => h c)

end Cert.Kernel.Whole

end
-- ==== Proof.ArgsKeptBits.lean ====
/-
  The arguments end as launched (the word-level program's copy of the idealized program's module).

  No host operation writes an argument buffer and neither kernel call has one as a window's array, so the last
  boundary's contents at an argument walk back, item by item, to the launch memory (`final_arg`); the run's
  post then gives the nine equations of the frame claim (`args_kept`).
-/
import proofs.«134152_j7868380086274_1_alg».proof.Proof.WholeRunBits

noncomputable section

namespace Cert.Kernel.Whole

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- A buffer that no host stretch writes and that is no window's array of either kernel call holds at the end what it
    held at launch. -/
theorem final_arg (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W)
    (ha0 : ∀ w, Pipeline.arrRef spec0 w ≠ r) (ha1 : ∀ w, Pipeline.arrRef spec1 w ≠ r) (h8 : r ∉ hostOps2_W) :
    final m c (Proc.devRef .tc r) = m ((c : Thread nD τ).loc r) :=
  (StableHlo.after_of_writes_sub hostOps2 _ hostOps2_writes h8).trans <|
    (after1_of_ne m c r ha1).trans <| (after0_of_ne m c r ha0).trans <|
    (Gen.V6_of m c r h5).trans <| (Gen.V5_of m c r h4).trans <| (Gen.V4_of m c r h3).trans <|
    (Gen.V3_of m c r h2).trans <| (Gen.V2_of m c r h1).trans <| (Gen.V1_of m c r h0).trans rfl

/-- The frame claim's nine equations, from the run's post. -/
theorem args_kept (r : PUnit × MemSt nD τ sig (Elt F))
    (h : ∀ c : Dev nD, ∀ b ∈ Pipeline.ucRefs τ sig, r.2.mem (((c : Thread nD τ)).1, b) = final m c b) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨(h c _ (mem_uc main_arg0 (by decide))).trans (final_arg m c main_arg0 (by decide) (by decide) (by decide) (by decide) (by decide) (by decide) (by decide) (by decide) (by decide)),
    (h c _ (mem_uc main_arg1 (by decide))).trans (final_arg m c main_arg1 (by decide) (by decide) (by decide) (by decide) (by decide) (by decide) (by decide) (by decide) (by decide)),
    (h c _ (mem_uc main_arg2 (by decide))).trans (final_arg m c main_arg2 (by decide) (by decide) (by decide) (by decide) (by decide) (by decide) (by decide) (by decide) (by decide)),
    (h c _ (mem_uc main_arg3 (by decide))).trans (final_arg m c main_arg3 (by decide) (by decide) (by decide) (by decide) (by decide) (by decide) (by decide) (by decide) (by decide)),
    (h c _ (mem_uc main_arg4 (by decide))).trans (final_arg m c main_arg4 (by decide) (by decide) (by decide) (by decide) (by decide) (by decide) (by decide) (by decide) (by decide)),
    (h c _ (mem_uc main_arg5 (by decide))).trans (final_arg m c main_arg5 (by decide) (by decide) (by decide) (by decide) (by decide) (by decide) (by decide) (by decide) (by decide)),
    (h c _ (mem_uc main_arg6 (by decide))).trans (final_arg m c main_arg6 (by decide) (by decide) (by decide) (by decide) (by decide) (by decide) (by decide) (by decide) (by decide)),
    (h c _ (mem_uc main_arg7 (by decide))).trans (final_arg m c main_arg7 (by decide) (by decide) (by decide) (by decide) (by decide) (by decide) (by decide) (by decide) (by decide)),
    (h c _ (mem_uc main_arg8 (by decide))).trans (final_arg m c main_arg8 (by decide) (by decide) (by decide) (by decide) (by decide) (by decide) (by decide) (by decide) (by decide))⟩

end Cert.Kernel.Whole

end
-- ==== Proof.HostSide.lean ====
/-
  What the host operations before the first kernel call leave in the buffers the two kernel calls read, at
  the ideal values, as terms of the nine argument arrays.

  The concatenated input (`inputs`: the observation, the flattened map and the flattened flags side by side,
  1712 features per row) and the three weight matrices reach the kernels through a change of float format,
  which is the identity at the ideal values; the three bias vectors are re-laid as one-row matrices. The
  action mask (`maskBits`) is computed from the map and the flags alone: a flag of `-1` is replaced by `1` where
  the map is `0` and by `0` elsewhere, a column of zeros is put in front, and the bit is "not zero". The penalty
  the second kernel call adds is `-∞` where the re-laid mask bit is set and `0` elsewhere.

  Every equation here is the fold of the host operations read off at one buffer; the mask and the
  concatenated input stay whole terms, never opened: the reference computes the same two terms.
-/
import proofs.«134152_j7868380086274_1_alg».proof.Proof.Gen.KernelIdeal.Regions
import Idealize.ShloMosaic.Lib.StableHlo.Run
import Idealize.ShloMosaic.Lib.ValueIdx

noncomputable section

namespace Cert.KernelIdeal.HostValue

open Cert.KernelIdeal Cert.KernelIdeal.Gen Idealize.ShloMosaic Idealize.ShloMosaic.TcCoe Idealize.SL.Sem Idealize.ShloMosaic.StableHlo

/-- The flags, one copy per map cell: `[2048,16,50] → [2048,16,1,50] → [2048,16,32,50] → [2048,512,50]`. -/
def flagsPerCell (a2 : FVec Ideal S2048x16x50 .f32) : FVec Ideal S2048x512x50 .f32 :=
  shapeCast _ (broadcastInDim S2048x16x32x50 ![0, 1, 2, 3] bcast_S2048x16x1x50_S2048x16x32x50_0_1_2_3
    (broadcastInDim S2048x16x1x50 ![0, 1, 3] bcast_S2048x16x50_S2048x16x1x50_0_1_3 a2)) shapeCasts_S2048x16x32x50_S2048x512x50

/-- The action mask's bits: the flags with `-1` replaced by "the map cell is `0`", a zero column in front, compared
    with zero. -/
def maskBits (a1 : FVec Ideal S2048x16x32 .f32) (a2 : FVec Ideal S2048x16x50 .f32) : IVec S2048x512x51 1 :=
  cmpf .une
    (concatenate S2048x512x51 2
      [⟨S2048x512x1, (broadcastInDim S2048x512x1 ![] bcast_S_S2048x512x1 (constant (F := Ideal) S_ .f32 0x00000000#32))⟩,
       ⟨S2048x512x50, (select (cmpf .oeq (flagsPerCell a2) (broadcastInDim S2048x512x50 ![] bcast_S_S2048x512x50 (constant (F := Ideal) S_ .f32 0xBF800000#32)))
          (broadcastInDim S2048x512x50 ![0, 1, 2] bcast_S2048x512x1_S2048x512x50_0_1_2
            (id (select (cmpf .oeq (broadcastInDim S2048x512x1 ![0, 1] bcast_S2048x512_S2048x512x1_0_1 (shapeCast _ a1 shapeCasts_S2048x16x32_S2048x512))
                  (broadcastInDim S2048x512x1 ![] bcast_S_S2048x512x1 (constant (F := Ideal) S_ .f32 0x00000000#32)))
                (broadcastInDim S2048x512x1 ![] bcast_S_S2048x512x1 (constant (F := Ideal) S_ .f32 0x3F800000#32))
                (broadcastInDim S2048x512x1 ![] bcast_S_S2048x512x1 (constant (F := Ideal) S_ .f32 0x00000000#32)))))
          (flagsPerCell a2))⟩]
      concatenates_S2048x512x1_S2048x512x50_S2048x512x51_d2)
    (broadcastInDim S2048x512x51 ![] bcast_S_S2048x512x51 (constant (F := Ideal) S_ .f32 0x00000000#32))

/-- The network's input rows: observation, flattened map, flattened flags, side by side. -/
def inputs (a0 : FVec Ideal S2048x400 .f32) (a1 : FVec Ideal S2048x16x32 .f32) (a2 : FVec Ideal S2048x16x50 .f32) : FVec Ideal S2048x1712 .f32 :=
  concatenate S2048x1712 1 [⟨S2048x400, a0⟩, ⟨S2048x512, (shapeCast _ a1 shapeCasts_S2048x16x32_S2048x512)⟩,
    ⟨S2048x800, (shapeCast _ a2 shapeCasts_S2048x16x50_S2048x800)⟩] concatenates_S2048x400_S2048x512_S2048x800_S2048x1712_d1

/-- The penalty array: `-∞` where the mask bit, re-laid as `[2048, 26112]`, is set, `0` elsewhere. -/
def penalty (a1 : FVec Ideal S2048x16x32 .f32) (a2 : FVec Ideal S2048x16x50 .f32) : FVec Ideal S2048x26112 .f32 :=
  select (shapeCast _ (maskBits a1 a2) shapeCasts_S2048x512x51_S2048x26112)
    (broadcastInDim S2048x26112 ![] bcast_S_S2048x26112 (constant (F := Ideal) S_ .f32 0xFF800000#32))
    (broadcastInDim S2048x26112 ![] bcast_S_S2048x26112 (constant (F := Ideal) S_ .f32 0x00000000#32))

variable (m : (ℓ : Loc nD τ sig) → Buf (Elt Ideal) ℓ) (c : Dev nD)

/-- The first kernel call's input rows are `inputs` of the first three arguments (the format change is the identity). -/
theorem rows_eq : (Gen.V6 m c (Proc.devRef .tc main_v19) : S2048x1712.Idx → EReal)
    = inputs (m ((c : Thread nD τ).loc main_arg0)) (m ((c : Thread nD τ).loc main_arg1)) (m ((c : Thread nD τ).loc main_arg2)) := by
  show StableHlo.after hostOps0_5 (Gen.V5 m c) (Proc.devRef .tc main_v19) = _
  after_results
  rfl

/-- The three weight matrices reach the kernels as they are. -/
theorem weights1_eq : (Gen.V6 m c (Proc.devRef .tc main_v20) : S1712x1024.Idx → EReal) = m ((c : Thread nD τ).loc main_arg3) := by
  show StableHlo.after hostOps0_5 (Gen.V5 m c) (Proc.devRef .tc main_v20) = _
  after_results
  rfl
theorem weights2_eq : (Gen.V6 m c (Proc.devRef .tc main_v21) : S1024x1024.Idx → EReal) = m ((c : Thread nD τ).loc main_arg5) := by
  show StableHlo.after hostOps0_5 (Gen.V5 m c) (Proc.devRef .tc main_v21) = _
  after_results
  rfl
theorem weights3_eq : (Gen.V6 m c (Proc.devRef .tc main_v22) : S1024x26112.Idx → EReal) = m ((c : Thread nD τ).loc main_arg7) := by
  show StableHlo.after hostOps0_5 (Gen.V5 m c) (Proc.devRef .tc main_v22) = _
  after_results
  rfl

/-- The three bias vectors reach the kernels re-laid as one-row matrices. -/
theorem bias1_eq : (Gen.V6 m c (Proc.devRef .tc main_v23) : S1x1024.Idx → EReal)
    = shapeCast _ (m ((c : Thread nD τ).loc main_arg4) : S1024.Idx → EReal) shapeCasts_S1024_S1x1024 := by
  show StableHlo.after hostOps0_5 (Gen.V5 m c) (Proc.devRef .tc main_v23) = _
  after_results
  rfl
theorem bias2_eq : (Gen.V6 m c (Proc.devRef .tc main_v24) : S1x1024.Idx → EReal)
    = shapeCast _ (m ((c : Thread nD τ).loc main_arg6) : S1024.Idx → EReal) shapeCasts_S1024_S1x1024 := by
  show StableHlo.after hostOps0_5 (Gen.V5 m c) (Proc.devRef .tc main_v24) = _
  after_results
  rfl
theorem bias3_eq : (Gen.V6 m c (Proc.devRef .tc main_v25) : S1x26112.Idx → EReal)
    = shapeCast _ (m ((c : Thread nD τ).loc main_arg8) : S26112.Idx → EReal) shapeCasts_S26112_S1x26112 := by
  show StableHlo.after hostOps0_5 (Gen.V5 m c) (Proc.devRef .tc main_v25) = _
  after_results
  rfl

set_option maxHeartbeats 1000000 in
/-- The penalty the second kernel call adds is `penalty` of the map and the flags. -/
theorem penalty_eq : (Gen.V6 m c (Proc.devRef .tc main_v17) : S2048x26112.Idx → EReal)
    = penalty (m ((c : Thread nD τ).loc main_arg1)) (m ((c : Thread nD τ).loc main_arg2)) := by
  show StableHlo.after hostOps0_5 (Gen.V5 m c) (Proc.devRef .tc main_v17) = _
  after_results_simp <;> rfl

end Cert.KernelIdeal.HostValue

end
-- ==== Proof.MlpSpec.lean ====
/-
  The function both programs compute, over plain coordinates, at the extended reals.

  A dense layer sends a batch `x` (rows `i`, features `l`) to `∑ l, x i l · W l k + b k`. The network is
  three such layers with `tanh` after the first two; its last layer's outputs are the logits. An action
  `n` of row `i` that the validity mask forbids has its logit replaced by `-∞`.

  The two programs differ only in how they apply the mask. One SELECTS: `-∞` where the mask bit is set,
  the logit elsewhere. The other ADDS a penalty that is `-∞` where the bit is set and `0` elsewhere. On the
  extended reals `x + ⊥ = ⊥` for EVERY `x` (also `⊤ + ⊥ = ⊥`) and `x + 0 = x`, so the two agree whatever the
  logit is: no finiteness of the logit is needed (`add_penalty`).
-/
import Idealize.ShloMosaic.PureOps.Ideal.Laws
import Idealize.ShloMosaic.Lib.ValueIdx

noncomputable section

namespace Cert.Mlp

open Idealize.ShloMosaic

variable {B I H O : Nat}

/-- One dense layer before its activation: row `i`, unit `k`. -/
def affine (x : Fin B → Fin I → EReal) (W : Fin I → Fin H → EReal) (b : Fin H → EReal) (i : Fin B) (k : Fin H) : EReal :=
  (∑ l : Fin I, x i l * W l k) + b k

/-- A dense layer followed by `tanh`. -/
def layer (x : Fin B → Fin I → EReal) (W : Fin I → Fin H → EReal) (b : Fin H → EReal) (i : Fin B) (k : Fin H) : EReal :=
  Ideal.tanh (affine x W b i k)

/-- The logits: two `tanh` layers, then a dense layer. -/
def logits {H' : Nat} (x : Fin B → Fin I → EReal) (W1 : Fin I → Fin H → EReal) (b1 : Fin H → EReal)
    (W2 : Fin H → Fin H' → EReal) (b2 : Fin H' → EReal) (W3 : Fin H' → Fin O → EReal) (b3 : Fin O → EReal) :
    Fin B → Fin O → EReal :=
  affine (layer (layer x W1 b1) W2 b2) W3 b3

/-- A logit under a mask bit: `-∞` where the bit is set. -/
def masked (bit : BitVec 1) (x : EReal) : EReal := Scalar.select bit ⊥ x

/-- Adding the penalty (`-∞` where the bit is set, `0` elsewhere) is selecting: `x + ⊥ = ⊥` and `x + 0 = x` for every
    extended real `x`. -/
theorem add_penalty (bit : BitVec 1) (x : EReal) : x + Scalar.select bit (⊥ : EReal) 0 = masked bit x := by
  unfold masked Scalar.select
  split
  · exact EReal.add_bot x
  · exact add_zero x

end Cert.Mlp

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.KernelPayloads.lean ====
/-
  The two tiled bodies' arithmetic, read at one entry, at the ideal values.

  Each body stores one block, and that block is one pure term of the blocks the body loads. At the ideal
  values every float is an extended real and a change of float format is the identity, so the terms are the
  network's dense layers read entry by entry:

  * a matrix product accumulated from zero, plus a bias row repeated down the rows, is at entry (p, q)
    ∑ k, l (p, k) · r (k, q) + b q: the affine map Cert.Mlp.affine (dense_apply);
  * tanh of that, entry by entry, then narrowed to a shorter format, is Cert.Mlp.layer (tanhDense_apply);
  * the first body is two such layers, the first one's block of values being the second one's left operand
    (hidden_apply); the second body is one affine map plus a loaded block of penalties (logits_apply).

  The bodies also cast each loaded block to its own shape, which changes nothing.
-/
import proofs.«134152_j7868380086274_1_alg».proof.Proof.Gen.KernelIdeal.Skeleton
import proofs.«134152_j7868380086274_1_alg».proof.Proof.MlpSpec
import proofs.«134152_j7868380086274_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-! ## A dense layer read at an entry, for every size -/

section Dense

variable {M K N : Nat} {φ₁ φ₂ : FTy}

/-- The affine part of a dense layer. The product of an M × K matrix with a K × N one, accumulated from
    zero, plus a bias row repeated down the M rows, is at entry (p, q) the sum over k < K of
    l (p, k) · r (k, q), plus the bias at q. -/
theorem dense_apply (d : DotDims ⟨2, ![M, K]⟩ ⟨2, ![K, N]⟩ ⟨2, ![M, N]⟩) (hd : Cert.PlainDot.IsPlain d)
    (prec : Option ContractPrecision) (l : FVec Ideal ⟨2, ![M, K]⟩ φ₁) (r : FVec Ideal ⟨2, ![K, N]⟩ φ₂)
    (b : FVec Ideal ⟨2, ![1, N]⟩ .f32) (hb : (⟨2, ![1, N]⟩ : Shape).Broadcasts ⟨2, ![M, N]⟩) (p : Fin M) (q : Fin N) :
    addf (matmul d prec l r (constant ⟨2, ![M, N]⟩ .f32 0x00000000#32)) (broadcastTo ⟨2, ![M, N]⟩ b hb) (ix2 p q)
      = Cert.Mlp.affine (fun i k => l (ix2 i k)) (fun k n => r (ix2 k n)) (fun n => b (ix2 0 n)) p q := by
  unfold Cert.Mlp.affine
  have hprod : matmul d prec l r (constant ⟨2, ![M, N]⟩ .f32 0x00000000#32) (ix2 p q) = ∑ k : Fin K, l (ix2 p k) * r (ix2 k q) :=
    (Ideal.matmul_constant_zero_apply d prec l r (ix2 p q)).trans (Cert.PlainDot.sum_contr d hd l r p q)
  have hbias : broadcastTo ⟨2, ![M, N]⟩ b hb (ix2 p q) = b (ix2 0 q) := broadcastTo_1b_ab_apply b hb p q
  exact (addf_apply _ _ (ix2 p q)).trans (congrArg₂ (· + ·) hprod hbias)

/-- A whole dense layer. tanh is taken entry by entry and narrowing the float format changes no value, so the
    narrowed tanh of the affine part is at entry (p, q) the tanh of the affine map there. -/
theorem tanhDense_apply (d : DotDims ⟨2, ![M, K]⟩ ⟨2, ![K, N]⟩ ⟨2, ![M, N]⟩) (hd : Cert.PlainDot.IsPlain d)
    (prec : Option ContractPrecision) (l : FVec Ideal ⟨2, ![M, K]⟩ φ₁) (r : FVec Ideal ⟨2, ![K, N]⟩ φ₂)
    (b : FVec Ideal ⟨2, ![1, N]⟩ .f32) (hb : (⟨2, ![1, N]⟩ : Shape).Broadcasts ⟨2, ![M, N]⟩)
    {ψ : FTy} (hψ : ψ.bits < FTy.f32.bits) (p : Fin M) (q : Fin N) :
    truncf ψ (tanh (addf (matmul d prec l r (constant ⟨2, ![M, N]⟩ .f32 0x00000000#32)) (broadcastTo ⟨2, ![M, N]⟩ b hb))) hψ (ix2 p q)
      = Cert.Mlp.layer (fun i k => l (ix2 i k)) (fun k n => r (ix2 k n)) (fun n => b (ix2 0 n)) p q := by
  unfold Cert.Mlp.layer
  exact congrArg Ideal.tanh (dense_apply d hd prec l r b hb p q)

end Dense

/-! ## The three products of this network are plain -/

/-- The first layer's product, 256 × 1712 by 1712 × 1024, contracts columns against rows and has no batch axis. -/
theorem plain_layer1 : Cert.PlainDot.IsPlain dot_S256x1712_S1712x1024_S256x1024_1_0_0_1_n_n := ⟨rfl, rfl, rfl, rfl, rfl, rfl⟩

/-- So does the second layer's, 256 × 1024 by 1024 × 1024. -/
theorem plain_layer2 : Cert.PlainDot.IsPlain dot_S256x1024_S1024x1024_S256x1024_1_0_0_1_n_n := ⟨rfl, rfl, rfl, rfl, rfl, rfl⟩

/-- And the last layer's, 256 × 1024 by 1024 × 2176. -/
theorem plain_layer3 : Cert.PlainDot.IsPlain dot_S256x1024_S1024x2176_S256x2176_1_0_0_1_n_n := ⟨rfl, rfl, rfl, rfl, rfl, rfl⟩

/-! ## The first body: two tanh layers on a block of 256 rows -/

/-- Entry (p, q) of the block the first body stores is the second tanh layer applied to the first, at row p and
    unit q: the inner layer's block of values is the outer product's left operand, entry for entry. -/
theorem hidden_apply (x : Vec Ideal S256x1712 .bf16) (w1 : Vec Ideal S1712x1024 .bf16) (b1 : Vec Ideal S1x1024 .f32)
    (w2 : Vec Ideal S1024x1024 .bf16) (b2 : Vec Ideal S1x1024 .f32) (p : Fin 256) (q : Fin 1024) :
    k0_pay1 (F := Ideal) x w1 b1 w2 b2 (ix2 p q)
      = Cert.Mlp.layer (Cert.Mlp.layer (fun i l => x (ix2 i l)) (fun l k => w1 (ix2 l k)) (fun k => b1 (ix2 0 k)))
          (fun k j => w2 (ix2 k j)) (fun j => b2 (ix2 0 j)) p q := by
  unfold k0_pay1
  -- a block cast to its own shape is the block
  simp only [shapeCast_self]
  -- the outer layer at (p, q), its left operand still the inner layer's block
  refine (tanhDense_apply _ plain_layer2 none _ w2 b2 _ _ p q).trans ?_
  -- that block is the inner layer, entry for entry
  refine congrArg (fun h => Cert.Mlp.layer h (fun k j => w2 (ix2 k j)) (fun j => b2 (ix2 0 j)) p q) ?_
  funext i k
  exact tanhDense_apply _ plain_layer1 none x w1 b1 _ _ i k

/-! ## The second body: the last dense layer plus a block of penalties -/

/-- Entry (p, q) of the block the second body stores is the last layer's affine map at row p and action q, plus
    the penalty loaded for that entry. -/
theorem logits_apply (h : Vec Ideal S256x1024 .bf16) (w3 : Vec Ideal S1024x2176 .bf16) (b3 : Vec Ideal S1x2176 .f32)
    (pen : Vec Ideal S256x2176 .f32) (p : Fin 256) (q : Fin 2176) :
    k1_pay1 (F := Ideal) h w3 b3 pen (ix2 p q)
      = Cert.Mlp.affine (fun i k => h (ix2 i k)) (fun k n => w3 (ix2 k n)) (fun n => b3 (ix2 0 n)) p q + pen (ix2 p q) := by
  unfold k1_pay1
  -- a block cast to its own shape is the block
  simp only [shapeCast_self]
  -- the sum of two blocks is taken entry by entry; the first is the affine part
  exact (addf_apply _ _ (ix2 p q)).trans (congrArg (· + pen (ix2 p q)) (dense_apply _ plain_layer3 none h w3 b3 _ p q))

end Cert.KernelIdeal.Payload

end
-- ==== Proof.HiddenArray.lean ====
/-
  What the first of the two kernel calls leaves in its output array, as ONE function of the arrays it is entered with, at
  the ideal values.

  The grid has 8 points. Point t takes rows 256 t … 256 t + 255 of the 2048 × 1712 input as its block, the two
  weight matrices and the two bias rows whole, and writes its 256 × 1024 result back as rows 256 t … 256 t + 255
  of the 2048 × 1024 output. The result block is two tanh layers of the input block. A dense layer's value at
  a row depends on that row of its input only (affine_row, layer_row, twoLayers_row), so row p of the block's
  result is row 256 t + p of the two layers applied to the WHOLE input: every point writes back its own block
  of one whole-array function (hiddenArray, writtenBack_eq). Row i of the output lies in the block of point
  i / 256, so the eight blocks cover the output (covered), and the output ends holding that function
  (final, hidden_array).
-/
import proofs.«134152_j7868380086274_1_alg».proof.Proof.HiddenRegion
import proofs.«134152_j7868380086274_1_alg».proof.Proof.KernelPayloads
import proofs.«134152_j7868380086274_1_alg».proof.Proof.MlpSpec
import Idealize.ShloMosaic.Lib.Pipeline.Value

noncomputable section

namespace Cert.KernelIdeal.HiddenValue

open Cert.KernelIdeal Cert.KernelIdeal.Gen
open Idealize.ShloMosaic Idealize.ShloMosaic.TcCoe Idealize.ShloMosaic.ValueIdx Idealize.SL.Sem
open Idealize.ShloMosaic.Pipeline (Dat)

/-! ## A dense layer's value at a row depends on that row only -/

section Rows

variable {B B' I H H' : Nat}

/-- Two batches that agree on one row each (row i of the first, row i' of the second) have the same affine
    values on those rows: the sum over the features reads that row only. -/
theorem affine_row (x : Fin B → Fin I → EReal) (x' : Fin B' → Fin I → EReal) (W : Fin I → Fin H → EReal) (b : Fin H → EReal)
    (i : Fin B) (i' : Fin B') (hx : ∀ l, x i l = x' i' l) (k : Fin H) :
    Cert.Mlp.affine x W b i k = Cert.Mlp.affine x' W b i' k := by
  unfold Cert.Mlp.affine
  exact congrArg (· + b k) (Finset.sum_congr rfl fun l _ => congrArg (· * W l k) (hx l))

/-- The same after tanh. -/
theorem layer_row (x : Fin B → Fin I → EReal) (x' : Fin B' → Fin I → EReal) (W : Fin I → Fin H → EReal) (b : Fin H → EReal)
    (i : Fin B) (i' : Fin B') (hx : ∀ l, x i l = x' i' l) (k : Fin H) :
    Cert.Mlp.layer x W b i k = Cert.Mlp.layer x' W b i' k := by
  unfold Cert.Mlp.layer
  exact congrArg Ideal.tanh (affine_row x x' W b i i' hx k)

/-- And through two layers: the first layer's rows agree, so the second layer's do. The weights and biases are
    compared entry by entry, so that two spellings of one matrix may stand on the two sides. -/
theorem twoLayers_row {x : Fin B → Fin I → EReal} {x' : Fin B' → Fin I → EReal}
    {W1 W1' : Fin I → Fin H → EReal} {b1 b1' : Fin H → EReal} {W2 W2' : Fin H → Fin H' → EReal} {b2 b2' : Fin H' → EReal}
    {i : Fin B} {i' : Fin B'} {k k' : Fin H'}
    (hx : ∀ l, x i l = x' i' l) (hW1 : ∀ l h, W1 l h = W1' l h) (hb1 : ∀ h, b1 h = b1' h)
    (hW2 : ∀ h q, W2 h q = W2' h q) (hb2 : ∀ q, b2 q = b2' q) (hk : k = k') :
    Cert.Mlp.layer (Cert.Mlp.layer x W1 b1) W2 b2 i k = Cert.Mlp.layer (Cert.Mlp.layer x' W1' b1') W2' b2' i' k' := by
  obtain rfl : W1 = W1' := funext fun l => funext fun h => hW1 l h
  obtain rfl : b1 = b1' := funext hb1
  obtain rfl : W2 = W2' := funext fun h => funext fun q => hW2 h q
  obtain rfl : b2 = b2' := funext hb2
  subst hk
  exact layer_row _ _ W2 b2 i i' (fun h => layer_row x x' W1 b1 i i' hx h) k

end Rows

/-! ## The array the call leaves -/

variable (V : (c : Dev nD) → (b : Ref sig .tc) → Buf (Elt Ideal) ((c : Thread nD τ).loc b))

/-- The two tanh layers applied to the whole 2048-row input, with the weights and biases as the call finds them:
    entry (i, j) is unit j of the second layer at row i. -/
def hiddenArray (c : Dev nD) : S2048x1024.Idx → EReal := fun i =>
  Cert.Mlp.layer (Cert.Mlp.layer (fun r l => V c main_v19 (ix2 r l)) (fun l k => V c main_v20 (ix2 l k)) (fun k => V c main_v23 (ix2 0 k)))
    (fun k q => V c main_v21 (ix2 k q)) (fun q => V c main_v24 (ix2 0 q)) (i 0) (i 1)

/-- The two spellings of "both offsets are zero". -/
theorem zero_offsets : (![0, 0] : Fin 2 → Nat) = fun _ => 0 := funext fun a => by fin_cases a <;> rfl

/-- The block indices, decided once over the 8 points: the input's and the output's blocks are block row t, block
    column 0, at point t; the weights' and the biases' blocks never move. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The input blocks as parts of their arrays -/

/-- The input's block at point t is rows 256 t … 256 t + 255 of the input. -/
theorem inputBlock_apply (c : Dev nD) (t : Fin cfg0.N) (x : S256x1712.Idx) (k : S2048x1712.Idx)
    (hk0 : (k 0).val = 256 * t.val + (x 0).val) (hk1 : (k 1).val = (x 1).val) :
    (Hidden.blockAt V c 0 t : Vec Ideal S256x1712 .bf16) x = (V c main_v19 : S2048x1712.Idx → EReal) k := by
  obtain ⟨e0, e1, -⟩ := block_indices t
  show V c main_v19 (((cfg0.win 0).blk t).view.emb x) = V c main_v19 k
  refine congrArg _ (funext fun a => Fin.ext ?_)
  match a with
  | ⟨0, _⟩ => show win0_0.index t (0 : Fin 2) * 256 + 1 * (x 0).val = (k 0).val; rw [e0, hk0]; omega
  | ⟨1, _⟩ => show win0_0.index t (1 : Fin 2) * 1712 + 1 * (x 1).val = (k 1).val; rw [e1, hk1]; omega

/-- The first weight matrix's block is the whole matrix at every point. -/
theorem weights1Block_apply (c : Dev nD) (t : Fin cfg0.N) (x : S1712x1024.Idx) :
    (Hidden.blockAt V c 1 t : Vec Ideal S1712x1024 .bf16) x = (V c main_v20 : S1712x1024.Idx → EReal) x := by
  obtain ⟨-, -, e0, e1, -⟩ := block_indices t
  show V c main_v20 (((cfg0.win 1).blk t).view.emb x) = V c main_v20 x
  refine congrArg _ (funext fun a => Fin.ext ?_)
  match a with
  | ⟨0, _⟩ => show win0_1.index t (0 : Fin 2) * 1712 + 1 * (x 0).val = (x 0).val; rw [e0]; omega
  | ⟨1, _⟩ => show win0_1.index t (1 : Fin 2) * 1024 + 1 * (x 1).val = (x 1).val; rw [e1]; omega

/-- The first bias row's block is the whole row. -/
theorem bias1Block_apply (c : Dev nD) (t : Fin cfg0.N) (x : S1x1024.Idx) :
    (Hidden.blockAt V c 2 t : Vec Ideal S1x1024 .f32) x = (V c main_v23 : S1x1024.Idx → EReal) x := by
  obtain ⟨-, -, -, -, e0, e1, -⟩ := block_indices t
  show V c main_v23 (((cfg0.win 2).blk t).view.emb x) = V c main_v23 x
  refine congrArg _ (funext fun a => Fin.ext ?_)
  match a with
  | ⟨0, _⟩ => show win0_2.index t (0 : Fin 2) * 1 + 1 * (x 0).val = (x 0).val; rw [e0]; omega
  | ⟨1, _⟩ => show win0_2.index t (1 : Fin 2) * 1024 + 1 * (x 1).val = (x 1).val; rw [e1]; omega

/-- The second weight matrix's block is the whole matrix. -/
theorem weights2Block_apply (c : Dev nD) (t : Fin cfg0.N) (x : S1024x1024.Idx) :
    (Hidden.blockAt V c 3 t : Vec Ideal S1024x1024 .bf16) x = (V c main_v21 : S1024x1024.Idx → EReal) x := by
  obtain ⟨-, -, -, -, -, -, e0, e1, -⟩ := block_indices t
  show V c main_v21 (((cfg0.win 3).blk t).view.emb x) = V c main_v21 x
  refine congrArg _ (funext fun a => Fin.ext ?_)
  match a with
  | ⟨0, _⟩ => show win0_3.index t (0 : Fin 2) * 1024 + 1 * (x 0).val = (x 0).val; rw [e0]; omega
  | ⟨1, _⟩ => show win0_3.index t (1 : Fin 2) * 1024 + 1 * (x 1).val = (x 1).val; rw [e1]; omega

/-- The second bias row's block is the whole row. -/
theorem bias2Block_apply (c : Dev nD) (t : Fin cfg0.N) (x : S1x1024.Idx) :
    (Hidden.blockAt V c 4 t : Vec Ideal S1x1024 .f32) x = (V c main_v24 : S1x1024.Idx → EReal) x := by
  obtain ⟨-, -, -, -, -, -, -, -, e0, e1, -⟩ := block_indices t
  show V c main_v24 (((cfg0.win 4).blk t).view.emb x) = V c main_v24 x
  refine congrArg _ (funext fun a => Fin.ext ?_)
  match a with
  | ⟨0, _⟩ => show win0_4.index t (0 : Fin 2) * 1 + 1 * (x 0).val = (x 0).val; rw [e0]; omega
  | ⟨1, _⟩ => show win0_4.index t (1 : Fin 2) * 1024 + 1 * (x 1).val = (x 1).val; rw [e1]; omega

/-! ## What a point writes back -/

/-- The stored value of any five blocks at an entry y: the two layers of those blocks at row y 0, unit y 1. -/
theorem stored_entry (x0 : Vec Ideal S256x1712 .bf16) (x1 : Vec Ideal S1712x1024 .bf16) (x2 : Vec Ideal S1x1024 .f32)
    (x3 : Vec Ideal S1024x1024 .bf16) (x4 : Vec Ideal S1x1024 .f32) (y : S256x1024.Idx) :
    k0_pay1 (F := Ideal) x0 x1 x2 x3 x4 y
      = Cert.Mlp.layer (Cert.Mlp.layer (fun i l => x0 (ix2 i l)) (fun l k => x1 (ix2 l k)) (fun k => x2 (ix2 0 k)))
          (fun k j => x3 (ix2 k j)) (fun j => x4 (ix2 0 j)) (y 0) (y 1) :=
  (congrArg (k0_pay1 (F := Ideal) x0 x1 x2 x3 x4) (eq_ix2 y)).trans (Payload.hidden_apply x0 x1 x2 x3 x4 (y 0) (y 1))

/-- Entry y of what point t computes from its blocks is entry k of the whole-array function, when k is y moved down
    by 256 t rows: row y 0 of the input block is row k 0 of the input, and a row of the two layers reads that row only. -/
theorem block_entry (c : Dev nD) (t : Fin cfg0.N) (y : S256x1024.Idx) (k : S2048x1024.Idx)
    (hk0 : (k 0).val = 256 * t.val + (y 0).val) (hk1 : (k 1).val = (y 1).val) :
    k0_pay1 (F := Ideal) (Hidden.blockAt V c 0 t) (Hidden.blockAt V c 1 t) (Hidden.blockAt V c 2 t) (Hidden.blockAt V c 3 t) (Hidden.blockAt V c 4 t) y
      = hiddenArray V c k := by
  refine (stored_entry _ _ _ _ _ y).trans ?_
  unfold hiddenArray
  exact twoLayers_row
    (fun l => inputBlock_apply V c t (ix2 (y 0) l) (ix2 (k 0) l) hk0 rfl)
    (fun l h => weights1Block_apply V c t (ix2 l h))
    (fun h => bias1Block_apply V c t (ix2 0 h))
    (fun h q => weights2Block_apply V c t (ix2 h q))
    (fun q => bias2Block_apply V c t (ix2 0 q))
    (Fin.ext hk1.symm)

/-- WHAT POINT t WRITES BACK is block t of the whole-array function. -/
theorem writtenBack_eq (c : Dev nD) (t : Fin cfg0.N) :
    (Hidden.data (F := Ideal) V c).flushed 5 t = ((cfg0.win 5).blk t).view.read (Elt Ideal) (hiddenArray V c) := by
  show (cfg0.win 5).cut (grid0.coords t) ((Hidden.data (F := Ideal) V c).after 5 t) = _
  rw [Hidden.after5]
  unfold Hidden.stored
  rw [View.canon_unit_zero zero_offsets]
  simp only [View.ld_unit_zero (S := S256x1712) zero_offsets, View.ld_unit_zero (S := S1712x1024) zero_offsets,
    View.ld_unit_zero (S := S1x1024) zero_offsets, View.ld_unit_zero (S := S1024x1024) zero_offsets]
  obtain ⟨-, -, -, -, -, -, -, -, -, -, e0, e1⟩ := block_indices t
  funext y
  refine block_entry V c t _ _ ?_ ?_
  · show win0_5.index t (0 : Fin 2) * 256 + 1 * (y 0).val = 256 * t.val + (y 0).val
    rw [e0]; omega
  · show win0_5.index t (1 : Fin 2) * 1024 + 1 * (y 1).val = (y 1).val
    rw [e1]; omega

/-! ## The blocks cover the output -/

/-- An entry of the output is in point t's block when each coordinate is in the block's range on its axis. -/
theorem mem_block (t : Fin cfg0.N) (i : S2048x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v26).slice (win0_5.rect t)).set ↔ _
  rw [View.set_slice_whole, Rect.mem_set_unit]
  exact Iff.rfl

/-- Row r of the output is in the block of point r / 256, which is written back: every entry is covered. -/
theorem covered (i : S2048x1024.Idx) : ∃ t : Fin cfg0.N, (cfg0.win 5).flush t = true ∧ i ∈ ((cfg0.win 5).blk t).view.set := by
  have hi0 : (i 0).val < 2048 := (i 0).isLt
  have hi1 : (i 1).val < 1024 := (i 1).isLt
  have ht : (i 0).val / 256 < cfg0.N := by show (i 0).val / 256 < 8; omega
  obtain ⟨-, -, -, -, -, -, -, -, -, -, e0, e1⟩ := block_indices ⟨(i 0).val / 256, ht⟩
  refine ⟨⟨(i 0).val / 256, ht⟩, flush0_5 _, ?_⟩
  rw [mem_block]
  intro a
  match a with
  | ⟨0, _⟩ =>
    show win0_5.index ⟨(i 0).val / 256, ht⟩ (0 : Fin 2) * 256 ≤ (i 0).val ∧ (i 0).val < win0_5.index ⟨(i 0).val / 256, ht⟩ (0 : Fin 2) * 256 + 256
    rw [e0]; show (i 0).val / 256 * 256 ≤ (i 0).val ∧ (i 0).val < (i 0).val / 256 * 256 + 256; omega
  | ⟨1, _⟩ =>
    show win0_5.index ⟨(i 0).val / 256, ht⟩ (1 : Fin 2) * 1024 ≤ (i 1).val ∧ (i 1).val < win0_5.index ⟨(i 0).val / 256, ht⟩ (1 : Fin 2) * 1024 + 1024
    rw [e1]; omega

/-! ## The output array after the call -/

/-- The output array after the last point is the whole-array function. -/
theorem final (c : Dev nD) : (Hidden.data (F := Ideal) V c).arrAt 5 cfg0.N = hiddenArray V c :=
  (Hidden.data (F := Ideal) V c).arrAt_eq_of_cover 5 (hiddenArray V c) (fun t _ => writtenBack_eq V c t) covered

/-- Entry (i, j) of the output array after the call: unit j of the second tanh layer at row i of the whole input. -/
theorem hidden_array (V : (c : Dev nD) → (b : Ref sig .tc) → Buf (Elt Ideal) ((c : Thread nD τ).loc b)) (c : Dev nD) (i : Fin 2048) (j : Fin 1024) :
    (Hidden.data (F := Ideal) V c).arrAt 5 cfg0.N (ix2 i j)
      = Cert.Mlp.layer (Cert.Mlp.layer (fun r l => V c main_v19 (ix2 r l)) (fun l k => V c main_v20 (ix2 l k)) (fun k => V c main_v23 (ix2 0 k)))
          (fun k q => V c main_v21 (ix2 k q)) (fun q => V c main_v24 (ix2 0 q)) i j :=
  congrFun (final V c) (ix2 i j)

end Cert.KernelIdeal.HiddenValue

end
-- ==== Proof.OutputArray.lean ====
/-
  What the second tiled computation leaves in its output array, as ONE function of the arrays it is entered with,
  at the extended reals.

  The grid has 8 × 12 points; point `t` works on the tile of batch rows `256 · (t / 12) …` and output columns
  `2176 · (t % 12) …`. Its body is handed the rows' block of the hidden activations, the columns' block of the
  last weight matrix and of the bias row, and the tile of the penalty array, and stores

      ∑ k, h (p, k) · w (k, q) + b q + pen (p, q)

  at entry `(p, q)` of the output tile. A dense layer's value at (row, unit) depends only on that row of its input,
  that column of its weights and that entry of its bias (`affine_congr`), and row `p` of the rows' block is row
  `256 · (t / 12) + p` of the whole array, column `q` of the columns' block is column `2176 · (t % 12) + q`. So the
  tile point `t` writes back is the tile of ONE whole-array function, the last layer's affine map of the whole
  arrays plus the penalty array (`logitsArray`, `tile_eq`). The 96 tiles cover the array — entry `(i, n)` lies in
  the tile of point `12 · (i / 256) + n / 2176` (`covered`) — so after the run the array is that function.
-/
import proofs.«134152_j7868380086274_1_alg».proof.Proof.OutputRegion
import proofs.«134152_j7868380086274_1_alg».proof.Proof.KernelPayloads
import proofs.«134152_j7868380086274_1_alg».proof.Proof.MlpSpec
import Idealize.ShloMosaic.Lib.Pipeline.Value
import Idealize.ShloMosaic.Lib.ValueIdx

noncomputable section

namespace Cert.KernelIdeal.OutputValue

open Cert.KernelIdeal Cert.KernelIdeal.Gen Idealize.ShloMosaic Idealize.ShloMosaic.TcCoe Idealize.ShloMosaic.ValueIdx Idealize.SL.Sem
open Idealize.ShloMosaic.Pipeline (Dat)

/-! ## A dense layer's value depends on one row, one column, one bias entry -/

/-- Two dense layers agree at (row `i`, unit `k`) and (row `i'`, unit `k'`) as soon as the inputs' rows `i`, `i'`, the
    weights' columns `k`, `k'` and the biases' entries `k`, `k'` agree: the two sums over the contraction index have
    equal terms. The batch sizes and the layers' widths may differ. -/
theorem affine_congr {B B' I H H' : Nat} (x : Fin B → Fin I → EReal) (W : Fin I → Fin H → EReal) (b : Fin H → EReal)
    (x' : Fin B' → Fin I → EReal) (W' : Fin I → Fin H' → EReal) (b' : Fin H' → EReal) (i : Fin B) (k : Fin H) (i' : Fin B') (k' : Fin H')
    (hx : ∀ l, x i l = x' i' l) (hW : ∀ l, W l k = W' l k') (hb : b k = b' k') :
    Cert.Mlp.affine x W b i k = Cert.Mlp.affine x' W' b' i' k' := by
  unfold Cert.Mlp.affine
  rw [hb]
  exact congrArg (· + b' k') (Finset.sum_congr rfl fun l _ => by rw [hx l, hW l])

variable (V : (c : Dev nD) → (b : Ref sig .tc) → Buf (Elt Ideal) ((c : Thread nD τ).loc b))

/-! ## The whole-array function -/

/-- What the output array ends holding: at entry `(i, n)` the last layer's affine map of the whole arrays — the hidden
    activations, the last weight matrix, the bias row — at row `i` and action `n`, plus the penalty array's entry. -/
def logitsArray (c : Dev nD) : S2048x26112.Idx → EReal := fun y =>
  Cert.Mlp.affine (fun r k => V c main_v26 (ix2 r k)) (fun k q => V c main_v22 (ix2 k q)) (fun q => V c main_v25 (ix2 0 q))
      (⟨(y 0).val, idx2_lt0 y⟩ : Fin 2048) (⟨(y 1).val, idx2_lt1 y⟩ : Fin 26112)
    + V c main_v17 y

/-! ## Where the tiles are -/

/-- The zero offsets of a whole-buffer rectangle, as a constant function. -/
theorem hz : (![0, 0] : Fin 2 → Nat) = fun _ => 0 := funext fun a => by fin_cases a <;> rfl

/-- The block indices of the five windows at point `t`, decided once over the 96 points: the output and the penalty
    tile are at (row block, column block) `= (t / 12, t % 12)`, the activations' block at `(t / 12, 0)`, the weights'
    and the bias row's at `(0, t % 12)`. -/
theorem tile_coords : ∀ t : Fin cfg1.N,
    win1_4.index t (0 : Fin 2) = t.val / 12 ∧ win1_4.index t (1 : Fin 2) = t.val % 12
    ∧ win1_0.index t (0 : Fin 2) = t.val / 12 ∧ win1_0.index t (1 : Fin 2) = 0
    ∧ win1_1.index t (0 : Fin 2) = 0 ∧ win1_1.index t (1 : Fin 2) = t.val % 12
    ∧ win1_2.index t (0 : Fin 2) = 0 ∧ win1_2.index t (1 : Fin 2) = t.val % 12
    ∧ win1_3.index t (0 : Fin 2) = t.val / 12 ∧ win1_3.index t (1 : Fin 2) = t.val % 12 :=
  (by decide +kernel : ∀ t : Fin grid1.N, _)

/-- The grid has 96 points. -/
theorem points : cfg1.N = 96 := rfl

/-! ## The blocks as parts of the whole arrays -/

/-- The activations' block at point `t`: its entry `x` is the whole array's entry `y` when each coordinate of `y` is
    the block's index times the block's extent plus the coordinate of `x`. -/
theorem block0_apply (c : Dev nD) (t : Fin cfg1.N) (x : S256x1024.Idx) (y : S2048x1024.Idx)
    (h0 : (y 0).val = win1_0.index t (0 : Fin 2) * 256 + (x 0).val) (h1 : (y 1).val = win1_0.index t (1 : Fin 2) * 1024 + (x 1).val) :
    (Output.blockAt V c 0 t : Vec Ideal S256x1024 .bf16) x = V c main_v26 y := by
  unfold Output.blockAt
  rw [View.read_apply]
  show V c main_v26 _ = V c main_v26 y
  congr 1
  funext a; apply Fin.ext
  match a with
  | ⟨0, _⟩ => show win1_0.index t (0 : Fin 2) * 256 + 1 * (x 0).val = (y 0).val; omega
  | ⟨1, _⟩ => show win1_0.index t (1 : Fin 2) * 1024 + 1 * (x 1).val = (y 1).val; omega

/-- The same for the weights' block, -/
theorem block1_apply (c : Dev nD) (t : Fin cfg1.N) (x : S1024x2176.Idx) (y : S1024x26112.Idx)
    (h0 : (y 0).val = win1_1.index t (0 : Fin 2) * 1024 + (x 0).val) (h1 : (y 1).val = win1_1.index t (1 : Fin 2) * 2176 + (x 1).val) :
    (Output.blockAt V c 1 t : Vec Ideal S1024x2176 .bf16) x = V c main_v22 y := by
  unfold Output.blockAt
  rw [View.read_apply]
  show V c main_v22 _ = V c main_v22 y
  congr 1
  funext a; apply Fin.ext
  match a with
  | ⟨0, _⟩ => show win1_1.index t (0 : Fin 2) * 1024 + 1 * (x 0).val = (y 0).val; omega
  | ⟨1, _⟩ => show win1_1.index t (1 : Fin 2) * 2176 + 1 * (x 1).val = (y 1).val; omega

/-- the bias row's block, -/
theorem block2_apply (c : Dev nD) (t : Fin cfg1.N) (x : S1x2176.Idx) (y : S1x26112.Idx)
    (h0 : (y 0).val = win1_2.index t (0 : Fin 2) * 1 + (x 0).val) (h1 : (y 1).val = win1_2.index t (1 : Fin 2) * 2176 + (x 1).val) :
    (Output.blockAt V c 2 t : Vec Ideal S1x2176 .f32) x = V c main_v25 y := by
  unfold Output.blockAt
  rw [View.read_apply]
  show V c main_v25 _ = V c main_v25 y
  congr 1
  funext a; apply Fin.ext
  match a with
  | ⟨0, _⟩ => show win1_2.index t (0 : Fin 2) * 1 + 1 * (x 0).val = (y 0).val; omega
  | ⟨1, _⟩ => show win1_2.index t (1 : Fin 2) * 2176 + 1 * (x 1).val = (y 1).val; omega

/-- and the penalty's tile. -/
theorem block3_apply (c : Dev nD) (t : Fin cfg1.N) (x : S256x2176.Idx) (y : S2048x26112.Idx)
    (h0 : (y 0).val = win1_3.index t (0 : Fin 2) * 256 + (x 0).val) (h1 : (y 1).val = win1_3.index t (1 : Fin 2) * 2176 + (x 1).val) :
    (Output.blockAt V c 3 t : Vec Ideal S256x2176 .f32) x = V c main_v17 y := by
  unfold Output.blockAt
  rw [View.read_apply]
  show V c main_v17 _ = V c main_v17 y
  congr 1
  funext a; apply Fin.ext
  match a with
  | ⟨0, _⟩ => show win1_3.index t (0 : Fin 2) * 256 + 1 * (x 0).val = (y 0).val; omega
  | ⟨1, _⟩ => show win1_3.index t (1 : Fin 2) * 2176 + 1 * (x 1).val = (y 1).val; omega

/-! ## The tile a point writes back -/

/-- Entry `(p, q)` of what the body computes from the four blocks at point `t` is the whole-array function at the
    array's entry `y` under it, `y = (256 · (t / 12) + p, 2176 · (t % 12) + q)`: row `p` of the activations' block is
    row `y 0` of the activations, column `q` of the weights' block is column `y 1` of the weights, likewise the bias
    and the penalty; and a dense layer's value depends on nothing else. -/
theorem tile_entry (c : Dev nD) (t : Fin cfg1.N) (p : Fin 256) (q : Fin 2176) (y : S2048x26112.Idx)
    (hy0 : (y 0).val = win1_4.index t (0 : Fin 2) * 256 + p.val) (hy1 : (y 1).val = win1_4.index t (1 : Fin 2) * 2176 + q.val) :
    k1_pay1 (F := Ideal) (Output.blockAt V c 0 t) (Output.blockAt V c 1 t) (Output.blockAt V c 2 t) (Output.blockAt V c 3 t) (ix2 p q)
      = logitsArray V c y := by
  obtain ⟨e40, e41, e00, e01, e10, e11, e20, e21, e30, e31⟩ := tile_coords t
  have z1 : ((0 : Fin 1) : Nat) = 0 := rfl
  rw [Payload.logits_apply]
  unfold logitsArray
  refine congrArg₂ (· + ·) (affine_congr _ _ _ _ _ _ p q _ _ (fun l => ?_) (fun l => ?_) ?_) ?_
  · exact block0_apply V c t (ix2 p l) (ix2 ⟨(y 0).val, idx2_lt0 y⟩ l)
      (by show (y 0).val = win1_0.index t (0 : Fin 2) * 256 + p.val; omega) (by show l.val = win1_0.index t (1 : Fin 2) * 1024 + l.val; omega)
  · exact block1_apply V c t (ix2 l q) (ix2 l ⟨(y 1).val, idx2_lt1 y⟩)
      (by show l.val = win1_1.index t (0 : Fin 2) * 1024 + l.val; omega) (by show (y 1).val = win1_1.index t (1 : Fin 2) * 2176 + q.val; omega)
  · exact block2_apply V c t (ix2 0 q) (ix2 0 ⟨(y 1).val, idx2_lt1 y⟩)
      (by show ((0 : Fin 1) : Nat) = win1_2.index t (0 : Fin 2) * 1 + ((0 : Fin 1) : Nat); omega) (by show (y 1).val = win1_2.index t (1 : Fin 2) * 2176 + q.val; omega)
  · exact block3_apply V c t (ix2 p q) y
      (by show (y 0).val = win1_3.index t (0 : Fin 2) * 256 + p.val; omega) (by show (y 1).val = win1_3.index t (1 : Fin 2) * 2176 + q.val; omega)

/-- The same at any entry `j` of the tile, the array's entry under it named by the output window's block. -/
theorem tile_at (c : Dev nD) (t : Fin cfg1.N) (j : S256x2176.Idx) :
    k1_pay1 (F := Ideal) (Output.blockAt V c 0 t) (Output.blockAt V c 1 t) (Output.blockAt V c 2 t) (Output.blockAt V c 3 t) j
      = logitsArray V c (((cfg1.win 4).blk t).view.emb j) := by
  obtain ⟨p, q, rfl⟩ : ∃ (p : Fin 256) (q : Fin 2176), j = ix2 p q := ⟨j 0, j 1, eq_ix2 j⟩
  exact tile_entry V c t p q _
    (by show win1_4.index t (0 : Fin 2) * 256 + 1 * p.val = win1_4.index t (0 : Fin 2) * 256 + p.val; omega)
    (by show win1_4.index t (1 : Fin 2) * 2176 + 1 * q.val = win1_4.index t (1 : Fin 2) * 2176 + q.val; omega)

/-- WHAT POINT `t` WRITES BACK is tile `t` of the whole-array function: the body's one store covers its whole output
    buffer with the value it computes from the four whole blocks it loads. -/
theorem tile_eq (c : Dev nD) (t : Fin cfg1.N) :
    (Output.data (F := Ideal) V c).flushed 4 t = ((cfg1.win 4).blk t).view.read (Elt Ideal) (logitsArray V c) := by
  show (cfg1.win 4).cut (grid1.coords t) ((Output.data (F := Ideal) V c).after 4 t) = _
  rw [Output.after4]
  unfold Output.stored
  rw [View.canon_unit_zero hz]
  simp only [View.ld_unit_zero (S := S256x1024) hz, View.ld_unit_zero (S := S1024x2176) hz, View.ld_unit_zero (S := S1x2176) hz,
    View.ld_unit_zero (S := S256x2176) hz]
  funext j
  exact tile_at V c t j

/-! ## The tiles cover the array -/

/-- An entry of the array is in point `t`'s tile iff each of its coordinates is in the tile's range on that axis. -/
theorem mem_tile (t : Fin cfg1.N) (y : S2048x26112.Idx) :
    y ∈ ((cfg1.win 4).blk t).view.set ↔ ∀ a : Fin 2, win1_4.index t a * S256x2176.size a ≤ (y a).val ∧ (y a).val < win1_4.index t a * S256x2176.size a + S256x2176.size a := by
  show y ∈ ((View.whole main_v27).slice (win1_4.rect t)).set ↔ _
  rw [View.set_slice_whole, Rect.mem_set_unit]
  exact Iff.rfl

/-- Every entry `(i, n)` of the array is in the tile of a point that writes back: point `12 · (i / 256) + n / 2176`,
    whose row block is `i / 256` and whose column block is `n / 2176`. -/
theorem covered (y : S2048x26112.Idx) : ∃ t : Fin cfg1.N, (cfg1.win 4).flush t = true ∧ y ∈ ((cfg1.win 4).blk t).view.set := by
  have hy0 : (y 0).val < 2048 := idx2_lt0 y
  have hy1 : (y 1).val < 26112 := idx2_lt1 y
  have hN : cfg1.N = 96 := points
  let t : Fin cfg1.N := ⟨(y 0).val / 256 * 12 + (y 1).val / 2176, by rw [hN]; omega⟩
  have ht : t.val = (y 0).val / 256 * 12 + (y 1).val / 2176 := rfl
  obtain ⟨e40, e41, -⟩ := tile_coords t
  refine ⟨t, flush1_4 t, ?_⟩
  rw [mem_tile]
  intro a
  match a with
  | ⟨0, _⟩ => show win1_4.index t (0 : Fin 2) * 256 ≤ (y 0).val ∧ (y 0).val < win1_4.index t (0 : Fin 2) * 256 + 256; omega
  | ⟨1, _⟩ => show win1_4.index t (1 : Fin 2) * 2176 ≤ (y 1).val ∧ (y 1).val < win1_4.index t (1 : Fin 2) * 2176 + 2176; omega

/-! ## The array after the run -/

/-- After the run the output array is the whole-array function: every point writes back its tile of it, and the
    tiles cover the array. -/
theorem output_whole (c : Dev nD) : (Output.data (F := Ideal) V c).arrAt 4 cfg1.N = logitsArray V c :=
  (Output.data (F := Ideal) V c).arrAt_eq_of_cover 4 (logitsArray V c) (fun t _ => tile_eq V c t) covered

/-- The output array at entry `(i, n)`: the last layer's affine map of the hidden activations, the last weight matrix
    and the bias row at row `i` and action `n`, plus the penalty there. -/
theorem output_array (c : Dev nD) (i : Fin 2048) (n : Fin 26112) :
    (Output.data (F := Ideal) V c).arrAt 4 cfg1.N (ix2 i n)
      = Cert.Mlp.affine (fun r k => V c main_v26 (ix2 r k)) (fun k q => V c main_v22 (ix2 k q)) (fun q => V c main_v25 (ix2 0 q)) i n + V c main_v17 (ix2 i n) :=
  congrFun (output_whole V c) (ix2 i n)

end Cert.KernelIdeal.OutputValue

end
-- ==== Proof.KernelResult.lean ====
/-
  The kernel program's result read at an index, at the ideal values.

  The result buffer is the `[2048, 26112]` array the second kernel call leaves, cut into `512` groups of `51`
  per row: entry `(i, a, b)` is the flat entry `(i, 51·a + b)`. That flat entry is the last dense layer at
  row `i`, unit `51·a + b`, of the hidden activations the first kernel call left, plus the penalty there. The
  hidden activations are the two `tanh` layers of the input rows; the weights and biases the kernels read are
  the arguments themselves (a change of float format; a vector re-laid as a one-row matrix); the penalty is
  `-∞` where the mask bit of `(i, a, b)` is set and `0` elsewhere (the mask re-laid flat and read at
  `(i, 51·a + b)` is the mask at `(i, a, b)`). So the entry is the logit of the specification plus the penalty,
  and adding the penalty is selecting `-∞` under the mask bit (`Cert.Mlp.add_penalty`).
-/
import proofs.«134152_j7868380086274_1_alg».proof.Proof.WholeRun
import proofs.«134152_j7868380086274_1_alg».proof.Proof.HostSide
import proofs.«134152_j7868380086274_1_alg».proof.Proof.HiddenArray
import proofs.«134152_j7868380086274_1_alg».proof.Proof.OutputArray
import proofs.«134152_j7868380086274_1_alg».proof.Proof.MlpSpec
import Idealize.ShloMosaic.Lib.ValueLayout
import Idealize.ShloMosaic.Lib.Pipeline.Value

noncomputable section

namespace Cert.KernelIdeal.Result

open Cert.KernelIdeal Cert.KernelIdeal.Gen Idealize.ShloMosaic Idealize.ShloMosaic.TcCoe Idealize.ShloMosaic.ValueIdx Idealize.SL.Sem Idealize.ShloMosaic.StableHlo

/-! ## Groups of 51 -/

/-- Action `b` of group `a`, as one of the `26112 = 512 · 51` output units. -/
def unit (a : Fin 512) (b : Fin 51) : Fin 26112 := ⟨a.val * 51 + b.val, by have := a.isLt; have := b.isLt; omega⟩

/-- Cutting each row of `26112` into `512` groups of `51` keeps row-major positions: entry `(i, a, b)` of the cut array is
    the flat entry `(i, 51·a + b)`. -/
theorem cut_apply {α : Type} (y : S2048x26112.Idx → α) (i : Fin 2048) (a : Fin 512) (b : Fin 51) :
    shapeCast S2048x512x51 y shapeCasts_S2048x26112_S2048x512x51 (ix3 i a b) = y (ix2 i (unit a b)) := by
  refine shapeCast_apply y shapeCasts_S2048x26112_S2048x512x51 (ix3 i a b) _ ?_
  rw [Shape.rowMajor_val_two, Shape.rowMajor_val_three]
  show i.val * 26112 + (a.val * 51 + b.val) = (i.val * 512 + a.val) * 51 + b.val
  omega

/-- and the other way: the flat entry `(i, 51·a + b)` of the flattened array is entry `(i, a, b)`. -/
theorem flat_apply {α : Type} (y : S2048x512x51.Idx → α) (i : Fin 2048) (a : Fin 512) (b : Fin 51) :
    shapeCast S2048x26112 y shapeCasts_S2048x512x51_S2048x26112 (ix2 i (unit a b)) = y (ix3 i a b) := by
  refine shapeCast_apply y shapeCasts_S2048x512x51_S2048x26112 (ix2 i (unit a b)) _ ?_
  rw [Shape.rowMajor_val_two, Shape.rowMajor_val_three]
  show (i.val * 512 + a.val) * 51 + b.val = i.val * 26112 + (a.val * 51 + b.val)
  omega

/-- A scalar constant spread over an array is that constant at every entry. -/
theorem splat_apply (bits : BitVec 32) (j : S2048x26112.Idx) :
    broadcastInDim S2048x26112 ![] bcast_S_S2048x26112 (constant (F := Ideal) S_ .f32 bits) j = Ideal.ofBits .f32 bits :=
  broadcastInDim_apply _ bcast_S_S2048x26112 _ j ix0 fun a => a.elim0

/-- The penalty at the flat entry `(i, 51·a + b)`: `-∞` where the mask bit of `(i, a, b)` is set, `0` elsewhere. -/
theorem penalty_apply (a1 : FVec Ideal S2048x16x32 .f32) (a2 : FVec Ideal S2048x16x50 .f32) (i : Fin 2048) (a : Fin 512) (b : Fin 51) :
    HostValue.penalty a1 a2 (ix2 i (unit a b)) = Scalar.select (HostValue.maskBits a1 a2 (ix3 i a b)) (⊥ : EReal) 0 := by
  unfold HostValue.penalty
  rw [select_apply, flat_apply, splat_apply, splat_apply]
  have hneg : Ideal.ofBits .f32 0xFF800000#32 = (⊥ : EReal) := by simp [Ideal.ofBits, Ideal.ieee]
  rw [hneg, Ideal.ofBits_zero_f32]

/-- A layer's value depends only on its three ingredients as functions. -/
theorem layer_congr {B I H : Nat} {x x' : Fin B → Fin I → EReal} {W W' : Fin I → Fin H → EReal} {b b' : Fin H → EReal}
    (hx : x = x') (hW : W = W') (hb : b = b') (i : Fin B) (k : Fin H) : Cert.Mlp.layer x W b i k = Cert.Mlp.layer x' W' b' i k := by
  subst hx hW hb; rfl

/-- and likewise a dense layer before its activation. -/
theorem affine_congr {B I H : Nat} {x x' : Fin B → Fin I → EReal} {W W' : Fin I → Fin H → EReal} {b b' : Fin H → EReal}
    (hx : x = x') (hW : W = W') (hb : b = b') (i : Fin B) (k : Fin H) : Cert.Mlp.affine x W b i k = Cert.Mlp.affine x' W' b' i k := by
  subst hx hW hb; rfl

variable (m : (ℓ : Loc nD τ sig) → Buf (Elt Ideal) ℓ) (c : Dev nD)

/-! ## The hidden activations the second kernel call reads -/

/-- What the first kernel call leaves in its output array, at row `r`, unit `k`: the two `tanh` layers of the input rows,
    over the arguments' weights and biases. -/
theorem hidden_eq (r : Fin 2048) (k : Fin 1024) :
    (Whole.entry1 m c main_v26 : S2048x1024.Idx → EReal) (ix2 r k)
      = Cert.Mlp.layer (Cert.Mlp.layer
            (fun r l => HostValue.inputs (m ((c : Thread nD τ).loc main_arg0)) (m ((c : Thread nD τ).loc main_arg1)) (m ((c : Thread nD τ).loc main_arg2)) (ix2 r l))
            (fun l k => (m ((c : Thread nD τ).loc main_arg3) : S1712x1024.Idx → EReal) (ix2 l k)) (fun k => (m ((c : Thread nD τ).loc main_arg4) : S1024.Idx → EReal) (ix1 k)))
          (fun l k => (m ((c : Thread nD τ).loc main_arg5) : S1024x1024.Idx → EReal) (ix2 l k)) (fun k => (m ((c : Thread nD τ).loc main_arg6) : S1024.Idx → EReal) (ix1 k)) r k := by
  have e0 : (Whole.entry1 m c main_v26 : S2048x1024.Idx → EReal) = (Hidden.data (Whole.entry0 m) c).arrAt 5 cfg0.N := Whole.after0_arr m c 5
  refine (congrFun e0 (ix2 r k)).trans ?_
  refine (HiddenValue.hidden_array (Whole.entry0 m) c r k).trans ?_
  have h19 : (fun (r : Fin 2048) (l : Fin 1712) => (Whole.entry0 m c main_v19 : S2048x1712.Idx → EReal) (ix2 r l))
      = fun r l => HostValue.inputs (m ((c : Thread nD τ).loc main_arg0)) (m ((c : Thread nD τ).loc main_arg1)) (m ((c : Thread nD τ).loc main_arg2)) (ix2 r l) :=
    funext fun r => funext fun l => congrFun (HostValue.rows_eq m c) (ix2 r l)
  have h20 : (fun (l : Fin 1712) (k : Fin 1024) => (Whole.entry0 m c main_v20 : S1712x1024.Idx → EReal) (ix2 l k))
      = fun l k => (m ((c : Thread nD τ).loc main_arg3) : S1712x1024.Idx → EReal) (ix2 l k) :=
    funext fun l => funext fun k => congrFun (HostValue.weights1_eq m c) (ix2 l k)
  have h23 : (fun (k : Fin 1024) => (Whole.entry0 m c main_v23 : S1x1024.Idx → EReal) (ix2 0 k))
      = fun k => (m ((c : Thread nD τ).loc main_arg4) : S1024.Idx → EReal) (ix1 k) :=
    funext fun k => (congrFun (HostValue.bias1_eq m c) (ix2 0 k)).trans (shapeCast_a_1a_apply _ _ 0 k)
  have h21 : (fun (l : Fin 1024) (k : Fin 1024) => (Whole.entry0 m c main_v21 : S1024x1024.Idx → EReal) (ix2 l k))
      = fun l k => (m ((c : Thread nD τ).loc main_arg5) : S1024x1024.Idx → EReal) (ix2 l k) :=
    funext fun l => funext fun k => congrFun (HostValue.weights2_eq m c) (ix2 l k)
  have h24 : (fun (k : Fin 1024) => (Whole.entry0 m c main_v24 : S1x1024.Idx → EReal) (ix2 0 k))
      = fun k => (m ((c : Thread nD τ).loc main_arg6) : S1024.Idx → EReal) (ix1 k) :=
    funext fun k => (congrFun (HostValue.bias2_eq m c) (ix2 0 k)).trans (shapeCast_a_1a_apply _ _ 0 k)
  exact layer_congr (funext fun r' => funext fun k' => layer_congr h19 h20 h23 r' k') h21 h24 r k

/-! ## The result -/

/-- The last host operation is the cut into groups of `51`, of what the second kernel call leaves. -/
theorem final_eq : (Whole.final m c (Proc.devRef .tc main_v28) : S2048x512x51.Idx → EReal)
    = shapeCast S2048x512x51 (Whole.after1 m c (Proc.devRef .tc main_v27) : S2048x26112.Idx → EReal) shapeCasts_S2048x26112_S2048x512x51 := by
  show StableHlo.after hostOps2 (Whole.after1 m c) (Proc.devRef .tc main_v28) = _
  after_results
  rfl

/-- THE KERNEL'S RESULT at row `i`, group `a`, action `b`: the specification's logit of unit `51·a + b` of row `i`, or `-∞`
    where the mask bit is set. -/
theorem final_apply (i : Fin 2048) (a : Fin 512) (b : Fin 51) :
    (Whole.final m c (Proc.devRef .tc main_v28) : S2048x512x51.Idx → EReal) (ix3 i a b)
      = Cert.Mlp.masked (HostValue.maskBits (m ((c : Thread nD τ).loc main_arg1)) (m ((c : Thread nD τ).loc main_arg2)) (ix3 i a b))
          (Cert.Mlp.logits
            (fun r l => HostValue.inputs (m ((c : Thread nD τ).loc main_arg0)) (m ((c : Thread nD τ).loc main_arg1)) (m ((c : Thread nD τ).loc main_arg2)) (ix2 r l))
            (fun l k => (m ((c : Thread nD τ).loc main_arg3) : S1712x1024.Idx → EReal) (ix2 l k)) (fun k => (m ((c : Thread nD τ).loc main_arg4) : S1024.Idx → EReal) (ix1 k))
            (fun l k => (m ((c : Thread nD τ).loc main_arg5) : S1024x1024.Idx → EReal) (ix2 l k)) (fun k => (m ((c : Thread nD τ).loc main_arg6) : S1024.Idx → EReal) (ix1 k))
            (fun l k => (m ((c : Thread nD τ).loc main_arg7) : S1024x26112.Idx → EReal) (ix2 l k)) (fun k => (m ((c : Thread nD τ).loc main_arg8) : S26112.Idx → EReal) (ix1 k))
            i (unit a b)) := by
  rw [final_eq, cut_apply]
  have e1 : (Whole.after1 m c (Proc.devRef .tc main_v27) : S2048x26112.Idx → EReal) = (Output.data (Whole.entry1 m) c).arrAt 4 cfg1.N := Whole.after1_arr m c 4
  refine (congrFun e1 (ix2 i (unit a b))).trans ?_
  refine (OutputValue.output_array (Whole.entry1 m) c i (unit a b)).trans ?_
  have h26 : (fun (r : Fin 2048) (k : Fin 1024) => (Whole.entry1 m c main_v26 : S2048x1024.Idx → EReal) (ix2 r k)) = _ :=
    funext fun r => funext fun k => hidden_eq m c r k
  have h22 : (fun (l : Fin 1024) (k : Fin 26112) => (Whole.entry1 m c main_v22 : S1024x26112.Idx → EReal) (ix2 l k))
      = fun l k => (m ((c : Thread nD τ).loc main_arg7) : S1024x26112.Idx → EReal) (ix2 l k) :=
    funext fun l => funext fun k => (congrFun (Whole.after0_of_ne m c main_v22 (by decide)) (ix2 l k)).trans (congrFun (HostValue.weights3_eq m c) (ix2 l k))
  have h25 : (fun (k : Fin 26112) => (Whole.entry1 m c main_v25 : S1x26112.Idx → EReal) (ix2 0 k))
      = fun k => (m ((c : Thread nD τ).loc main_arg8) : S26112.Idx → EReal) (ix1 k) :=
    funext fun k => (congrFun (Whole.after0_of_ne m c main_v25 (by decide)) (ix2 0 k)).trans
      ((congrFun (HostValue.bias3_eq m c) (ix2 0 k)).trans (shapeCast_a_1a_apply _ _ 0 k))
  have h17 : (Whole.entry1 m c main_v17 : S2048x26112.Idx → EReal) (ix2 i (unit a b))
      = Scalar.select (HostValue.maskBits (m ((c : Thread nD τ).loc main_arg1)) (m ((c : Thread nD τ).loc main_arg2)) (ix3 i a b)) (⊥ : EReal) 0 :=
    (congrFun (Whole.after0_of_ne m c main_v17 (by decide)) _).trans ((congrFun (HostValue.penalty_eq m c) _).trans (penalty_apply _ _ i a b))
  rw [h17, affine_congr h26 h22 h25 i (unit a b)]
  exact Cert.Mlp.add_penalty _ _

end Cert.KernelIdeal.Result

end
-- ==== Proof.ReferenceRead.lean ====
/-
  The reference program's result, read one entry at a time, at the extended reals.

  The program concatenates the observation with the two flattened feature arrays into one batch of input
  rows, sends it through three dense layers (`tanh` after the first two), cuts each row of `26112 = 512 · 51`
  logits into `512` groups of `51`, and puts `-∞` wherever a Boolean mask, computed from the feature arrays
  alone, forbids the action. Read at entry `(i, a, b)` this is

      masked (mask (i, a, b)) (logits inputs W1 b1 W2 b2 W3 b3 i (51 · a + b)),

  with `logits` and `masked` the specification's. The mask and the concatenated inputs are kept as two opaque
  arrays: nothing here depends on how they are computed.

  The reading goes layer by layer. A dense layer of the program is a plain matrix product plus a bias vector
  broadcast along the batch axis, so at entry `(r, k)` it is `∑ l, x (r, l) · W (l, k) + b k` (`dense_apply`, for
  every batch size and widths, used three times). The reshape keeps row-major positions: entry `(i, a, b)` of
  the cut array sits at position `(512 · i + a) · 51 + b = 26112 · i + (51 · a + b)`, which is entry
  `(i, 51 · a + b)` of the flat one. The fill value's bit pattern is that of `-∞`, the extended reals' `⊥`.
-/
import proofs.«134152_j7868380086274_1_alg».proof.Proof.Gen.ReferenceIdeal.Read
import proofs.«134152_j7868380086274_1_alg».proof.Proof.MlpSpec
import proofs.«134152_j7868380086274_1_alg».proof.Proof.LibPlainDot

noncomputable section

namespace Cert.ReferenceIdeal.RefValue

open Cert.ReferenceIdeal Cert.ReferenceIdeal.Gen Idealize.ShloMosaic Idealize.ShloMosaic.ValueIdx Idealize.ShloMosaic.TcCoe
  Idealize.SL.Sem Idealize.ShloMosaic.StableHlo

/-! ## The program's terms -/

/- The nine argument arrays: the observation `a0`, the two feature arrays `a1` and `a2`, and for each of the three
    layers its weights and its bias (`a3`, `a4`; `a5`, `a6`; `a7`, `a8`). -/
variable (a0 : FVec Ideal S2048x400 .f32) (a1 : FVec Ideal S2048x16x32 .f32) (a2 : FVec Ideal S2048x16x50 .f32)
  (a3 : FVec Ideal S1712x1024 .f32) (a4 : FVec Ideal S1024 .f32) (a5 : FVec Ideal S1024x1024 .f32) (a6 : FVec Ideal S1024 .f32)
  (a7 : FVec Ideal S1024x26112 .f32) (a8 : FVec Ideal S26112 .f32)

/-- The validity mask: one bit per row `i`, group `a` and action `b`, set where the action is forbidden. It is
    computed from the two feature arrays alone. -/
def maskBits : IVec S2048x512x51 1 :=
  cmpf .une (concatenate S2048x512x51 2 [⟨S2048x512x1, (broadcastInDim S2048x512x1 ![] bcast_S_S2048x512x1 (constant S_ .f32 0x00000000#32))⟩, ⟨S2048x512x50, (select (cmpf .oeq (shapeCast _ (broadcastInDim S2048x16x32x50 ![0, 1, 2, 3] bcast_S2048x16x1x50_S2048x16x32x50_0_1_2_3 (broadcastInDim S2048x16x1x50 ![0, 1, 3] bcast_S2048x16x50_S2048x16x1x50_0_1_3 a2)) shapeCasts_S2048x16x32x50_S2048x512x50) (broadcastInDim S2048x512x50 ![] bcast_S_S2048x512x50 (constant S_ .f32 0xBF800000#32))) (broadcastInDim S2048x512x50 ![0, 1, 2] bcast_S2048x512x1_S2048x512x50_0_1_2 (id (select (cmpf .oeq (broadcastInDim S2048x512x1 ![0, 1] bcast_S2048x512_S2048x512x1_0_1 (shapeCast _ a1 shapeCasts_S2048x16x32_S2048x512)) (broadcastInDim S2048x512x1 ![] bcast_S_S2048x512x1 (constant S_ .f32 0x00000000#32))) (broadcastInDim S2048x512x1 ![] bcast_S_S2048x512x1 (constant S_ .f32 0x3F800000#32)) (broadcastInDim S2048x512x1 ![] bcast_S_S2048x512x1 (constant S_ .f32 0x00000000#32))))) (shapeCast _ (broadcastInDim S2048x16x32x50 ![0, 1, 2, 3] bcast_S2048x16x1x50_S2048x16x32x50_0_1_2_3 (broadcastInDim S2048x16x1x50 ![0, 1, 3] bcast_S2048x16x50_S2048x16x1x50_0_1_3 a2)) shapeCasts_S2048x16x32x50_S2048x512x50))⟩] concatenates_S2048x512x1_S2048x512x50_S2048x512x51_d2) (broadcastInDim S2048x512x51 ![] bcast_S_S2048x512x51 (constant S_ .f32 0x00000000#32))

/-- The network's input rows: the observation, then the two feature arrays flattened, side by side. -/
def inputs : FVec Ideal S2048x1712 .f32 :=
  concatenate S2048x1712 1 [⟨S2048x400, a0⟩, ⟨S2048x512, (shapeCast _ a1 shapeCasts_S2048x16x32_S2048x512)⟩, ⟨S2048x800, (shapeCast _ a2 shapeCasts_S2048x16x50_S2048x800)⟩] concatenates_S2048x400_S2048x512_S2048x800_S2048x1712_d1

/-- The first hidden layer's activations. -/
def hidden1 : FVec Ideal S2048x1024 .f32 :=
  Host.tanh (addf (Host.dotGeneral dot_S2048x1712_S1712x1024_S2048x1024_1_0_0_1_n_n none (inputs a0 a1 a2) a3) (broadcastInDim S2048x1024 ![0, 1] bcast_S1x1024_S2048x1024_0_1 (broadcastInDim S1x1024 ![1] bcast_S1024_S1x1024_1 a4)))

/-- The second hidden layer's activations. -/
def hidden2 : FVec Ideal S2048x1024 .f32 :=
  Host.tanh (addf (Host.dotGeneral dot_S2048x1024_S1024x1024_S2048x1024_1_0_0_1_n_n none (hidden1 a0 a1 a2 a3 a4) a5) (broadcastInDim S2048x1024 ![0, 1] bcast_S1x1024_S2048x1024_0_1 (broadcastInDim S1x1024 ![1] bcast_S1024_S1x1024_1 a6)))

/-- The logits, one flat row of `26112` per batch row. -/
def flatLogits : FVec Ideal S2048x26112 .f32 :=
  addf (Host.dotGeneral dot_S2048x1024_S1024x26112_S2048x26112_1_0_0_1_n_n none (hidden2 a0 a1 a2 a3 a4 a5 a6) a7) (broadcastInDim S2048x26112 ![0, 1] bcast_S1x26112_S2048x26112_0_1 (broadcastInDim S1x26112 ![1] bcast_S26112_S1x26112_1 a8))

/-- The program's result: the logits cut into `512` groups of `51` per row, `-∞` where the mask bit is set. -/
def result : FVec Ideal S2048x512x51 .f32 :=
  select (maskBits a1 a2) (broadcastInDim S2048x512x51 ![] bcast_S_S2048x512x51 (id (constant S_ .f32 0xFF800000#32))) (shapeCast _ (flatLogits a0 a1 a2 a3 a4 a5 a6 a7 a8) shapeCasts_S2048x26112_S2048x512x51)

/-- The term the program's run leaves in its result buffer is `result` of the nine argument buffers: the
    definitions above are that term, cut at the mask, the inputs and the layers. -/
theorem run_eq (m : (ℓ : Loc nD τ sig) → Buf (Elt Ideal) ℓ) (c : Dev nD) :
    select (cmpf (F := Ideal) (φ := .f32) .une (concatenate S2048x512x51 2 [⟨S2048x512x1, (broadcastInDim S2048x512x1 ![] bcast_S_S2048x512x1 (constant (F := Ideal) S_ .f32 0x00000000#32))⟩, ⟨S2048x512x50, (select (cmpf (F := Ideal) (φ := .f32) .oeq (shapeCast _ (broadcastInDim S2048x16x32x50 ![0, 1, 2, 3] bcast_S2048x16x1x50_S2048x16x32x50_0_1_2_3 (broadcastInDim S2048x16x1x50 ![0, 1, 3] bcast_S2048x16x50_S2048x16x1x50_0_1_3 (m ((c.tc : Thread nD τ).loc main_arg2)))) shapeCasts_S2048x16x32x50_S2048x512x50) (broadcastInDim S2048x512x50 ![] bcast_S_S2048x512x50 (constant (F := Ideal) S_ .f32 0xBF800000#32))) (broadcastInDim S2048x512x50 ![0, 1, 2] bcast_S2048x512x1_S2048x512x50_0_1_2 (id (select (cmpf (F := Ideal) (φ := .f32) .oeq (broadcastInDim S2048x512x1 ![0, 1] bcast_S2048x512_S2048x512x1_0_1 (shapeCast _ (m ((c.tc : Thread nD τ).loc main_arg1)) shapeCasts_S2048x16x32_S2048x512)) (broadcastInDim S2048x512x1 ![] bcast_S_S2048x512x1 (constant (F := Ideal) S_ .f32 0x00000000#32))) (broadcastInDim S2048x512x1 ![] bcast_S_S2048x512x1 (constant (F := Ideal) S_ .f32 0x3F800000#32)) (broadcastInDim S2048x512x1 ![] bcast_S_S2048x512x1 (constant (F := Ideal) S_ .f32 0x00000000#32))))) (shapeCast _ (broadcastInDim S2048x16x32x50 ![0, 1, 2, 3] bcast_S2048x16x1x50_S2048x16x32x50_0_1_2_3 (broadcastInDim S2048x16x1x50 ![0, 1, 3] bcast_S2048x16x50_S2048x16x1x50_0_1_3 (m ((c.tc : Thread nD τ).loc main_arg2)))) shapeCasts_S2048x16x32x50_S2048x512x50))⟩] concatenates_S2048x512x1_S2048x512x50_S2048x512x51_d2) (broadcastInDim S2048x512x51 ![] bcast_S_S2048x512x51 (constant (F := Ideal) S_ .f32 0x00000000#32))) (broadcastInDim S2048x512x51 ![] bcast_S_S2048x512x51 (id (constant (F := Ideal) S_ .f32 0xFF800000#32))) (shapeCast _ (addf (F := Ideal) (φ := .f32) (Host.dotGeneral (F := Ideal) (φ₁ := .f32) (φ₂ := .f32) dot_S2048x1024_S1024x26112_S2048x26112_1_0_0_1_n_n none (Host.tanh (F := Ideal) (φ := .f32) (addf (F := Ideal) (φ := .f32) (Host.dotGeneral (F := Ideal) (φ₁ := .f32) (φ₂ := .f32) dot_S2048x1024_S1024x1024_S2048x1024_1_0_0_1_n_n none (Host.tanh (F := Ideal) (φ := .f32) (addf (F := Ideal) (φ := .f32) (Host.dotGeneral (F := Ideal) (φ₁ := .f32) (φ₂ := .f32) dot_S2048x1712_S1712x1024_S2048x1024_1_0_0_1_n_n none (concatenate S2048x1712 1 [⟨S2048x400, (m ((c.tc : Thread nD τ).loc main_arg0))⟩, ⟨S2048x512, (shapeCast _ (m ((c.tc : Thread nD τ).loc main_arg1)) shapeCasts_S2048x16x32_S2048x512)⟩, ⟨S2048x800, (shapeCast _ (m ((c.tc : Thread nD τ).loc main_arg2)) shapeCasts_S2048x16x50_S2048x800)⟩] concatenates_S2048x400_S2048x512_S2048x800_S2048x1712_d1) (m ((c.tc : Thread nD τ).loc main_arg3))) (broadcastInDim S2048x1024 ![0, 1] bcast_S1x1024_S2048x1024_0_1 (broadcastInDim S1x1024 ![1] bcast_S1024_S1x1024_1 (m ((c.tc : Thread nD τ).loc main_arg4)))))) (m ((c.tc : Thread nD τ).loc main_arg5))) (broadcastInDim S2048x1024 ![0, 1] bcast_S1x1024_S2048x1024_0_1 (broadcastInDim S1x1024 ![1] bcast_S1024_S1x1024_1 (m ((c.tc : Thread nD τ).loc main_arg6)))))) (m ((c.tc : Thread nD τ).loc main_arg7))) (broadcastInDim S2048x26112 ![0, 1] bcast_S1x26112_S2048x26112_0_1 (broadcastInDim S1x26112 ![1] bcast_S26112_S1x26112_1 (m ((c.tc : Thread nD τ).loc main_arg8))))) shapeCasts_S2048x26112_S2048x512x51)
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := rfl

/-! ## A dense layer, for every batch size and widths -/

section Dense

variable {B I H : Nat}

/-- A bias vector `b` of length `H`, made a `1 × H` row and then repeated down `B` rows, is `b k` at entry `(r, k)`. -/
theorem biasRows_apply {α : Type} (h1 : (⟨1, ![H]⟩ : Shape).BroadcastsInDim ⟨2, ![1, H]⟩ ![1])
    (h2 : (⟨2, ![1, H]⟩ : Shape).BroadcastsInDim ⟨2, ![B, H]⟩ ![0, 1]) (b : (⟨1, ![H]⟩ : Shape).Idx → α) (r : Fin B) (k : Fin H) :
    broadcastInDim ⟨2, ![B, H]⟩ ![0, 1] h2 (broadcastInDim ⟨2, ![1, H]⟩ ![1] h1 b) (ix2 r k) = b (ix1 k) := by
  refine (broadcastInDim_apply _ h2 _ (ix2 r k) (ix2 ⟨0, Nat.one_pos⟩ k) fun a => ?_).trans
    (broadcastInDim_apply _ h1 b _ (ix1 k) fun a => ?_)
  · match a with
    | ⟨0, _⟩ => show 0 = if (1 : Nat) = 1 then 0 else r.val; rw [if_pos rfl]
    | ⟨1, _⟩ => show k.val = if H = 1 then 0 else k.val; have := k.isLt; split <;> omega
  · match a with
    | ⟨0, _⟩ => show k.val = if H = 1 then 0 else k.val; have := k.isLt; split <;> omega

/-- A dense layer of the program — a plain matrix product plus the bias broadcast along the batch axis — read at
    entry `(r, k)` is the specification's `affine`: `∑ l, x (r, l) · W (l, k) + b k`. -/
theorem dense_apply (d : DotDims ⟨2, ![B, I]⟩ ⟨2, ![I, H]⟩ ⟨2, ![B, H]⟩) (hd : Cert.PlainDot.IsPlain d)
    (h1 : (⟨1, ![H]⟩ : Shape).BroadcastsInDim ⟨2, ![1, H]⟩ ![1]) (h2 : (⟨2, ![1, H]⟩ : Shape).BroadcastsInDim ⟨2, ![B, H]⟩ ![0, 1])
    (x : FVec Ideal ⟨2, ![B, I]⟩ .f32) (W : FVec Ideal ⟨2, ![I, H]⟩ .f32) (b : FVec Ideal ⟨1, ![H]⟩ .f32) (r : Fin B) (k : Fin H) :
    addf (Host.dotGeneral d none x W) (broadcastInDim ⟨2, ![B, H]⟩ ![0, 1] h2 (broadcastInDim ⟨2, ![1, H]⟩ ![1] h1 b)) (ix2 r k)
      = Cert.Mlp.affine (fun r l => x (ix2 r l)) (fun l k => W (ix2 l k)) (fun k => b (ix1 k)) r k := by
  rw [addf_apply, Cert.PlainDot.dotGeneral_apply d hd none x W r k, biasRows_apply h1 h2 b r k]
  rfl

/-- A dense layer followed by the host's `tanh`, read at entry `(r, k)`, is the specification's `layer`: at the
    extended reals the host's `tanh` is the one `tanh` there is. -/
theorem tanhDense_apply (d : DotDims ⟨2, ![B, I]⟩ ⟨2, ![I, H]⟩ ⟨2, ![B, H]⟩) (hd : Cert.PlainDot.IsPlain d)
    (h1 : (⟨1, ![H]⟩ : Shape).BroadcastsInDim ⟨2, ![1, H]⟩ ![1]) (h2 : (⟨2, ![1, H]⟩ : Shape).BroadcastsInDim ⟨2, ![B, H]⟩ ![0, 1])
    (x : FVec Ideal ⟨2, ![B, I]⟩ .f32) (W : FVec Ideal ⟨2, ![I, H]⟩ .f32) (b : FVec Ideal ⟨1, ![H]⟩ .f32) (r : Fin B) (k : Fin H) :
    Host.tanh (addf (Host.dotGeneral d none x W) (broadcastInDim ⟨2, ![B, H]⟩ ![0, 1] h2 (broadcastInDim ⟨2, ![1, H]⟩ ![1] h1 b))) (ix2 r k)
      = Cert.Mlp.layer (fun r l => x (ix2 r l)) (fun l k => W (ix2 l k)) (fun k => b (ix1 k)) r k :=
  (Ideal.hostUnary_tanh_def _).trans (congrArg Ideal.tanh (dense_apply d hd h1 h2 x W b r k))

end Dense

/-! ## The three layers -/

/-- The first layer's product is a plain one: columns of the inputs against rows of the weights. -/
theorem plain1 : Cert.PlainDot.IsPlain dot_S2048x1712_S1712x1024_S2048x1024_1_0_0_1_n_n := ⟨rfl, rfl, rfl, rfl, rfl, rfl⟩
/-- So is the second layer's. -/
theorem plain2 : Cert.PlainDot.IsPlain dot_S2048x1024_S1024x1024_S2048x1024_1_0_0_1_n_n := ⟨rfl, rfl, rfl, rfl, rfl, rfl⟩
/-- And the output layer's. -/
theorem plain3 : Cert.PlainDot.IsPlain dot_S2048x1024_S1024x26112_S2048x26112_1_0_0_1_n_n := ⟨rfl, rfl, rfl, rfl, rfl, rfl⟩

/-- The first hidden layer is `layer` of the inputs. -/
theorem hidden1_eq :
    (fun r k => hidden1 a0 a1 a2 a3 a4 (ix2 r k)) = Cert.Mlp.layer (fun r l => inputs a0 a1 a2 (ix2 r l)) (fun l k => a3 (ix2 l k)) (fun k => a4 (ix1 k)) :=
  funext fun r => funext fun k => tanhDense_apply _ plain1 _ _ (inputs a0 a1 a2) a3 a4 r k

/-- The second hidden layer is `layer` of the first. -/
theorem hidden2_eq :
    (fun r j => hidden2 a0 a1 a2 a3 a4 a5 a6 (ix2 r j))
      = Cert.Mlp.layer (Cert.Mlp.layer (fun r l => inputs a0 a1 a2 (ix2 r l)) (fun l k => a3 (ix2 l k)) (fun k => a4 (ix1 k))) (fun l k => a5 (ix2 l k)) (fun k => a6 (ix1 k)) := by
  rw [← hidden1_eq]
  exact funext fun r => funext fun j => tanhDense_apply _ plain2 _ _ (hidden1 a0 a1 a2 a3 a4) a5 a6 r j

/-- The flat logits are the specification's `logits` of the inputs. -/
theorem flatLogits_apply (r : Fin 2048) (n : Fin 26112) :
    flatLogits a0 a1 a2 a3 a4 a5 a6 a7 a8 (ix2 r n)
      = Cert.Mlp.logits (fun r l => inputs a0 a1 a2 (ix2 r l)) (fun l k => a3 (ix2 l k)) (fun k => a4 (ix1 k)) (fun l k => a5 (ix2 l k)) (fun k => a6 (ix1 k)) (fun l k => a7 (ix2 l k)) (fun k => a8 (ix1 k)) r n := by
  unfold Cert.Mlp.logits
  rw [← hidden2_eq]
  exact dense_apply _ plain3 _ _ (hidden2 a0 a1 a2 a3 a4 a5 a6) a7 a8 r n

/-! ## The reshape, the fill value, the result -/

/-- Cutting each row of `26112` into `512` groups of `51` keeps row-major positions: entry `(i, a, b)` of the cut
    array is entry `(i, 51 · a + b)` of the flat one, both at position `(512 · i + a) · 51 + b`. -/
theorem cut_apply (y : FVec Ideal S2048x26112 .f32) (i : Fin 2048) (a : Fin 512) (b : Fin 51) :
    shapeCast S2048x512x51 y shapeCasts_S2048x26112_S2048x512x51 (ix3 i a b)
      = y (ix2 i ⟨a.val * 51 + b.val, by have := a.isLt; have := b.isLt; omega⟩) := by
  refine shapeCast_apply y shapeCasts_S2048x26112_S2048x512x51 (ix3 i a b) _ ?_
  rw [Shape.rowMajor_val_two, Shape.rowMajor_val_three]
  show i.val * 26112 + (a.val * 51 + b.val) = (i.val * 512 + a.val) * 51 + b.val
  omega

/-- The fill value, a scalar constant spread over the whole array, is `-∞` at every entry: its bit pattern has the
    sign bit set, an all-ones exponent and a zero significand. -/
theorem fill_apply (j : S2048x512x51.Idx) :
    broadcastInDim S2048x512x51 ![] bcast_S_S2048x512x51 (id (constant (F := Ideal) S_ .f32 0xFF800000#32)) j = (⊥ : EReal) := by
  refine (broadcastInDim_apply _ bcast_S_S2048x512x51 _ j ix0 fun a => a.elim0).trans ?_
  show Ideal.ofBits .f32 0xFF800000#32 = ⊥
  simp [Ideal.ofBits, Ideal.ieee]

/-- The result at row `i`, group `a`, action `b`: the logit of action `51 · a + b` of row `i`, or `-∞` where the
    mask bit is set. -/
theorem result_apply (i : Fin 2048) (a : Fin 512) (b : Fin 51) :
    result a0 a1 a2 a3 a4 a5 a6 a7 a8 (ix3 i a b)
      = Cert.Mlp.masked (maskBits a1 a2 (ix3 i a b))
          (Cert.Mlp.logits (fun r l => inputs a0 a1 a2 (ix2 r l)) (fun l k => a3 (ix2 l k)) (fun k => a4 (ix1 k))
             (fun l k => a5 (ix2 l k)) (fun k => a6 (ix1 k)) (fun l k => a7 (ix2 l k)) (fun k => a8 (ix1 k))
             i ⟨a.val * 51 + b.val, by have := a.isLt; have := b.isLt; omega⟩) := by
  unfold result
  rw [select_apply, fill_apply, cut_apply, flatLogits_apply]
  rfl

end Cert.ReferenceIdeal.RefValue

end
-- ==== Proof.lean ====
/-
  The certificate's proof: the five claims of `Cert.Claim`.

  The kernel program is two kernel calls between host operations: the first computes the two `tanh` layers of a
  dense network on blocks of 256 rows, the second the last dense layer on 256 × 2176 tiles and adds a
  penalty, `-∞` on the actions the validity mask forbids and `0` elsewhere; the reference computes the same
  network with whole-array matrix products and SELECTS `-∞` under the mask.

  * The three frames. Each kernel program (the word-level one and its idealization: one text, two instances)
    runs as nine segments — host stretches and the two pipelines, each pipeline's body stepped by the symbolic
    executor on whole staging buffers — to an end where every unscoped buffer holds a known value; no item
    writes an argument (`Whole.run`, `Whole.args_kept`). The reference is host operations only; its frame is its
    generated run with the result dropped.
  * `preserves` is `True`: the idealization rewrote nothing.
  * `algebraic`. At the extended reals a change of float format is the identity, a matrix product into a zero
    accumulator and the host's `dot_general` are the same sums, and `tanh` is one function, so block by block the
    kernel's arrays are the specification's (`Cert.Mlp.logits`) of the same input rows, weights and biases; both
    programs compute the mask bits and the input rows by the same host operations; and adding the penalty is
    selecting under the mask because `x + ⊥ = ⊥` and `x + 0 = x` for EVERY extended real `x`
    (`Cert.Mlp.add_penalty`) — so no finiteness of the inputs is used.
-/
import proofs.«134152_j7868380086274_1_alg».proof.Defs
import proofs.«134152_j7868380086274_1_alg».proof.Proof.Gen.Kernel
import proofs.«134152_j7868380086274_1_alg».proof.Proof.Gen.KernelIdeal
import proofs.«134152_j7868380086274_1_alg».proof.Proof.Gen.ReferenceIdeal
import proofs.«134152_j7868380086274_1_alg».proof.Proof.Gen.ReferenceIdeal.Run
import proofs.«134152_j7868380086274_1_alg».proof.Proof.Gen.ReferenceIdeal.Read
import proofs.«134152_j7868380086274_1_alg».proof.Proof.Gen.Pre_finite_inputs
import proofs.«134152_j7868380086274_1_alg».proof.Proof.ArgsKept
import proofs.«134152_j7868380086274_1_alg».proof.Proof.ArgsKeptBits
import proofs.«134152_j7868380086274_1_alg».proof.Proof.KernelResult
import proofs.«134152_j7868380086274_1_alg».proof.Proof.ReferenceRead
import Idealize.ShloMosaic.Adequacy
import Idealize.ShloMosaic.Init

noncomputable section

namespace Cert.Proof

open Idealize.ShloMosaic Idealize.ShloMosaic.ValueIdx Idealize.SL.Sem

/-! ## The two programs compute the mask and the input rows by the same operations -/

/-- The kernel program's mask bits are the reference's: the same host operations of the map and the flags. -/
theorem mask_same (a1 : FVec Ideal Cert.KernelIdeal.S2048x16x32 .f32) (a2 : FVec Ideal Cert.KernelIdeal.S2048x16x50 .f32) :
    Cert.KernelIdeal.HostValue.maskBits a1 a2 = Cert.ReferenceIdeal.RefValue.maskBits a1 a2 := rfl

/-- and so are its input rows. -/
theorem inputs_same (a0 : FVec Ideal Cert.KernelIdeal.S2048x400 .f32) (a1 : FVec Ideal Cert.KernelIdeal.S2048x16x32 .f32)
    (a2 : FVec Ideal Cert.KernelIdeal.S2048x16x50 .f32) :
    Cert.KernelIdeal.HostValue.inputs a0 a1 a2 = Cert.ReferenceIdeal.RefValue.inputs a0 a1 a2 := rfl

/-- THE BRIDGE: the kernel program's result array is the reference's result term of the same nine arguments, entry by
    entry: both are the specification's masked logit. -/
theorem kernel_result (m : (ℓ : Loc Cert.KernelIdeal.nD Cert.KernelIdeal.τ Cert.KernelIdeal.sig) → Buf (Elt Ideal) ℓ) (c : Dev Cert.KernelIdeal.nD) :
    (Cert.KernelIdeal.Whole.final m c (Proc.devRef .tc Cert.KernelIdeal.main_v28) : Cert.KernelIdeal.S2048x512x51.Idx → EReal)
      = Cert.ReferenceIdeal.RefValue.result
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8)) := by
  funext j
  obtain ⟨i, a, b, rfl⟩ : ∃ (i : Fin 2048) (a : Fin 512) (b : Fin 51), j = ix3 i a b := ⟨j 0, j 1, j 2, eq_ix3 j⟩
  rw [Cert.KernelIdeal.Result.final_apply, Cert.ReferenceIdeal.RefValue.result_apply, mask_same, inputs_same]
  rfl

/-! ## The claims -/

theorem frame_p : Cert.frame_Kernel := fun m ρ _ =>
  (θ_run Cert.Kernel.defs _ _).mono (fun r h => Cert.Kernel.Whole.args_kept m r h) (Cert.Kernel.Whole.run (F := Bits) m ρ)

theorem frame_pi : Cert.frame_KernelIdeal := fun m ρ _ =>
  (θ_run Cert.KernelIdeal.defs _ _).mono (fun r h => Cert.KernelIdeal.Whole.args_kept m r h) (Cert.KernelIdeal.Whole.run (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs, run from memories agreeing on the arguments, end with the reference's result term of those arguments:
    the kernel program by `kernel_result` over its run, the reference by its generated run. -/
theorem algebraic : Cert.algebraic_KernelIdeal_ReferenceIdeal := by
  intro m ρ m' ρ' _ hagree
  refine ⟨fun c => Cert.ReferenceIdeal.RefValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c _ (Cert.KernelIdeal.Whole.mem_uc Cert.KernelIdeal.main_v28 (by decide))).trans (kernel_result m c),
        Cert.KernelIdeal.Whole.args_kept m r h c⟩)
      (Cert.KernelIdeal.Whole.run (F := Ideal) m ρ)
  · refine (θ_run Cert.ReferenceIdeal.defs _ _).mono (fun _ h c => ⟨?_, (h c).2⟩) (Cert.ReferenceIdeal.Value.run (F := Ideal) m' ρ')
    refine ((h c).1.trans (Cert.ReferenceIdeal.RefValue.run_eq m' c)).trans ?_
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
